-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x128 : Shape := ⟨2, ![60000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S60000x128 : S_.BroadcastsInDim S60000x128 (![] : Fin 0 → Fin S60000x128.rank)
  reducesTo_S60000x128_S_d0_1 : S60000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S128x64 .f32) (main_arg13 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S128 .f32) (main_arg9 : FVec F S128x128 .f32) (main_arg10 : FVec F S128 .f32) (main_arg11 : FVec F S128 .f32) (main_arg12 : FVec F S128x64 .f32) (main_arg13 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x64 .f32) (main_arg13 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S60000x128 .f32) (main_arg1 : IVec S2x600000 32) (main_arg2 : FVec F S128x128 .f32) (main_arg3 : FVec F S128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x64 .f32) (main_arg13 : FVec F S64 .f32) : IVec S_ 1 :=
  let main_v0 : FVec F S60000x128 .f32 := Host.absf main_arg0
  let main_cst : FVec F S_ .f32 := constant S_ .f32 0x7F800000#32
  let main_v1 : FVec F S60000x128 .f32 := broadcastInDim S60000x128 ![] bcast_S_S60000x128 main_cst
  let main_v2 : IVec S60000x128 1 := cmpf .olt main_v0 main_v1
  let main_c : IVec S_ 1 := constantI S_ 1 1#1
  let main_v3 : IVec S_ 1 := (fun x v => Host.reduce IntOp.andi x v reducesTo_S60000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S60000x128 : Shape := ⟨2, ![60000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S60000 : Shape := ⟨1, ![60000]⟩
abbrev S600000x1 : Shape := ⟨2, ![600000, 1]⟩
abbrev S600000x128 : Shape := ⟨2, ![600000, 128]⟩
abbrev S60000x1 : Shape := ⟨2, ![60000, 1]⟩
abbrev S1x128 : Shape := ⟨2, ![1, 128]⟩
abbrev S15x8x128 : Shape := ⟨3, ![15, 8, 128]⟩
abbrev S4000x128 : Shape := ⟨2, ![4000, 128]⟩
abbrev S1x8x128 : Shape := ⟨3, ![1, 8, 128]⟩
abbrev S8x128 : Shape := ⟨2, ![8, 128]⟩
abbrev S15x1x128 : Shape := ⟨3, ![15, 1, 128]⟩
abbrev S15x128 : Shape := ⟨2, ![15, 128]⟩
abbrev S1x64 : Shape := ⟨2, ![1, 64]⟩
abbrev S60000x64 : Shape := ⟨2, ![60000, 64]⟩
abbrev S4000x64 : Shape := ⟨2, ![4000, 64]⟩

abbrev nBuf : Space → Nat
  | .hbm => 119
  | .vmem => 46
  | .smem => 0
  | _ => 0

abbrev bufTy : (tb : Table) → Fin (tcTables nBuf tb) → BufTy
  | .hbm, ⟨0, _⟩ => ⟨S60000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S_, .f32⟩
  | .hbm, ⟨19, _⟩ => ⟨S600000, .f32⟩
  | .hbm, ⟨20, _⟩ => ⟨S_, .f32⟩
  | .hbm, ⟨21, _⟩ => ⟨S60000, .f32⟩
  | .hbm, ⟨22, _⟩ => ⟨S600000x1, .i32⟩
  | .hbm, ⟨23, _⟩ => ⟨S60000, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S60000x128, .f32⟩
  | .hbm, ⟨35, _⟩ => ⟨S600000x1, .i32⟩
  | .hbm, ⟨36, _⟩ => ⟨S60000x128, .f32⟩
  | .hbm, ⟨37, _⟩ => ⟨S_, .f32⟩
  | .hbm, ⟨38, _⟩ => ⟨S60000, .f32⟩
  | .hbm, ⟨39, _⟩ => ⟨S60000, .f32⟩
  | .hbm, ⟨40, _⟩ => ⟨S60000x1, .f32⟩
  | .hbm, ⟨41, _⟩ => ⟨S60000x128, .f32⟩
  | .hbm, ⟨42, _⟩ => ⟨S60000x128, .f32⟩
  | .hbm, ⟨43, _⟩ => ⟨S1x128, .f32⟩
  | .hbm, ⟨44, _⟩ => ⟨S60000x128, .f32⟩
  | .hbm, ⟨45, _⟩ => ⟨S15x8x128, .f32⟩
  | .hbm, ⟨46, _⟩ => ⟨S15x8x128, .f32⟩
  | .hbm, ⟨47, _⟩ => ⟨S15x1x128, .f32⟩
  | .hbm, ⟨48, _⟩ => ⟨S15x128, .f32⟩
  | .hbm, ⟨49, _⟩ => ⟨S_, .f32⟩
  | .hbm, ⟨50, _⟩ => ⟨S128, .f32⟩
  | .hbm, ⟨51, _⟩ => ⟨S15x1x128, .f32⟩
  | .hbm, ⟨52, _⟩ => ⟨S15x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S60000x128, .f32⟩
  | .hbm, ⟨71, _⟩ => ⟨S_, .i32⟩
  | .hbm, ⟨72, _⟩ => ⟨S600000, .i32⟩
  | .hbm, ⟨73, _⟩ => ⟨S600000, .i1⟩
  | .hbm, ⟨74, _⟩ => ⟨S_, .i32⟩
  | .hbm, ⟨75, _⟩ => ⟨S600000, .i32⟩
  | .hbm, ⟨76, _⟩ => ⟨S600000, .i32⟩
  | .hbm, ⟨77, _⟩ => ⟨S600000, .i32⟩
  | .hbm, ⟨78, _⟩ => ⟨S600000x1, .i32⟩
  | .hbm, ⟨79, _⟩ => ⟨S600000x128, .f32⟩
  | .hbm, ⟨80, _⟩ => ⟨S_, .f32⟩
  | .hbm, ⟨81, _⟩ => ⟨S60000x128, .f32⟩
  | .hbm, ⟨82, _⟩ => ⟨S600000x1, .i32⟩
  | .hbm, ⟨83, _⟩ => ⟨S60000x128, .f32⟩
  | .hbm, ⟨84, _⟩ => ⟨S_, .f32⟩
  | .hbm, ⟨85, _⟩ => ⟨S60000, .f32⟩
  | .hbm, ⟨86, _⟩ => ⟨S60000, .f32⟩
  | .hbm, ⟨87, _⟩ => ⟨S60000x1, .f32⟩
  | .hbm, ⟨88, _⟩ => ⟨S60000x128, .f32⟩
  | .hbm, ⟨89, _⟩ => ⟨S60000x128, .f32⟩
  | .hbm, ⟨90, _⟩ => ⟨S1x128, .f32⟩
  | .hbm, ⟨91, _⟩ => ⟨S60000x128, .f32⟩
  | .hbm, ⟨92, _⟩ => ⟨S15x8x128, .f32⟩
  | .hbm, ⟨93, _⟩ => ⟨S15x8x128, .f32⟩
  | .hbm, ⟨94, _⟩ => ⟨S15x1x128, .f32⟩
  | .hbm, ⟨95, _⟩ => ⟨S15x128, .f32⟩
  | .hbm, ⟨96, _⟩ => ⟨S_, .f32⟩
  | .hbm, ⟨97, _⟩ => ⟨S128, .f32⟩
  | .hbm, ⟨98, _⟩ => ⟨S15x1x128, .f32⟩
  | .hbm, ⟨99, _⟩ => ⟨S15x128, .f32⟩
  | .hbm, ⟨100, _⟩ => ⟨S_, .f32⟩
  | .hbm, ⟨101, _⟩ => ⟨S128, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S128, .f32⟩
  | .hbm, ⟨110, _⟩ => ⟨S_, .f32⟩
  | .hbm, ⟨111, _⟩ => ⟨S128, .f32⟩
  | .hbm, ⟨112, _⟩ => ⟨S128, .f32⟩
  | .hbm, ⟨113, _⟩ => ⟨S1x128, .f32⟩
  | .hbm, ⟨114, _⟩ => ⟨S1x128, .f32⟩
  | .hbm, ⟨115, _⟩ => ⟨S1x128, .f32⟩
  | .hbm, ⟨116, _⟩ => ⟨S1x128, .f32⟩
  | .hbm, ⟨117, _⟩ => ⟨S1x64, .f32⟩
  | .hbm, ⟨118, _⟩ => ⟨S60000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S4000x128, .f32⟩
  | .local _ .vmem, ⟨14, _⟩ => ⟨S4000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S1x8x128, .f32⟩
  | .local _ .vmem, ⟨31, _⟩ => ⟨S1x8x128, .f32⟩
  | .local _ .vmem, ⟨32, _⟩ => ⟨S1x8x128, .f32⟩
  | .local _ .vmem, ⟨33, _⟩ => ⟨S1x8x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S128x64, .f32⟩
  | .local _ .vmem, ⟨43, _⟩ => ⟨S1x64, .f32⟩
  | .local _ .vmem, ⟨44, _⟩ => ⟨S4000x64, .f32⟩
  | .local _ .vmem, ⟨45, _⟩ => ⟨S4000x64, .f32⟩
  | _, _ => ⟨S60000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_12 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60_0 : Ref sig .tc := ⟨.hbm, 91, rfl⟩
abbrev main_v60_1 : Ref sig .tc := ⟨.hbm, 92, rfl⟩
abbrev main_v60_2 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_cst_15 : Ref sig .tc := ⟨.hbm, 102, rfl⟩
abbrev main_v67 : Ref sig .tc := ⟨.hbm, 103, rfl⟩
abbrev main_v68 : Ref sig .tc := ⟨.hbm, 104, rfl⟩
abbrev main_cst_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_17 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg8_0 : Ref sig .tc := ⟨.vmem, 44, rfl⟩
abbrev cc3_stg8_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem8_0 : DmaSem sig := 44
abbrev cc3_sem8_1 : DmaSem sig := 45

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S4000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S60000 : S_.BroadcastsInDim S60000 (![] : Fin 0 → Fin S60000.rank)
  bcast_S600000_S600000x1_0 : S600000.BroadcastsInDim S600000x1 (![0] : Fin 1 → Fin S600000x1.rank)
  bcast_S_S60000x128 : S_.BroadcastsInDim S60000x128 (![] : Fin 0 → Fin S60000x128.rank)
  bcast_S60000_S60000x1_0 : S60000.BroadcastsInDim S60000x1 (![0] : Fin 1 → Fin S60000x1.rank)
  bcast_S60000x1_S60000x128_0_1 : S60000x1.BroadcastsInDim S60000x128 (![0, 1] : Fin 2 → Fin S60000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S128 : S4000x128.Reduces [0] S128
  broadcasts_S1x128_S8x128 : S1x128.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S15x8x128_S15x1x128_0_0_0 : S15x8x128.Slices ![0, 0, 0] S15x1x128
  shapeCasts_S15x1x128_S15x128 : S15x1x128.ShapeCasts S15x128
  reducesTo_S15x128_S128_d0 : S15x128.ReducesTo [0] S128
  h_S_ : 0 < S_.numel
  bcast_S_S128 : S_.BroadcastsInDim S128 (![] : Fin 0 → Fin S128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S60000_S600000x1_S600000_n_0_0_1_wf : ScatterDims.WF S60000 S600000x1 S600000 [] [0] [0] 1
  gather_S60000x128_S600000x1_S600000x128_1_0_n_n_0_1_1128_wf : GatherDims.WF S60000x128 S600000x1 S600000x128 [1] [0] [] [0] [] 1 ![1, 128]
  scatter_S60000x128_S600000x1_S600000x128_1_0_0_1_wf : ScatterDims.WF S60000x128 S600000x1 S600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S60000x128.size a
  hwx0_0 : ∀ i : grid0.Coords, EltTy.bits .f32 = 32 ∨ (Rect.block (s := S60000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S60000x128.size a
  hwx0_1 : ∀ i : grid0.Coords, EltTy.bits .f32 = 32 ∨ (Rect.block (s := S60000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S60000x128.size a
  hwx0_5 : ∀ i : grid0.Coords, EltTy.bits .f32 = 32 ∨ (Rect.block (s := S60000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S15x8x128.size a
  hwx0_6 : ∀ i : grid0.Coords, EltTy.bits .f32 = 32 ∨ (Rect.block (s := S15x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S15x8x128.size a
  hwx0_7 : ∀ i : grid0.Coords, EltTy.bits .f32 = 32 ∨ (Rect.block (s := S15x8x128) S1x8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S60000x128.size a
  hwx1_0 : ∀ i : grid1.Coords, EltTy.bits .f32 = 32 ∨ (Rect.block (s := S60000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S60000x128.size a
  hwx1_5 : ∀ i : grid1.Coords, EltTy.bits .f32 = 32 ∨ (Rect.block (s := S60000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S60000x128.size a
  hwx2_0 : ∀ i : grid2.Coords, EltTy.bits .f32 = 32 ∨ (Rect.block (s := S60000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S60000x128.size a
  hwx2_1 : ∀ i : grid2.Coords, EltTy.bits .f32 = 32 ∨ (Rect.block (s := S60000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S60000x128.size a
  hwx2_5 : ∀ i : grid2.Coords, EltTy.bits .f32 = 32 ∨ (Rect.block (s := S60000x128) S4000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x8x128.size a ≤ S15x8x128.size a
  hwx2_6 : ∀ i : grid2.Coords, EltTy.bits .f32 = 32 ∨ (Rect.block (s := S15x8x128) S1x8x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x8x128.size a ≤ S15x8x128.size a
  hwx2_7 : ∀ i : grid2.Coords, EltTy.bits .f32 = 32 ∨ (Rect.block (s := S15x8x128) S1x8x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S60000x128.size a
  hwx3_0 : ∀ i : grid3.Coords, EltTy.bits .f32 = 32 ∨ (Rect.block (s := S60000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S60000x128.size a
  hwx3_1 : ∀ i : grid3.Coords, EltTy.bits .f32 = 32 ∨ (Rect.block (s := S60000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x64.size a ≤ S128x64.size a
  hwx3_6 : ∀ i : grid3.Coords, EltTy.bits .f32 = 32 ∨ (Rect.block (s := S128x64) S128x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x64.size a ≤ S60000x64.size a
  hwx3_8 : ∀ i : grid3.Coords, EltTy.bits .f32 = 32 ∨ (Rect.block (s := S60000x64) S4000x64.size (cc3_transform_8 i) (hinb3_8 i)).WholeWords (EltTy.packing .f32)

variable [Facts₀]

def scatter_S60000_S600000x1_S600000_n_0_0_1 : ScatterDims S60000 S600000x1 S600000 where
  updateWindowDims := []
  insertedWindowDims := [0]
  scatterDimsToOperandDims := [0]
  indexVectorDim := 1
  wf := scatter_S60000_S600000x1_S600000_n_0_0_1_wf
def gather_S60000x128_S600000x1_S600000x128_1_0_n_n_0_1_1128 : GatherDims S60000x128 S600000x1 S600000x128 where
  offsetDims := [1]
  collapsedSliceDims := [0]
  operandBatchingDims := []
  startIndicesBatchingDims := []
  startIndexMap := [0]
  indexVectorDim := 1
  sliceSizes := ![1, 128]
  wf := gather_S60000x128_S600000x1_S600000x128_1_0_n_n_0_1_1128_wf
def scatter_S60000x128_S600000x1_S600000x128_1_0_0_1 : ScatterDims S60000x128 S600000x1 S600000x128 where
  updateWindowDims := [1]
  insertedWindowDims := [0]
  scatterDimsToOperandDims := [0]
  indexVectorDim := 1
  wf := scatter_S60000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24_1) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_2) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v24_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60_0) S4000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v60_1) S1x8x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v60_2) S1x8x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v60_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg12) S128x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v79) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v80) S4000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S60000x128 : Shape := ⟨2, ![60000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S60000 : Shape := ⟨1, ![60000]⟩
abbrev S60000x1 : Shape := ⟨2, ![60000, 1]⟩
abbrev S1x128 : Shape := ⟨2, ![1, 128]⟩
abbrev S60000x64 : Shape := ⟨2, ![60000, 64]⟩
abbrev S1x64 : Shape := ⟨2, ![1, 64]⟩

abbrev nBuf : Space → Nat
  | .hbm => 151
  | .vmem => 0
  | .smem => 0
  | _ => 0

abbrev hbmTy0_0 (i : Nat) : BufTy := match i % 128 with
  | 0 => ⟨S60000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x64, .f32⟩
  | 13 => ⟨S64, .f32⟩
  | 14 => ⟨S1x600000, .i32⟩
  | 15 => ⟨S600000, .i32⟩
  | 16 => ⟨S1x600000, .i32⟩
  | 17 => ⟨S600000, .i32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S_, .f32⟩
  | 28 => ⟨S60000x128, .f32⟩
  | 29 => ⟨S600000x1, .i32⟩
  | 30 => ⟨S60000x128, .f32⟩
  | 31 => ⟨S_, .f32⟩
  | 32 => ⟨S600000, .f32⟩
  | 33 => ⟨S_, .f32⟩
  | 34 => ⟨S60000, .f32⟩
  | 35 => ⟨S600000x1, .i32⟩
  | 36 => ⟨S60000, .f32⟩
  | 37 => ⟨S_, .f32⟩
  | 38 => ⟨S60000, .f32⟩
  | 39 => ⟨S60000, .f32⟩
  | 40 => ⟨S60000x1, .f32⟩
  | 41 => ⟨S60000x128, .f32⟩
  | 42 => ⟨S60000x128, .f32⟩
  | 43 => ⟨S60000x128, .f32⟩
  | 44 => ⟨S1x128, .f32⟩
  | 45 => ⟨S60000x128, .f32⟩
  | 46 => ⟨S60000x128, .f32⟩
  | 47 => ⟨S60000x128, .f32⟩
  | 48 => ⟨S60000x128, .f32⟩
  | 49 => ⟨S_, .f32⟩
  | 50 => ⟨S128, .f32⟩
  | 51 => ⟨S_, .f32⟩
  | 52 => ⟨S128, .f32⟩
  | 53 => ⟨S128, .f32⟩
  | 54 => ⟨S1x128, .f32⟩
  | 55 => ⟨S60000x128, .f32⟩
  | 56 => ⟨S60000x128, .f32⟩
  | 57 => ⟨S60000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S60000x128, .f32⟩
  | 65 => ⟨S60000x128, .f32⟩
  | 66 => ⟨S_, .f32⟩
  | 67 => ⟨S128, .f32⟩
  | 68 => ⟨S128, .f32⟩
  | 69 => ⟨S128, .f32⟩
  | 70 => ⟨S1x128, .f32⟩
  | 71 => ⟨S60000x128, .f32⟩
  | 72 => ⟨S60000x128, .f32⟩
  | 73 => ⟨S1x128, .f32⟩
  | 74 => ⟨S60000x128, .f32⟩
  | 75 => ⟨S60000x128, .f32⟩
  | 76 => ⟨S1x128, .f32⟩
  | 77 => ⟨S60000x128, .f32⟩
  | 78 => ⟨S60000x128, .f32⟩
  | 79 => ⟨S_, .f32⟩
  | 80 => ⟨S60000x128, .f32⟩
  | 81 => ⟨S60000x128, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x128, .f32⟩
  | 91 => ⟨S_, .f32⟩
  | 92 => ⟨S60000x128, .f32⟩
  | 93 => ⟨S600000x1, .i32⟩
  | 94 => ⟨S60000x128, .f32⟩
  | 95 => ⟨S_, .f32⟩
  | 96 => ⟨S600000, .f32⟩
  | 97 => ⟨S_, .f32⟩
  | 98 => ⟨S60000, .f32⟩
  | 99 => ⟨S600000x1, .i32⟩
  | 100 => ⟨S60000, .f32⟩
  | 101 => ⟨S_, .f32⟩
  | 102 => ⟨S60000, .f32⟩
  | 103 => ⟨S60000, .f32⟩
  | 104 => ⟨S60000x1, .f32⟩
  | 105 => ⟨S60000x128, .f32⟩
  | 106 => ⟨S60000x128, .f32⟩
  | 107 => ⟨S60000x128, .f32⟩
  | 108 => ⟨S1x128, .f32⟩
  | 109 => ⟨S60000x128, .f32⟩
  | 110 => ⟨S60000x128, .f32⟩
  | 111 => ⟨S60000x128, .f32⟩
  | 112 => ⟨S60000x128, .f32⟩
  | 113 => ⟨S_, .f32⟩
  | 114 => ⟨S128, .f32⟩
  | 115 => ⟨S_, .f32⟩
  | 116 => ⟨S128, .f32⟩
  | 117 => ⟨S128, .f32⟩
  | 118 => ⟨S1x128, .f32⟩
  | 119 => ⟨S60000x128, .f32⟩
  | 120 => ⟨S60000x128, .f32⟩
  | 121 => ⟨S60000x128, .f32⟩
  | 122 => ⟨S_, .f32⟩
  | 123 => ⟨S128, .f32⟩
  | 124 => ⟨S_, .f32⟩
  | 125 => ⟨S128, .f32⟩
  | 126 => ⟨S128, .f32⟩
  | 127 => ⟨S1x128, .f32⟩
  | _ => ⟨S60000x128, .f32⟩

abbrev hbmTy0_1 (i : Nat) : BufTy := match i % 128 with
  | 0 => ⟨S60000x128, .f32⟩
  | 1 => ⟨S60000x128, .f32⟩
  | 2 => ⟨S_, .f32⟩
  | 3 => ⟨S128, .f32⟩
  | 4 => ⟨S128, .f32⟩
  | 5 => ⟨S128, .f32⟩
  | 6 => ⟨S1x128, .f32⟩
  | 7 => ⟨S60000x128, .f32⟩
  | 8 => ⟨S60000x128, .f32⟩
  | 9 => ⟨S1x128, .f32⟩
  | 10 => ⟨S60000x128, .f32⟩
  | 11 => ⟨S60000x128, .f32⟩
  | 12 => ⟨S1x128, .f32⟩
  | 13 => ⟨S60000x128, .f32⟩
  | 14 => ⟨S60000x128, .f32⟩
  | 15 => ⟨S_, .f32⟩
  | 16 => ⟨S60000x128, .f32⟩
  | 17 => ⟨S60000x128, .f32⟩
  | 18 => ⟨S60000x128, .f32⟩
  | 19 => ⟨S60000x64, .f32⟩
  | 20 => ⟨S1x64, .f32⟩
  | 21 => ⟨S60000x64, .f32⟩
  | 22 => ⟨S60000x64, .f32⟩
  | _ => ⟨S60000x128, .f32⟩

abbrev hbmTy (i : Nat) : BufTy := match i / 128 with
  | 0 => hbmTy0_0 i
  | 1 => hbmTy0_1 i
  | _ => ⟨S60000x128, .f32⟩

abbrev bufTy : (tb : Table) → Fin (tcTables nBuf tb) → BufTy
  | .hbm, ⟨i, _⟩ => hbmTy i
  | _, _ => ⟨S60000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call0_cst : Ref sig .tc := ⟨.hbm, 79, rfl⟩
abbrev main_call0_v0 : Ref sig .tc := ⟨.hbm, 80, rfl⟩
abbrev main_v54 : Ref sig .tc := ⟨.hbm, 81, rfl⟩
abbrev main_c_9 : Ref sig .tc := ⟨.hbm, 82, rfl⟩
abbrev main_v55 : Ref sig .tc := ⟨.hbm, 83, rfl⟩
abbrev main_v56 : Ref sig .tc := ⟨.hbm, 84, rfl⟩
abbrev main_c_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_15 : Ref sig .tc := ⟨.hbm, 113, rfl⟩
abbrev main_v80 : Ref sig .tc := ⟨.hbm, 114, rfl⟩
abbrev main_cst_16 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_17 : Ref sig .tc := ⟨.hbm, 122, rfl⟩
abbrev main_v87 : Ref sig .tc := ⟨.hbm, 123, rfl⟩
abbrev main_cst_18 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_19 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_call1_cst : Ref sig .tc := ⟨.hbm, 143, rfl⟩
abbrev main_call1_v0 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S60000x128 : S_.BroadcastsInDim S60000x128 (![] : Fin 0 → Fin S60000x128.rank)
  bcast_S_S60000 : S_.BroadcastsInDim S60000 (![] : Fin 0 → Fin S60000.rank)
  bcast_S60000_S60000x1_0 : S60000.BroadcastsInDim S60000x1 (![0] : Fin 1 → Fin S60000x1.rank)
  bcast_S60000x1_S60000x128_0_1 : S60000x1.BroadcastsInDim S60000x128 (![0, 1] : Fin 2 → Fin S60000x128.rank)
  bcast_S128_S1x128_1 : S128.BroadcastsInDim S1x128 (![1] : Fin 1 → Fin S1x128.rank)
  bcast_S1x128_S60000x128_0_1 : S1x128.BroadcastsInDim S60000x128 (![0, 1] : Fin 2 → Fin S60000x128.rank)
  reducesTo_S60000x128_S128_d0 : S60000x128.ReducesTo [0] S128
  h_S_ : 0 < S_.numel
  bcast_S_S128 : S_.BroadcastsInDim S128 (![] : Fin 0 → Fin S128.rank)
  bcast_S64_S1x64_1 : S64.BroadcastsInDim S1x64 (![1] : Fin 1 → Fin S1x64.rank)
  bcast_S1x64_S60000x64_0_1 : S1x64.BroadcastsInDim S60000x64 (![0, 1] : Fin 2 → Fin S60000x64.rank)
  gather_S60000x128_S600000x1_S600000x128_1_0_n_n_0_1_1128_wf : GatherDims.WF S60000x128 S600000x1 S600000x128 [1] [0] [] [0] [] 1 ![1, 128]
  scatter_S60000x128_S600000x1_S600000x128_1_0_0_1_wf : ScatterDims.WF S60000x128 S600000x1 S600000x128 [1] [0] [0] 1
  scatter_S60000_S600000x1_S600000_n_0_0_1_wf : ScatterDims.WF S60000 S600000x1 S600000 [] [0] [0] 1
  dot_S60000x128_S128x128_S60000x128_1_0_0_1_n_n_wf : DotDims.WF S60000x128 S128x128 S60000x128 [1] [0] [0] [1] [] []
  dot_S60000x128_S128x64_S60000x64_1_0_0_1_n_n_wf : DotDims.WF S60000x128 S128x64 S60000x64 [1] [0] [0] [1] [] []

variable [Facts₀]

def gather_S60000x128_S600000x1_S600000x128_1_0_n_n_0_1_1128 : GatherDims S60000x128 S600000x1 S600000x128 where
  offsetDims := [1]
  collapsedSliceDims := [0]
  operandBatchingDims := []
  startIndicesBatchingDims := []
  startIndexMap := [0]
  indexVectorDim := 1
  sliceSizes := ![1, 128]
  wf := gather_S60000x128_S600000x1_S600000x128_1_0_n_n_0_1_1128_wf
def scatter_S60000x128_S600000x1_S600000x128_1_0_0_1 : ScatterDims S60000x128 S600000x1 S600000x128 where
  updateWindowDims := [1]
  insertedWindowDims := [0]
  scatterDimsToOperandDims := [0]
  indexVectorDim := 1
  wf := scatter_S60000x128_S600000x1_S600000x128_1_0_0_1_wf
def scatter_S60000_S600000x1_S600000_n_0_0_1 : ScatterDims S60000 S600000x1 S600000 where
  updateWindowDims := []
  insertedWindowDims := [0]
  scatterDimsToOperandDims := [0]
  indexVectorDim := 1
  wf := scatter_S60000_S600000x1_S600000_n_0_0_1_wf
def dot_S60000x128_S128x128_S60000x128_1_0_0_1_n_n : DotDims S60000x128 S128x128 S60000x128 where
  lhsContracting := [1]
  rhsContracting := [0]
  lhsNonContracting := [0]
  rhsNonContracting := [1]
  lhsBatch := []
  rhsBatch := []
  wf := dot_S60000x128_S128x128_S60000x128_1_0_0_1_n_n_wf
def dot_S60000x128_S128x64_S60000x64_1_0_0_1_n_n : DotDims S60000x128 S128x64 S60000x64 where
  lhsContracting := [1]
  rhsContracting := [0]
  lhsNonContracting := [0]
  rhsNonContracting := [1]
  lhsBatch := []
  rhsBatch := []
  wf := dot_S60000x128_S128x64_S60000x64_1_0_0_1_n_n_wf

class Facts : Prop extends Facts₀ where

variable [Facts]
-- ==== Proof.KRun.lean ====
/-
  The idealized kernel's run with its result named: every weakly fair execution of @main ends, nothing faulting, with
  the result array holding what the last region's write-backs leave (the contents `W8` at the last segment boundary
  read at the result buffer) and the fourteen argument arrays as launched. The four regions and the host operations
  between them are run as a list of segments, each entered from the contents the previous one leaves.
-/
import proofs.«121575_j111669149883_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result read off the last boundary's contents. -/
theorem run_result : θ_run defs (onTc (τ := τ) (main (F := F))) ⟨m, fun _ => 0, ρ⟩ (fun r => ∀ c : Dev nD,
      r.2.mem ((c.tc : Thread nD τ).loc main_v80) = W8 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v80 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.RunValue

end
-- ==== Proof.LibRealCollapse.lean ====
/-
  The algebra of a two-layer graph convolution on the extended reals. Independent of any program.

  A layer aggregates, at node n, the rows of a feature matrix at the sources of the edges that end in n, each
  row scaled by a per-source weight; the aggregate is scaled by a per-node weight and multiplied by a dense weight
  matrix. Multiplying by the weight matrix BEFORE aggregating gives the same result, because the product is linear in
  the rows: for real entries
      ((Σ_e (Σ_k h e k · W k) · a e) · c = Σ_k ((Σ_e h e k · a e) · c) · W k.
  On the extended reals distributivity fails at the infinities, so the law is stated for entries that are real
  numbers; the predicate `IsReal` and its closure under the operations a layer uses say which entries are.
-/
import Mathlib.Data.EReal.Basic
import Mathlib.Data.EReal.Operations
import Mathlib.Algebra.BigOperators.Ring.Finset
import Mathlib.Algebra.BigOperators.Group.Finset.Sigma
import Mathlib.Tactic.Ring

noncomputable section

namespace Cert.Gcn

open Finset

/-- An extended real that is a real number. -/
def IsReal (v : EReal) : Prop := ∃ r : ℝ, v = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {u v : EReal} (hu : IsReal u) (hv : IsReal v) : IsReal (u + v) := by
  obtain ⟨a, rfl⟩ := hu; obtain ⟨b, rfl⟩ := hv
  exact ⟨a + b, (EReal.coe_add a b).symm⟩

theorem IsReal.mul {u v : EReal} (hu : IsReal u) (hv : IsReal v) : IsReal (u * v) := by
  obtain ⟨a, rfl⟩ := hu; obtain ⟨b, rfl⟩ := hv
  exact ⟨a * b, (EReal.coe_mul a b).symm⟩

theorem IsReal.max {u v : EReal} (hu : IsReal u) (hv : IsReal v) : IsReal (max u v) := by
  rcases max_choice u v with h | h <;> rw [h] <;> assumption

theorem IsReal.sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The dense weight commutes with the weighted aggregation, over the reals. -/
theorem collapse_real {ι κ : Type} [Fintype κ] (S : Finset ι) (h : ι → κ → ℝ) (a : ι → ℝ) (W : κ → ℝ) (c : ℝ) :
    (∑ e ∈ S, (∑ k, h e k * W k) * a e) * c = ∑ k, ((∑ e ∈ S, h e k * a e) * c) * W k := by
  simp only [Finset.sum_mul]
  rw [Finset.sum_comm]
  exact Finset.sum_congr rfl fun k _ => Finset.sum_congr rfl fun e _ => by ring

/-- The same on the extended reals, for entries that are real numbers: the node's result with the weight applied
    before the aggregation equals the result with the weight applied after it; the bias `b` is any extended real. -/
theorem collapse {ι κ : Type} [Fintype κ] (S : Finset ι) (h : ι → κ → EReal) (a : ι → EReal) (W : κ → EReal) (c b : EReal)
    (hh : ∀ e k, IsReal (h e k)) (ha : ∀ e, IsReal (a e)) (hW : ∀ k, IsReal (W k)) (hc : IsReal c) :
    (∑ e ∈ S, (∑ k, h e k * W k) * a e) * c + b = (∑ k, ((∑ e ∈ S, h e k * a e) * c) * W k) + b := by
  choose h' hh' using hh
  choose a' ha' using ha
  choose W' hW' using hW
  obtain ⟨c', rfl⟩ := hc
  refine congrArg (· + b) ?_
  simp only [hh', ha', hW', ← EReal.coe_mul, ← coe_sum]
  exact congrArg _ (collapse_real S h' a' W' c')

end Cert.Gcn

end
-- ==== Proof.LayerMath.lean ====
/-
  One graph-convolution layer with batch normalisation, entry by entry over the extended reals, independent of any
  program.

  For a node-feature matrix `x` (n rows) and its neighbourhood aggregate `agg`, the layer's pre-activation is
      lin agg x Wl Wr bl p q = (Σ_k agg p k · Wl k q + bl q) + Σ_k x p k · Wr k q.
  Batch normalisation takes, per column q, the mean μ q = (Σ_r z r q) / c and the biased variance
  (Σ_r (z r q − μ q)²) / c over all rows (c is the row count as a float), and the layer's output is
      max (((z p q − μ q) · rsqrt (var q + ε)) · γ q + β q) 0.
  A second way to the same variance is E[z²] − μ², clamped below at 0 (`colVarK`); for real entries the two agree
  (`colVarK_eq`, in BatchStats). The last stage is a dense projection of the sum of two layers' outputs.
-/
import Idealize.ShloMosaic.PureOps.Ideal
import proofs.«121575_j111669149883_2_alg».proof.Proof.LibRealCollapse

noncomputable section

namespace Cert.Sage

open Idealize.ShloMosaic Finset

variable {n k d : ℕ}

/-- The pre-activation of a layer at row `p`, column `q`: the aggregate through `Wl`, plus the bias, plus the node's own
    features through `Wr`. -/
def lin (agg x : Fin n → Fin k → EReal) (Wl Wr : Fin k → Fin d → EReal) (bl : Fin d → EReal) (p : Fin n) (q : Fin d) : EReal :=
  (∑ j, agg p j * Wl j q + bl q) + ∑ j, x p j * Wr j q

/-- Column `q`'s mean over all rows, the row count given as the extended real `c`. -/
def colMean (c : EReal) (z : Fin n → Fin d → EReal) (q : Fin d) : EReal := Ideal.div (∑ r, z r q) c

/-- Column `q`'s biased variance: the mean of the squared deviations from the column mean. -/
def colVar (c : EReal) (z : Fin n → Fin d → EReal) (q : Fin d) : EReal :=
  Ideal.div (∑ r, (z r q - colMean c z q) * (z r q - colMean c z q)) c

/-- The same variance computed as the mean of the squares minus the squared mean, clamped below at zero. -/
def colVarK (c : EReal) (z : Fin n → Fin d → EReal) (q : Fin d) : EReal :=
  max (Ideal.div (∑ r, z r q * z r q) c - colMean c z q * colMean c z q) 0

/-- Normalise with a given mean `μ` and variance `v`, scale, shift, and clamp below at zero. -/
def normRelu (ε : EReal) (μ v γ β : Fin d → EReal) (z : Fin n → Fin d → EReal) (p : Fin n) (q : Fin d) : EReal :=
  max (((z p q - μ q) * Ideal.rsqrt (v q + ε)) * γ q + β q) 0

/-- Batch normalisation over the rows followed by the clamp: the layer's output. -/
def bnRelu (c ε : EReal) (γ β : Fin d → EReal) (z : Fin n → Fin d → EReal) : Fin n → Fin d → EReal :=
  normRelu ε (colMean c z) (colVar c z) γ β z

/-- The same with the variance computed the second way. -/
def bnReluK (c ε : EReal) (γ β : Fin d → EReal) (z : Fin n → Fin d → EReal) : Fin n → Fin d → EReal :=
  normRelu ε (colMean c z) (colVarK c z) γ β z

/-- The output projection of the sum of two feature matrices. -/
def outLin (h1 h2 : Fin n → Fin k → EReal) (Wo : Fin k → Fin d → EReal) (bo : Fin d → EReal) (p : Fin n) (q : Fin d) : EReal :=
  ∑ j, (h1 p j + h2 p j) * Wo j q + bo q

end Cert.Sage

end
-- ==== Proof.Model.lean ====
/-
  The network both programs compute, as one function of the fourteen argument arrays.

  Two graph-convolution layers (mean aggregation over in-neighbours, two dense weights and a bias, batch normalisation
  over the nodes, clamp at zero) feed a dense output projection of the sum of the two layers' outputs:
      h1 = layer x,   h2 = layer h1,   out = (h1 + h2) · Wo + bo.
  The neighbourhood aggregate `agg feat ei` — gather the source rows, add them up per destination node, divide by
  max(in-degree, 1) — is kept as the host operations that compute it: both programs compute it by the same operations.
-/
import proofs.«121575_j111669149883_2_alg».proof.Proof.Gen.ReferenceIdeal.Read
import proofs.«121575_j111669149883_2_alg».proof.Proof.LayerMath
import Idealize.ShloMosaic.Lib.ValueIdx

noncomputable section

namespace Cert.Sage

open Idealize.ShloMosaic Idealize.ShloMosaic.ValueIdx

/-- A matrix of extended reals indexed by a rank-2 shape's indices. -/
abbrev Mat (a b : ℕ) := (⟨2, ![a, b]⟩ : Shape).Idx → EReal
/-- A vector of extended reals indexed by a rank-1 shape's indices. -/
abbrev Vct (a : ℕ) := (⟨1, ![a]⟩ : Shape).Idx → EReal
/-- The edge list: row 0 the sources, row 1 the destinations. -/
abbrev Edges := (⟨2, ![2, 600000]⟩ : Shape).Idx → BitVec 32

/-- A matrix read by row and column. -/
def toC {a b : ℕ} (m : Mat a b) : Fin a → Fin b → EReal := fun p q => m (ix2 p q)
/-- A vector read by position. -/
def toV {a : ℕ} (v : Vct a) : Fin a → EReal := fun q => v (ix1 q)
/-- The matrix with given entries. -/
def ofC {a b : ℕ} (f : Fin a → Fin b → EReal) : Mat a b := fun i => f (i 0) (i 1)

theorem ofC_ix2 {a b : ℕ} (f : Fin a → Fin b → EReal) (p : Fin a) (q : Fin b) : ofC f (ix2 p q) = f p q := rfl
theorem toC_ofC {a b : ℕ} (f : Fin a → Fin b → EReal) : toC (ofC f) = f := rfl

/-- The number of nodes as a float. -/
def cN : EReal := Ideal.ofBits .f32 0x476A6000#32
/-- The variance offset of the normalisation. -/
def eps : EReal := Ideal.ofBits .f32 0x3727C5AC#32

/-- Mean aggregation over in-neighbours, as the host computes it: gather the rows of `feat` at the edges' sources,
    add them up at the edges' destinations, divide by max(in-degree, 1). -/
def agg (feat : Mat 60000 128) (ei : Edges) : Mat 60000 128 :=
  Cert.ReferenceIdeal.Read.val_main_v22 (F := Ideal) feat ei

/-- One layer: aggregate, two dense weights and a bias, batch normalisation, clamp. -/
def layer (feat : Mat 60000 128) (ei : Edges) (Wl Wr : Mat 128 128) (bl γ β : Vct 128) : Mat 60000 128 :=
  ofC (bnRelu cN eps (toV γ) (toV β) (lin (toC (agg feat ei)) (toC feat) (toC Wl) (toC Wr) (toV bl)))

/-- The whole network. -/
def model (x : Mat 60000 128) (ei : Edges) (Wl1 : Mat 128 128) (bl1 : Vct 128) (Wr1 : Mat 128 128) (g1 b1 : Vct 128)
    (Wl2 : Mat 128 128) (bl2 : Vct 128) (Wr2 : Mat 128 128) (g2 b2 : Vct 128) (Wo : Mat 128 64) (bo : Vct 64) : Mat 60000 64 :=
  ofC (outLin (toC (layer x ei Wl1 Wr1 bl1 g1 b1)) (toC (layer (layer x ei Wl1 Wr1 bl1 g1 b1) ei Wl2 Wr2 bl2 g2 b2)) (toC Wo) (toV bo))

end Cert.Sage

end
-- ==== Proof.LibUnitAxisLayout.lean ====
/-
  Layout operations around a UNIT AXIS in the middle or at the end of a rank-3 shape, and the merge of the two leading
  axes of a rank-3 shape into one, each read at an index written by coordinates. Independent of any program.

  A shape cast keeps the row-major position: `[a, b] → [a, 1, b]` and `[a, b] → [a, b, 1]` only insert a coordinate that is
  zero, and `[a, b, c] ↔ [a·b, c]` sends `(p, q, k)` to row `p·b + q`, column `k`. A broadcast along a unit axis reads the
  operand at coordinate zero of that axis. A reduction along the last axis of a rank-3 array puts the dropped coordinate back
  in the last place.
-/
import Idealize.ShloMosaic.Lib.Pipeline.Value
import Idealize.ShloMosaic.Lib.ValueIdx
import Idealize.ShloMosaic.PureOps.Reduce

noncomputable section

namespace Cert.Lib

open Idealize.ShloMosaic Idealize.ShloMosaic.ValueIdx

variable {α : Type}

/-- An `[a, b]` array cast to `[a, 1, b]` reads, at `(p, u, c)`, the operand at `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (c : Fin b) :
    shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, c]` array cast to `[n, c]` (so `n = a·b`) reads, at row `p·b + q` and column `k`, the operand at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c)
    (hr : p.val * b + q.val < n) :
    shapeCast ⟨2, ![n, c]⟩ x h (ix2 (⟨p.val * b + q.val, hr⟩ : Fin n) k) = x (ix3 p q k) :=
  shapeCast_apply x h _ _ (by
    rw [Shape.rowMajor_val_three, Shape.rowMajor_val_two]
    rfl)

/-- An `[n, c]` array (`n = a·b`) cast to `[a, b, c]` reads, at `(p, q, k)`, the operand at row `p·b + q`, column `k`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c)
    (hr : p.val * b + q.val < n) :
    shapeCast ⟨3, ![a, b, c]⟩ x h (ix3 p q k) = x (ix2 (⟨p.val * b + q.val, hr⟩ : Fin n) k) :=
  shapeCast_apply x h _ _ (by
    rw [Shape.rowMajor_val_three, Shape.rowMajor_val_two]
    rfl)

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(p, q, k)`, the operand at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Over a rank-3 array reduced along its last axis, the result index `(p, q)` with `k` put back on the dropped axis is
    `(p, q, k)`. -/
theorem lift_last_ix3 {a b c : ℕ} (h : (⟨3, ![a, b, c]⟩ : Shape).Reduces [2] ⟨2, ![a, b]⟩) (p : Fin a) (q : Fin b)
    (k : Fin ((⟨3, ![a, b, c]⟩ : Shape).size 2)) :
    h.lift (ix2 p q) k = ix3 p q (⟨k.val, k.isLt⟩ : Fin c) := by
  funext d; apply Fin.ext
  fin_cases d <;> rfl

end Cert.Lib

end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.KHost.lean ====
/-
  The host operations of the idealized kernel's @main around its regions, read as functions of the buffers they start
  from.

  Before the first and before the third region the host gathers the rows of a feature matrix at the edges' sources
  (a negative index counted from the end), adds them up at the edges' destinations, and divides each node's row by
  max(in-degree, 1): `aggOf feat src dst cnt`. The sources, the destinations and the in-degrees are computed once, from
  the edge list (`srcOf`, `dstOf`, `cntOf`), and read again by the second aggregation. With them the aggregate is the
  reference's own: `aggOf feat (srcOf ei) (dstOf ei) (cntOf ei) = Cert.Sage.agg feat ei`, operation for operation.
-/
import proofs.«121575_j111669149883_2_alg».proof.Proof.Gen.KernelIdeal.Frame
import proofs.«121575_j111669149883_2_alg».proof.Proof.Model
import proofs.«121575_j111669149883_2_alg».proof.Proof.LibUnitAxisLayout
import proofs.«121575_j111669149883_2_alg».proof.Proof.LibRowLayout
import Idealize.ShloMosaic.PureOps.Ideal.Laws
import Idealize.ShloMosaic.Lib.Pipeline.Value
import Idealize.ShloMosaic.PureOps.Ideal

set_option maxRecDepth 16384

noncomputable section

namespace Cert.KernelIdeal.HostOps

open Cert.KernelIdeal Cert.KernelIdeal.Gen
open Idealize.ShloMosaic Idealize.ShloMosaic.TcCoe Idealize.SL.Sem Idealize.ShloMosaic.StableHlo Idealize.ShloMosaic.ValueIdx

/-- The edges' sources: row 0 of the edge list. -/
def srcOf (ei : (⟨S2x600000, .i32⟩ : BufTy).Contents (Elt Ideal)) : (⟨S600000, .i32⟩ : BufTy).Contents (Elt Ideal) :=
  fun i => shapeCast S600000 (extractStridedSlice S1x600000 ![0, 0] ei slices_S2x600000_S1x600000_0_0) shapeCasts_S1x600000_S600000 i

/-- The edges' destinations: row 1 of the edge list. -/
def dstOf (ei : (⟨S2x600000, .i32⟩ : BufTy).Contents (Elt Ideal)) : (⟨S600000, .i32⟩ : BufTy).Contents (Elt Ideal) :=
  fun i => shapeCast S600000 (extractStridedSlice S1x600000 ![1, 0] ei slices_S2x600000_S1x600000_1_0) shapeCasts_S1x600000_S600000 i

/-- The in-degrees: ones added up at the destinations. -/
def cntOf (ei : (⟨S2x600000, .i32⟩ : BufTy).Contents (Elt Ideal)) : (⟨S60000, .f32⟩ : BufTy).Contents (Elt Ideal) :=
  Host.scatterAdd scatter_S60000_S600000x1_S600000_n_0_0_1
    (broadcastInDim S60000 ![] bcast_S_S60000 (constant (F := Ideal) S_ .f32 0x00000000#32))
    (broadcastInDim S600000x1 ![0] bcast_S600000_S600000x1_0 (dstOf ei))
    (broadcastInDim S600000 ![] bcast_S_S600000 (constant (F := Ideal) S_ .f32 0x3F800000#32))

/-- The mean aggregate of `feat` over in-neighbours, from the sources, the destinations and the in-degrees. -/
def aggOf (feat : (⟨S60000x128, .f32⟩ : BufTy).Contents (Elt Ideal)) (src dst : (⟨S600000, .i32⟩ : BufTy).Contents (Elt Ideal))
    (cnt : (⟨S60000, .f32⟩ : BufTy).Contents (Elt Ideal)) : (⟨S60000x128, .f32⟩ : BufTy).Contents (Elt Ideal) :=
  Host.divf
    (Host.scatterAdd scatter_S60000x128_S600000x1_S600000x128_1_0_0_1
      (broadcastInDim S60000x128 ![] bcast_S_S60000x128 (constant (F := Ideal) S_ .f32 0x00000000#32))
      (broadcastInDim S600000x1 ![0] bcast_S600000_S600000x1_0 dst)
      (Host.gather gather_S60000x128_S600000x1_S600000x128_1_0_n_n_0_1_1128 feat
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 60000#32))) src))))
    (broadcastInDim S60000x128 ![0, 1] bcast_S60000x1_S60000x128_0_1
      (broadcastInDim S60000x1 ![0] bcast_S60000_S60000x1_0
        (maximumf cnt (broadcastInDim S60000 ![] bcast_S_S60000 (constant (F := Ideal) S_ .f32 0x3F800000#32)))))

/-- The two programs' dimension records of the row gather, of the row scatter and of the vector scatter are the same
    records. -/
theorem gather_rec : gather_S60000x128_S600000x1_S600000x128_1_0_n_n_0_1_1128
    = Cert.ReferenceIdeal.gather_S60000x128_S600000x1_S600000x128_1_0_n_n_0_1_1128 := rfl
theorem scatter_rec : scatter_S60000x128_S600000x1_S600000x128_1_0_0_1
    = Cert.ReferenceIdeal.scatter_S60000x128_S600000x1_S600000x128_1_0_0_1 := rfl
theorem scatter_vec_rec : scatter_S60000_S600000x1_S600000_n_0_0_1
    = Cert.ReferenceIdeal.scatter_S60000_S600000x1_S600000_n_0_0_1 := rfl

/-- With the sources, destinations and in-degrees of an edge list, the aggregate is the reference's, operation for
    operation. -/
theorem aggOf_eq (feat : (⟨S60000x128, .f32⟩ : BufTy).Contents (Elt Ideal)) (ei : (⟨S2x600000, .i32⟩ : BufTy).Contents (Elt Ideal)) :
    aggOf feat (srcOf ei) (dstOf ei) (cntOf ei) = Cert.Sage.agg feat ei := by
  unfold Cert.Sage.agg aggOf cntOf srcOf dstOf
  rw [gather_rec, scatter_rec, scatter_vec_rec]
  simp only [Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0, Cert.ReferenceIdeal.Read.val_main_c, Cert.ReferenceIdeal.Read.val_main_c_0, Cert.ReferenceIdeal.Read.val_main_cst, Cert.ReferenceIdeal.Read.val_main_cst_1, Cert.ReferenceIdeal.Read.val_main_cst_2, Cert.ReferenceIdeal.Read.val_main_cst_3]

variable (W : Valuation τ sig (Elt Ideal))

/-- After the operations before the first region: the first aggregate. -/
theorem host0_agg : StableHlo.after (hostOps0 (F := Ideal)) W (Proc.devRef .tc main_v22)
    = aggOf (W (Proc.devRef .tc main_arg0)) (srcOf (W (Proc.devRef .tc main_arg1))) (dstOf (W (Proc.devRef .tc main_arg1)))
        (cntOf (W (Proc.devRef .tc main_arg1))) := by
  after_results_simp
  rfl

theorem host0_src : StableHlo.after (hostOps0 (F := Ideal)) W (Proc.devRef .tc main_v1) = srcOf (W (Proc.devRef .tc main_arg1)) := by
  after_results_simp
  rfl

theorem host0_dst : StableHlo.after (hostOps0 (F := Ideal)) W (Proc.devRef .tc main_v3) = dstOf (W (Proc.devRef .tc main_arg1)) := by
  after_results_simp
  rfl

theorem host0_cnt : StableHlo.after (hostOps0 (F := Ideal)) W (Proc.devRef .tc main_v7) = cntOf (W (Proc.devRef .tc main_arg1)) := by
  after_results_simp
  rfl

/-- … and the first bias as a row. -/
theorem host0_bias : StableHlo.after (hostOps0 (F := Ideal)) W (Proc.devRef .tc main_v23)
    = shapeCast S1x128 (W (Proc.devRef .tc main_arg3)) shapeCasts_S128_S1x128 := by
  after_results_simp
  rfl

/-- After the operations before the third region: the aggregate of the first layer's output, from the sources,
    destinations and in-degrees still in their buffers. -/
theorem host2_agg : StableHlo.after (hostOps2 (F := Ideal)) W (Proc.devRef .tc main_v58)
    = aggOf (W (Proc.devRef .tc main_v43)) (W (Proc.devRef .tc main_v1)) (W (Proc.devRef .tc main_v3)) (W (Proc.devRef .tc main_v7)) := by
  after_results_simp
  rfl

theorem host2_bias : StableHlo.after (hostOps2 (F := Ideal)) W (Proc.devRef .tc main_v59)
    = shapeCast S1x128 (W (Proc.devRef .tc main_arg8)) shapeCasts_S128_S1x128 := by
  after_results_simp
  rfl

/-! ## Between a dense-layer region and the normalisation: the batch statistics from the per-tile sums -/

/-- Row 0 of every tile, added up over the 15 tiles: the column totals. -/
def tileTotal (s : (⟨S15x8x128, .f32⟩ : BufTy).Contents (Elt Ideal)) : (⟨S128, .f32⟩ : BufTy).Contents (Elt Ideal) :=
  Host.reduceAdd (fun i => shapeCast S15x128 (extractStridedSlice S15x1x128 ![0, 0, 0] s slices_S15x8x128_S15x1x128_0_0_0)
      shapeCasts_S15x1x128_S15x128 i) (constant (F := Ideal) S_ .f32 0x00000000#32) reducesTo_S15x128_S128_d0 h_S_

/-- The column means: the totals of the sums over the node count. -/
def meanOf (s : (⟨S15x8x128, .f32⟩ : BufTy).Contents (Elt Ideal)) : (⟨S128, .f32⟩ : BufTy).Contents (Elt Ideal) :=
  Host.divf (tileTotal s) (broadcastInDim S128 ![] bcast_S_S128 (constant (F := Ideal) S_ .f32 0x476A6000#32))

/-- The column variances: the mean of the squares minus the squared mean, clamped below at zero. -/
def varOf (s q : (⟨S15x8x128, .f32⟩ : BufTy).Contents (Elt Ideal)) : (⟨S128, .f32⟩ : BufTy).Contents (Elt Ideal) :=
  maximumf (subf (Host.divf (tileTotal q) (broadcastInDim S128 ![] bcast_S_S128 (constant (F := Ideal) S_ .f32 0x476A6000#32)))
      (mulf (meanOf s) (meanOf s)))
    (broadcastInDim S128 ![] bcast_S_S128 (constant (F := Ideal) S_ .f32 0x00000000#32))

theorem host1_mean : StableHlo.after (hostOps1 (F := Ideal)) W (Proc.devRef .tc main_v39)
    = shapeCast S1x128 (meanOf (W (Proc.devRef .tc main_v24_1))) shapeCasts_S128_S1x128 := by
  after_results_simp
  rfl

theorem host1_var : StableHlo.after (hostOps1 (F := Ideal)) W (Proc.devRef .tc main_v40)
    = shapeCast S1x128 (varOf (W (Proc.devRef .tc main_v24_1)) (W (Proc.devRef .tc main_v24_2))) shapeCasts_S128_S1x128 := by
  after_results_simp
  rfl

theorem host1_gamma : StableHlo.after (hostOps1 (F := Ideal)) W (Proc.devRef .tc main_v41)
    = shapeCast S1x128 (W (Proc.devRef .tc main_arg5)) shapeCasts_S128_S1x128 := by
  after_results_simp
  rfl

theorem host1_beta : StableHlo.after (hostOps1 (F := Ideal)) W (Proc.devRef .tc main_v42)
    = shapeCast S1x128 (W (Proc.devRef .tc main_arg6)) shapeCasts_S128_S1x128 := by
  after_results_simp
  rfl

theorem host3_mean : StableHlo.after (hostOps3 (F := Ideal)) W (Proc.devRef .tc main_v75)
    = shapeCast S1x128 (meanOf (W (Proc.devRef .tc main_v60_1))) shapeCasts_S128_S1x128 := by
  after_results_simp
  rfl

theorem host3_var : StableHlo.after (hostOps3 (F := Ideal)) W (Proc.devRef .tc main_v76)
    = shapeCast S1x128 (varOf (W (Proc.devRef .tc main_v60_1)) (W (Proc.devRef .tc main_v60_2))) shapeCasts_S128_S1x128 := by
  after_results_simp
  rfl

theorem host3_gamma : StableHlo.after (hostOps3 (F := Ideal)) W (Proc.devRef .tc main_v77)
    = shapeCast S1x128 (W (Proc.devRef .tc main_arg10)) shapeCasts_S128_S1x128 := by
  after_results_simp
  rfl

theorem host3_beta : StableHlo.after (hostOps3 (F := Ideal)) W (Proc.devRef .tc main_v78)
    = shapeCast S1x128 (W (Proc.devRef .tc main_arg11)) shapeCasts_S128_S1x128 := by
  after_results_simp
  rfl

theorem host3_bias : StableHlo.after (hostOps3 (F := Ideal)) W (Proc.devRef .tc main_v79)
    = shapeCast S1x64 (W (Proc.devRef .tc main_arg13)) shapeCasts_S64_S1x64 := by
  after_results_simp
  rfl

/-- The column totals at column q: the sum over the tiles of row 0 of each tile. -/
theorem tileTotal_apply (s : (⟨S15x8x128, .f32⟩ : BufTy).Contents (Elt Ideal)) (q : Fin 128) :
    tileTotal s (ix1 q) = Ideal.ofBits .f32 0x00000000#32 + ∑ t : Fin 15, s (ix3 t 0 q) := by
  unfold tileTotal
  simp only [Host.reduceAdd, Ideal.hostReduceAdd_def]
  rw [Ideal.hostReduceAdd_single reducesTo_S15x128_S128_d0 (by decide)]
  refine congrArg₂ (· + ·) rfl (Finset.sum_congr rfl fun t _ => ?_)
  have ht : t.val < 15 := t.isLt
  generalize hj : Shape.Reduces.lift _ (ix1 q) t = j
  have j0 : (j 0).val = t.val := by rw [← hj]; rfl
  have j1 : (j 1).val = q.val := by rw [← hj]; rfl
  have ej : j = ix2 (⟨t.val * 1 + (0 : Fin 1).val, by show t.val * 1 + 0 < 15; omega⟩ : Fin 15) q :=
    funext fun a => Fin.ext (by
      match a with
      | ⟨0, _⟩ => show (j 0).val = t.val * 1 + 0; omega
      | ⟨1, _⟩ => exact j1)
  rw [ej]
  refine (Cert.Lib.shapeCast_abc_nc_apply (a := 15) (b := 1) (c := 128) _ shapeCasts_S15x1x128_S15x128 ⟨t.val, ht⟩ (0 : Fin 1) q _).trans ?_
  exact extractStridedSlice_apply ![0, 0, 0] s slices_S15x8x128_S15x1x128_0_0_0 (ix3 ⟨t.val, ht⟩ 0 q) (ix3 t 0 q) (fun a => by
    match a with
    | ⟨0, _⟩ => show t.val = 0 + t.val; omega
    | ⟨1, _⟩ => show 0 = 0 + 0; rfl
    | ⟨2, _⟩ => show q.val = 0 + q.val; omega)

end Cert.KernelIdeal.HostOps

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.KBody.lean ====
/-
  What the four kernel bodies compute on one block, entry by entry over the extended reals.

  The dense-layer body takes a block of 4000 rows of the aggregate `a` and of the features `x`, the two 128×128
  weights and the bias row, and stores  a·Wl + x·Wr + b  (`pre_apply`), its column sums (`colsum_apply`) and the column
  sums of its squares (`colsumsq_apply`), each spread over the eight rows of a [1, 8, 128] tile. The normalisation body
  stores  max(((h − μ)·rsqrt(v + ε))·γ + β, 0)  (`norm_apply`), and the last body the projection
  (h1 + that)·Wo + bo  (`final_apply`). A change of float format is the identity here, a matrix product into a zero
  accumulator is the plain sum over the contracted axis, and a lane reduction is the plain sum over the rows.
-/
import proofs.«121575_j111669149883_2_alg».proof.Proof.Gen.KernelIdeal.Skeleton
import proofs.«121575_j111669149883_2_alg».proof.Proof.LibPlainDot
import proofs.«121575_j111669149883_2_alg».proof.Proof.LibAxisSums
import proofs.«121575_j111669149883_2_alg».proof.Proof.LibRowLayout
import proofs.«121575_j111669149883_2_alg».proof.Proof.LayerMath
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- A product of a 4000-row block with a 128×128 weight, into a zero accumulator, at (p, q). -/
theorem mm128 {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) :=
  Cert.Lib.matmul_zero_apply dot_S4000x128_S128x128_S4000x128_1_0_0_1_n_n_wf none l r p q

/-- The same with the 128×64 output weight. -/
theorem mm64 {φ₁ φ₂ : FTy} (l : FVec Ideal S4000x128 φ₁) (r : FVec Ideal S128x64 φ₂) (p : Fin 4000) (q : Fin 64) :
    matmul dot_S4000x128_S128x64_S4000x64_1_0_0_1_n_n none l r (constant (F := Ideal) S4000x64 .f32 0x00000000#32) (ix2 p q)
      = ∑ k : Fin 128, l (ix2 p k) * r (ix2 k q) :=
  Cert.Lib.matmul_zero_apply dot_S4000x128_S128x64_S4000x64_1_0_0_1_n_n_wf none l r p q

/-- A [1,128] row spread over 4000 rows, read at (p, q). -/
theorem row128 (v : FVec Ideal S1x128 .f32) (p : Fin 4000) (q : Fin 128) :
    broadcastTo S4000x128 (shapeCast S1x128 v shapeCasts_S1x128_S1x128) broadcasts_S1x128_S4000x128 (ix2 p q) = v (ix2 0 q) := by
  rw [shapeCast_self]
  exact broadcastTo_1b_ab_apply v broadcasts_S1x128_S4000x128 p q

/-- The dense-layer body's stored block at (p, q). -/
theorem pre_apply (a x : Vec Ideal S4000x128 .f32) (wl wr : Vec Ideal S128x128 .f32) (b : Vec Ideal S1x128 .f32)
    (p : Fin 4000) (q : Fin 128) :
    k0_pay1 (F := Ideal) a x wl wr b (ix2 p q)
      = (∑ k : Fin 128, a (ix2 p k) * wl (ix2 k q) + ∑ k : Fin 128, x (ix2 p k) * wr (ix2 k q)) + b (ix2 0 q) := by
  unfold k0_pay1
  refine congrArg₂ (· + ·) (congrArg₂ (· + ·) ((mm128 _ _ p q).trans ?_) (mm128 _ _ p q)) (row128 b p q)
  rw [shapeCast_self]; rfl

/-- The coordinates of a rank-3 index after its leading unit axis. -/
theorem tail_ix3 (u : Fin 1) (s : Fin 8) (q : Fin 128) :
    (fun a : Fin 2 => (ix3 u s q : (⟨3, ![1, 8, 128]⟩ : Shape).Idx) a.succ) = (ix2 s q : (⟨2, ![8, 128]⟩ : Shape).Idx) :=
  funext fun a => by match a with | ⟨0, _⟩ => rfl | ⟨1, _⟩ => rfl

/-- A column sum of a 4000-row block, spread over the eight rows of a [1, 8, 128] tile, read at (u, s, q). -/
theorem tile_colsum (z : FVec Ideal S4000x128 .f32) (u : Fin 1) (s : Fin 8) (q : Fin 128) :
    shapeCast S1x8x128 (broadcastTo S8x128 (shapeCast S1x128 (shapeCast S1x128
        (multiReduction .add [0] S128 z 0x00000000#32 reduces_S4000x128_S128 (.inl rfl) rfl)
        shapeCasts_S128_S1x128) shapeCasts_S1x128_S1x128) broadcasts_S1x128_S8x128) shapeCasts_S8x128_S1x8x128 (ix3 u s q)
      = ∑ r : Fin 4000, z (ix2 r q) := by
  refine (shapeCast_addUnit_apply ![8, 128] _ shapeCasts_S8x128_S1x8x128 (ix3 u s q)).trans ?_
  rw [tail_ix3]
  refine (broadcastTo_1b_ab_apply _ broadcasts_S1x128_S8x128 s q).trans ?_
  rw [shapeCast_self]
  refine (Cert.Lib.vecToRow_apply _ shapeCasts_S128_S1x128 q).trans ?_
  exact Cert.Lib.colSum_apply z _ reduces_S4000x128_S128 _ _ q

/-- The dense-layer body's column sums, at every row of the tile. -/
theorem colsum_apply (a x : Vec Ideal S4000x128 .f32) (wl wr : Vec Ideal S128x128 .f32) (b : Vec Ideal S1x128 .f32)
    (u : Fin 1) (s : Fin 8) (q : Fin 128) :
    k0_pay2 (F := Ideal) a x wl wr b (ix3 u s q) = ∑ r : Fin 4000, k0_pay1 (F := Ideal) a x wl wr b (ix2 r q) :=
  tile_colsum (k0_pay1 (F := Ideal) a x wl wr b) u s q

/-- The column sums of the squares. -/
theorem colsumsq_apply (a x : Vec Ideal S4000x128 .f32) (wl wr : Vec Ideal S128x128 .f32) (b : Vec Ideal S1x128 .f32)
    (u : Fin 1) (s : Fin 8) (q : Fin 128) :
    k0_pay3 (F := Ideal) a x wl wr b (ix3 u s q)
      = ∑ r : Fin 4000, k0_pay1 (F := Ideal) a x wl wr b (ix2 r q) * k0_pay1 (F := Ideal) a x wl wr b (ix2 r q) :=
  tile_colsum (mulf (k0_pay1 (F := Ideal) a x wl wr b) (k0_pay1 (F := Ideal) a x wl wr b)) u s q

/-- The first row of a [1, 128] array, by column. -/
def row (v : Vec Ideal S1x128 .f32) : Fin 128 → EReal := fun q => v (ix2 0 q)

/-- The normalisation body's stored block at (p, q). -/
theorem norm_apply (h : Vec Ideal S4000x128 .f32) (var mean g be : Vec Ideal S1x128 .f32) (p : Fin 4000) (q : Fin 128) :
    k1_pay1 (F := Ideal) h var mean g be (ix2 p q)
      = Cert.Sage.normRelu (Ideal.ofBits .f32 0x3727C5AC#32) (row mean) (row var) (row g) (row be) (fun p q => h (ix2 p q)) p q := by
  unfold k1_pay1 Cert.Sage.normRelu row
  refine congrArg₂ max (congrArg₂ (· + ·) (congrArg₂ (· * ·) (congrArg₂ (· * ·) (congrArg₂ (· - ·) ?_ (row128 mean p q)) ?_)
    (row128 g p q)) (row128 be p q)) Ideal.ofBits_zero_f32
  · exact congrFun (shapeCast_self h _) _
  · refine (broadcastTo_1b_ab_apply _ broadcasts_S1x128_S4000x128 p q).trans ?_
    rw [shapeCast_self]; rfl

/-- A [1,64] row spread over 4000 rows, read at (p, q). -/
theorem row64 (v : FVec Ideal S1x64 .f32) (p : Fin 4000) (q : Fin 64) :
    broadcastTo S4000x64 (shapeCast S1x64 v shapeCasts_S1x64_S1x64) broadcasts_S1x64_S4000x64 (ix2 p q) = v (ix2 0 q) := by
  rw [shapeCast_self]
  exact broadcastTo_1b_ab_apply v broadcasts_S1x64_S4000x64 p q

/-- The last body's stored block at (p, j): the projection of the sum of the first layer's output and the
    normalised second pre-activation. -/
theorem final_apply (pre : Vec Ideal S4000x128 .f32) (var mean g be : Vec Ideal S1x128 .f32) (h1 : Vec Ideal S4000x128 .f32)
    (wo : Vec Ideal S128x64 .f32) (bo : Vec Ideal S1x64 .f32) (p : Fin 4000) (j : Fin 64) :
    k3_pay1 (F := Ideal) pre var mean g be h1 wo bo (ix2 p j)
      = ∑ k : Fin 128, (h1 (ix2 p k) + Cert.Sage.normRelu (Ideal.ofBits .f32 0x3727C5AC#32) (row mean) (row var) (row g) (row be)
          (fun p q => pre (ix2 p q)) p k) * wo (ix2 k j) + bo (ix2 0 j) := by
  unfold k3_pay1
  refine congrArg₂ (· + ·) ((mm64 _ _ p j).trans (Finset.sum_congr rfl fun k _ => congrArg₂ (· * ·) ?_ rfl)) (row64 bo p j)
  refine congrArg₂ (· + ·) (congrFun (shapeCast_self h1 _) _) ?_
  exact norm_apply pre var mean g be p k

end Cert.KernelIdeal.Body

end
-- ==== Proof.KRegion0.lean ====
/-
  The first dense-layer region, from the arrays it finds to the arrays it leaves.

  The grid has 15 points; point t works on rows 4000·t … 4000·t + 3999 of the aggregate and of the features, with the
  two weights and the bias row whole. What it writes back to the pre-activation array is block t of
      pre (p, q) = (Σ_k agg (p, k) · Wl (k, q) + Σ_k x (p, k) · Wr (k, q)) + b (0, q),
  and to row-tile t of the two statistics arrays the sums over its 4000 rows of pre and of pre². The 15 blocks tile the
  60000 rows, so the arrays end holding these functions everywhere.
-/
import proofs.«121575_j111669149883_2_alg».proof.Proof.Gen.KernelIdeal.Frame
import proofs.«121575_j111669149883_2_alg».proof.Proof.KBody

set_option maxRecDepth 16384

noncomputable section

namespace Cert.KernelIdeal.Reg0

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the row-blocked windows sit at block t, the whole ones at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- Row p of point t's block is row 4000·t + p of the array. -/
def rowOf (t : Fin 15) (p : Fin 4000) : Fin 60000 := ⟨4000 * t.val + p.val, by have := t.isLt; have := p.isLt; omega⟩

theorem blk_agg (c : Dev nD) (t : Fin cfg0.N) (p : Fin 4000) (k : Fin 128) :
    iblk0 V c 0 t (ix2 p k) = V c main_v22 (ix2 (rowOf t p) k) := by
  show V c main_v22 (((cfg0.win 0).blk t).view.emb (ix2 p k)) = _
  refine congrArg _ (funext fun a => Fin.ext ?_)
  obtain ⟨e0, e1, -⟩ := idx_facts t
  match a with
  | ⟨0, _⟩ => show win0_0.index t (0 : Fin 2) * 4000 + 1 * p.val = 4000 * t.val + p.val; omega
  | ⟨1, _⟩ => show win0_0.index t (1 : Fin 2) * 128 + 1 * k.val = k.val; omega

theorem blk_x (c : Dev nD) (t : Fin cfg0.N) (p : Fin 4000) (k : Fin 128) :
    iblk0 V c 1 t (ix2 p k) = V c main_arg0 (ix2 (rowOf t p) k) := by
  show V c main_arg0 (((cfg0.win 1).blk t).view.emb (ix2 p k)) = _
  refine congrArg _ (funext fun a => Fin.ext ?_)
  obtain ⟨-, -, e0, e1, -⟩ := idx_facts t
  match a with
  | ⟨0, _⟩ => show win0_1.index t (0 : Fin 2) * 4000 + 1 * p.val = 4000 * t.val + p.val; omega
  | ⟨1, _⟩ => show win0_1.index t (1 : Fin 2) * 128 + 1 * k.val = k.val; omega

theorem blk_wl (c : Dev nD) (t : Fin cfg0.N) (k q : Fin 128) :
    iblk0 V c 2 t (ix2 k q) = V c main_arg2 (ix2 k q) := by
  show V c main_arg2 (((cfg0.win 2).blk t).view.emb (ix2 k q)) = _
  refine congrArg _ (funext fun a => Fin.ext ?_)
  obtain ⟨-, -, -, -, e0, e1, -⟩ := idx_facts t
  match a with
  | ⟨0, _⟩ => show win0_2.index t (0 : Fin 2) * 128 + 1 * k.val = k.val; omega
  | ⟨1, _⟩ => show win0_2.index t (1 : Fin 2) * 128 + 1 * q.val = q.val; omega

theorem blk_wr (c : Dev nD) (t : Fin cfg0.N) (k q : Fin 128) :
    iblk0 V c 3 t (ix2 k q) = V c main_arg4 (ix2 k q) := by
  show V c main_arg4 (((cfg0.win 3).blk t).view.emb (ix2 k q)) = _
  refine congrArg _ (funext fun a => Fin.ext ?_)
  obtain ⟨-, -, -, -, -, -, e0, e1, -⟩ := idx_facts t
  match a with
  | ⟨0, _⟩ => show win0_3.index t (0 : Fin 2) * 128 + 1 * k.val = k.val; omega
  | ⟨1, _⟩ => show win0_3.index t (1 : Fin 2) * 128 + 1 * q.val = q.val; omega

theorem blk_b (c : Dev nD) (t : Fin cfg0.N) (u : Fin 1) (q : Fin 128) :
    iblk0 V c 4 t (ix2 u q) = V c main_v23 (ix2 u q) := by
  show V c main_v23 (((cfg0.win 4).blk t).view.emb (ix2 u q)) = _
  refine congrArg _ (funext fun a => Fin.ext ?_)
  obtain ⟨-, -, -, -, -, -, -, -, e0, e1, -⟩ := idx_facts t
  match a with
  | ⟨0, _⟩ => show win0_4.index t (0 : Fin 2) * 1 + 1 * u.val = u.val; omega
  | ⟨1, _⟩ => show win0_4.index t (1 : Fin 2) * 128 + 1 * q.val = q.val; omega

/-- The pre-activation as a function of the five arrays the region reads. -/
def pre (A X : S60000x128.Idx → EReal) (Wl Wr : S128x128.Idx → EReal) (B : S1x128.Idx → EReal) (p : Fin 60000) (q : Fin 128) : EReal :=
  (∑ k : Fin 128, A (ix2 p k) * Wl (ix2 k q) + ∑ k : Fin 128, X (ix2 p k) * Wr (ix2 k q)) + B (ix2 0 q)

/-- The body's stored block at a point, read at (p, q), is the pre-activation at row 4000·t + p. -/
theorem body_pre (c : Dev nD) (t : Fin cfg0.N) (p : Fin 4000) (q : Fin 128) :
    k0_pay1 (F := Ideal) (iblk0 V c 0 t) (iblk0 V c 1 t) (iblk0 V c 2 t) (iblk0 V c 3 t) (iblk0 V c 4 t) (ix2 p q)
      = pre (V c main_v22) (V c main_arg0) (V c main_arg2) (V c main_arg4) (V c main_v23) (rowOf t p) q := by
  refine (pre_apply (iblk0 V c 0 t) (iblk0 V c 1 t) (iblk0 V c 2 t) (iblk0 V c 3 t) (iblk0 V c 4 t) p q).trans ?_
  unfold pre
  refine congrArg₂ (· + ·) (congrArg₂ (· + ·) (Finset.sum_congr rfl fun k _ => ?_) (Finset.sum_congr rfl fun k _ => ?_)) (blk_b V c t 0 q)
  · rw [blk_agg V c t p k, blk_wl V c t k q]
  · rw [blk_x V c t p k, blk_wr V c t k q]

/-- The pre-activation array: `pre` at every index. -/
def preArr (A X : S60000x128.Idx → EReal) (Wl Wr : S128x128.Idx → EReal) (B : S1x128.Idx → EReal) : S60000x128.Idx → EReal :=
  fun i => pre A X Wl Wr B (i 0) (i 1)

/-- What point t writes back to the pre-activation array is block t of `preArr`. -/
theorem flushed5 (c : Dev nD) (t : Fin cfg0.N) :
    (dat0 V c).flushed 5 t = ((cfg0.win 5).blk t).view.read (Elt Ideal)
      (preArr (V c main_v22) (V c main_arg0) (V c main_arg2) (V c main_arg4) (V c main_v23)) := by
  show (cfg0.win 5).cut (grid0.coords t) ((dat0 V c).after 5 t) = _
  rw [after0_5]
  unfold out0_5
  rw [View.canon_unit_zero hz2]
  simp only [View.ld_unit_zero (S := S4000x128) hz2, View.ld_unit_zero (S := S128x128) hz2, View.ld_unit_zero (S := S1x128) hz2]
  funext j
  obtain ⟨p, q, rfl⟩ : ∃ (p : Fin 4000) (q : Fin 128), j = ix2 p q := ⟨j 0, j 1, eq_ix2 j⟩
  refine (body_pre V c t p q).trans ?_
  show _ = preArr _ _ _ _ _ (((cfg0.win 5).blk t).view.emb (ix2 p q))
  unfold preArr
  obtain ⟨-, -, -, -, -, -, -, -, -, -, e0, e1, -⟩ := idx_facts t
  have h0 : (((cfg0.win 5).blk t).view.emb (ix2 p q) 0 : Fin 60000) = rowOf t p := Fin.ext (by
    show win0_5.index t (0 : Fin 2) * 4000 + 1 * p.val = 4000 * t.val + p.val; omega)
  have h1 : (((cfg0.win 5).blk t).view.emb (ix2 p q) 1 : Fin 128) = q := Fin.ext (by
    show win0_5.index t (1 : Fin 2) * 128 + 1 * q.val = q.val; omega)
  rw [h0, h1]

/-- An index of the pre-activation array is in point t's block iff its row is in rows 4000·t … 4000·t + 3999. -/
theorem mem_blk5 (t : Fin cfg0.N) (i : S60000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v24_0).slice (win0_5.rect t)).set ↔ _
  rw [View.set_slice_whole, Rect.mem_set_unit]
  exact Iff.rfl

theorem cover5 (i : S60000x128.Idx) : ∃ t : Fin cfg0.N, (cfg0.win 5).flush t = true ∧ i ∈ ((cfg0.win 5).blk t).view.set := by
  have hi0 : (i 0).val < 60000 := (i 0).isLt
  have hi1 : (i 1).val < 128 := (i 1).isLt
  let t : Fin cfg0.N := ⟨(i 0).val / 4000, by show (i 0).val / 4000 < 15; omega⟩
  have ht : t.val = (i 0).val / 4000 := rfl
  obtain ⟨-, -, -, -, -, -, -, -, -, -, e0, e1, -⟩ := idx_facts t
  refine ⟨t, flush0_5 t, ?_⟩
  rw [mem_blk5]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE PRE-ACTIVATION ARRAY after the region. -/
theorem final5 (c : Dev nD) :
    (dat0 V c).arrAt 5 cfg0.N = preArr (V c main_v22) (V c main_arg0) (V c main_arg2) (V c main_arg4) (V c main_v23) :=
  (dat0 V c).arrAt_eq_of_cover 5 _ (fun t _ => flushed5 V c t) cover5

/-- The per-tile column sums: tile t, any of its eight rows, column q holds the sum over the tile's 4000 rows of the pre-activation. -/
def sumArr (A X : S60000x128.Idx → EReal) (Wl Wr : S128x128.Idx → EReal) (B : S1x128.Idx → EReal) : S15x8x128.Idx → EReal :=
  fun i => ∑ r : Fin 4000, pre A X Wl Wr B (rowOf (i 0) r) (i 2)

theorem flushed6 (c : Dev nD) (t : Fin cfg0.N) :
    (dat0 V c).flushed 6 t = ((cfg0.win 6).blk t).view.read (Elt Ideal)
      (sumArr (V c main_v22) (V c main_arg0) (V c main_arg2) (V c main_arg4) (V c main_v23)) := by
  show (cfg0.win 6).cut (grid0.coords t) ((dat0 V c).after 6 t) = _
  rw [after0_6]
  unfold out0_6
  rw [View.canon_unit_zero hz3]
  simp only [View.ld_unit_zero (S := S4000x128) hz2, View.ld_unit_zero (S := S128x128) hz2, View.ld_unit_zero (S := S1x128) hz2]
  funext j
  obtain ⟨u, s, q, rfl⟩ : ∃ (u : Fin 1) (s : Fin 8) (q : Fin 128), j = ix3 u s q := ⟨j 0, j 1, j 2, eq_ix3 j⟩
  refine (colsum_apply (iblk0 V c 0 t) (iblk0 V c 1 t) (iblk0 V c 2 t) (iblk0 V c 3 t) (iblk0 V c 4 t) u s q).trans ?_
  show _ = sumArr _ _ _ _ _ (((cfg0.win 6).blk t).view.emb (ix3 u s q))
  unfold sumArr
  obtain ⟨-, -, -, -, -, -, -, -, -, -, -, -, e0, e1, e2, -⟩ := idx_facts t
  have h0 : (((cfg0.win 6).blk t).view.emb (ix3 u s q) 0 : Fin 15) = t := Fin.ext (by
    show win0_6.index t (0 : Fin 3) * 1 + 1 * u.val = t.val; have := u.isLt; omega)
  have h2 : (((cfg0.win 6).blk t).view.emb (ix3 u s q) 2 : Fin 128) = q := Fin.ext (by
    show win0_6.index t (2 : Fin 3) * 128 + 1 * q.val = q.val; omega)
  rw [h0, h2]
  refine Finset.sum_congr rfl fun r _ => ?_
  rw [body_pre V c t r q]

theorem mem_blk6 (t : Fin cfg0.N) (i : S15x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v24_1).slice (win0_6.rect t)).set ↔ _
  rw [View.set_slice_whole, Rect.mem_set_unit]
  exact Iff.rfl

theorem cover6 (i : S15x8x128.Idx) : ∃ t : Fin cfg0.N, (cfg0.win 6).flush t = true ∧ i ∈ ((cfg0.win 6).blk t).view.set := by
  have hi0 : (i 0).val < 15 := (i 0).isLt
  have hi1 : (i 1).val < 8 := (i 1).isLt
  have hi2 : (i 2).val < 128 := (i 2).isLt
  let t : Fin cfg0.N := ⟨(i 0).val, hi0⟩
  have ht : t.val = (i 0).val := rfl
  obtain ⟨-, -, -, -, -, -, -, -, -, -, -, -, e0, e1, e2, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 8 ≤ (i 1).val ∧ (i 1).val < win0_6.index t (1 : Fin 3) * 8 + 8; omega
  | ⟨2, _⟩ => show win0_6.index t (2 : Fin 3) * 128 ≤ (i 2).val ∧ (i 2).val < win0_6.index t (2 : Fin 3) * 128 + 128; omega

theorem final6 (c : Dev nD) :
    (dat0 V c).arrAt 6 cfg0.N = sumArr (V c main_v22) (V c main_arg0) (V c main_arg2) (V c main_arg4) (V c main_v23) :=
  (dat0 V c).arrAt_eq_of_cover 6 _ (fun t _ => flushed6 V c t) cover6

/-- The per-tile column sums of squares. -/
def sumsqArr (A X : S60000x128.Idx → EReal) (Wl Wr : S128x128.Idx → EReal) (B : S1x128.Idx → EReal) : S15x8x128.Idx → EReal :=
  fun i => ∑ r : Fin 4000, pre A X Wl Wr B (rowOf (i 0) r) (i 2) * pre A X Wl Wr B (rowOf (i 0) r) (i 2)

theorem flushed7 (c : Dev nD) (t : Fin cfg0.N) :
    (dat0 V c).flushed 7 t = ((cfg0.win 7).blk t).view.read (Elt Ideal)
      (sumsqArr (V c main_v22) (V c main_arg0) (V c main_arg2) (V c main_arg4) (V c main_v23)) := by
  show (cfg0.win 7).cut (grid0.coords t) ((dat0 V c).after 7 t) = _
  rw [after0_7]
  unfold out0_7
  rw [View.canon_unit_zero hz3]
  simp only [View.ld_unit_zero (S := S4000x128) hz2, View.ld_unit_zero (S := S128x128) hz2, View.ld_unit_zero (S := S1x128) hz2]
  funext j
  obtain ⟨u, s, q, rfl⟩ : ∃ (u : Fin 1) (s : Fin 8) (q : Fin 128), j = ix3 u s q := ⟨j 0, j 1, j 2, eq_ix3 j⟩
  refine (colsumsq_apply (iblk0 V c 0 t) (iblk0 V c 1 t) (iblk0 V c 2 t) (iblk0 V c 3 t) (iblk0 V c 4 t) u s q).trans ?_
  show _ = sumsqArr _ _ _ _ _ (((cfg0.win 7).blk t).view.emb (ix3 u s q))
  unfold sumsqArr
  obtain ⟨-, -, -, -, -, -, -, -, -, -, -, -, -, -, -, e0, e1, e2⟩ := idx_facts t
  have h0 : (((cfg0.win 7).blk t).view.emb (ix3 u s q) 0 : Fin 15) = t := Fin.ext (by
    show win0_7.index t (0 : Fin 3) * 1 + 1 * u.val = t.val; have := u.isLt; omega)
  have h2 : (((cfg0.win 7).blk t).view.emb (ix3 u s q) 2 : Fin 128) = q := Fin.ext (by
    show win0_7.index t (2 : Fin 3) * 128 + 1 * q.val = q.val; omega)
  rw [h0, h2]
  refine Finset.sum_congr rfl fun r _ => ?_
  rw [body_pre V c t r q]

theorem mem_blk7 (t : Fin cfg0.N) (i : S15x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v24_2).slice (win0_7.rect t)).set ↔ _
  rw [View.set_slice_whole, Rect.mem_set_unit]
  exact Iff.rfl

theorem cover7 (i : S15x8x128.Idx) : ∃ t : Fin cfg0.N, (cfg0.win 7).flush t = true ∧ i ∈ ((cfg0.win 7).blk t).view.set := by
  have hi0 : (i 0).val < 15 := (i 0).isLt
  have hi1 : (i 1).val < 8 := (i 1).isLt
  have hi2 : (i 2).val < 128 := (i 2).isLt
  let t : Fin cfg0.N := ⟨(i 0).val, hi0⟩
  have ht : t.val = (i 0).val := rfl
  obtain ⟨-, -, -, -, -, -, -, -, -, -, -, -, -, -, -, e0, e1, e2⟩ := idx_facts t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 8 ≤ (i 1).val ∧ (i 1).val < win0_7.index t (1 : Fin 3) * 8 + 8; omega
  | ⟨2, _⟩ => show win0_7.index t (2 : Fin 3) * 128 ≤ (i 2).val ∧ (i 2).val < win0_7.index t (2 : Fin 3) * 128 + 128; omega

theorem final7 (c : Dev nD) :
    (dat0 V c).arrAt 7 cfg0.N = sumsqArr (V c main_v22) (V c main_arg0) (V c main_arg2) (V c main_arg4) (V c main_v23) :=
  (dat0 V c).arrAt_eq_of_cover 7 _ (fun t _ => flushed7 V c t) cover7

end Cert.KernelIdeal.Reg0

end
-- ==== Proof.KRegion1.lean ====
/-
  The first normalisation region, from the arrays it finds to the array it leaves.

  The grid has 15 points; point t works on rows 4000·t … 4000·t + 3999 of the pre-activation h, with the mean row, the
  variance row, the scale row γ and the shift row β whole. What it writes back to the output array is block t of
      out (p, q) = max (((h (p, q) − μ q) · rsqrt (v q + ε)) · γ q + β q) 0.
  The 15 blocks tile the 60000 rows, so the array ends holding this function everywhere.
-/
import proofs.«121575_j111669149883_2_alg».proof.Proof.Gen.KernelIdeal.Frame
import proofs.«121575_j111669149883_2_alg».proof.Proof.KBody

set_option maxRecDepth 16384

noncomputable section

namespace Cert.KernelIdeal.Reg1

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-blocked windows sit at block t, the whole ones at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block is row 4000·t + p of the array. -/
def rowOf (t : Fin 15) (p : Fin 4000) : Fin 60000 := ⟨4000 * t.val + p.val, by have := t.isLt; have := p.isLt; omega⟩

theorem blk_h (c : Dev nD) (t : Fin cfg1.N) (p : Fin 4000) (k : Fin 128) :
    iblk1 V c 0 t (ix2 p k) = V c main_v24_0 (ix2 (rowOf t p) k) := by
  show V c main_v24_0 (((cfg1.win 0).blk t).view.emb (ix2 p k)) = _
  refine congrArg _ (funext fun a => Fin.ext ?_)
  obtain ⟨e0, e1, -⟩ := idx_facts t
  match a with
  | ⟨0, _⟩ => show win1_0.index t (0 : Fin 2) * 4000 + 1 * p.val = 4000 * t.val + p.val; omega
  | ⟨1, _⟩ => show win1_0.index t (1 : Fin 2) * 128 + 1 * k.val = k.val; omega

theorem blk_mean (c : Dev nD) (t : Fin cfg1.N) (u : Fin 1) (q : Fin 128) :
    iblk1 V c 1 t (ix2 u q) = V c main_v39 (ix2 u q) := by
  show V c main_v39 (((cfg1.win 1).blk t).view.emb (ix2 u q)) = _
  refine congrArg _ (funext fun a => Fin.ext ?_)
  obtain ⟨-, -, e0, e1, -⟩ := idx_facts t
  match a with
  | ⟨0, _⟩ => show win1_1.index t (0 : Fin 2) * 1 + 1 * u.val = u.val; omega
  | ⟨1, _⟩ => show win1_1.index t (1 : Fin 2) * 128 + 1 * q.val = q.val; omega

theorem blk_var (c : Dev nD) (t : Fin cfg1.N) (u : Fin 1) (q : Fin 128) :
    iblk1 V c 2 t (ix2 u q) = V c main_v40 (ix2 u q) := by
  show V c main_v40 (((cfg1.win 2).blk t).view.emb (ix2 u q)) = _
  refine congrArg _ (funext fun a => Fin.ext ?_)
  obtain ⟨-, -, -, -, e0, e1, -⟩ := idx_facts t
  match a with
  | ⟨0, _⟩ => show win1_2.index t (0 : Fin 2) * 1 + 1 * u.val = u.val; omega
  | ⟨1, _⟩ => show win1_2.index t (1 : Fin 2) * 128 + 1 * q.val = q.val; omega

theorem blk_g (c : Dev nD) (t : Fin cfg1.N) (u : Fin 1) (q : Fin 128) :
    iblk1 V c 3 t (ix2 u q) = V c main_v41 (ix2 u q) := by
  show V c main_v41 (((cfg1.win 3).blk t).view.emb (ix2 u q)) = _
  refine congrArg _ (funext fun a => Fin.ext ?_)
  obtain ⟨-, -, -, -, -, -, e0, e1, -⟩ := idx_facts t
  match a with
  | ⟨0, _⟩ => show win1_3.index t (0 : Fin 2) * 1 + 1 * u.val = u.val; omega
  | ⟨1, _⟩ => show win1_3.index t (1 : Fin 2) * 128 + 1 * q.val = q.val; omega

theorem blk_be (c : Dev nD) (t : Fin cfg1.N) (u : Fin 1) (q : Fin 128) :
    iblk1 V c 4 t (ix2 u q) = V c main_v42 (ix2 u q) := by
  show V c main_v42 (((cfg1.win 4).blk t).view.emb (ix2 u q)) = _
  refine congrArg _ (funext fun a => Fin.ext ?_)
  obtain ⟨-, -, -, -, -, -, -, -, e0, e1, -⟩ := idx_facts t
  match a with
  | ⟨0, _⟩ => show win1_4.index t (0 : Fin 2) * 1 + 1 * u.val = u.val; omega
  | ⟨1, _⟩ => show win1_4.index t (1 : Fin 2) * 128 + 1 * q.val = q.val; omega

/-- The normalised, scaled, shifted and clamped entry as a function of the five arrays the region reads. -/
def norm (H : S60000x128.Idx → EReal) (M Vr G Be : S1x128.Idx → EReal) (p : Fin 60000) (q : Fin 128) : EReal :=
  Cert.Sage.normRelu (Ideal.ofBits .f32 0x3727C5AC#32) (row M) (row Vr) (row G) (row Be) (fun p q => H (ix2 p q)) p q

/-- The body's stored block at a point, read at (p, q), is the normalised entry at row 4000·t + p. -/
theorem body_norm (c : Dev nD) (t : Fin cfg1.N) (p : Fin 4000) (q : Fin 128) :
    k1_pay1 (F := Ideal) (iblk1 V c 0 t) (iblk1 V c 2 t) (iblk1 V c 1 t) (iblk1 V c 3 t) (iblk1 V c 4 t) (ix2 p q)
      = norm (V c main_v24_0) (V c main_v39) (V c main_v40) (V c main_v41) (V c main_v42) (rowOf t p) q := by
  refine (norm_apply (iblk1 V c 0 t) (iblk1 V c 2 t) (iblk1 V c 1 t) (iblk1 V c 3 t) (iblk1 V c 4 t) p q).trans ?_
  unfold norm Cert.Sage.normRelu row
  exact congrArg₂ max (congrArg₂ (· + ·) (congrArg₂ (· * ·) (congrArg₂ (· * ·)
    (congrArg₂ (· - ·) (blk_h V c t p q) (blk_mean V c t 0 q))
    (congrArg (fun v : EReal => Ideal.rsqrt (v + Ideal.ofBits .f32 0x3727C5AC#32)) (blk_var V c t 0 q)))
    (blk_g V c t 0 q)) (blk_be V c t 0 q)) rfl

/-- The output array: `norm` at every index. -/
def normArr (H : S60000x128.Idx → EReal) (M Vr G Be : S1x128.Idx → EReal) : S60000x128.Idx → EReal :=
  fun i => norm H M Vr G Be (i 0) (i 1)

/-- What point t writes back to the output array is block t of `normArr`. -/
theorem flushed5 (c : Dev nD) (t : Fin cfg1.N) :
    (dat1 V c).flushed 5 t = ((cfg1.win 5).blk t).view.read (Elt Ideal)
      (normArr (V c main_v24_0) (V c main_v39) (V c main_v40) (V c main_v41) (V c main_v42)) := by
  show (cfg1.win 5).cut (grid1.coords t) ((dat1 V c).after 5 t) = _
  rw [after1_5]
  unfold out1_5
  rw [View.canon_unit_zero hz2]
  simp only [View.ld_unit_zero (S := S4000x128) hz2, View.ld_unit_zero (S := S1x128) hz2]
  funext j
  obtain ⟨p, q, rfl⟩ : ∃ (p : Fin 4000) (q : Fin 128), j = ix2 p q := ⟨j 0, j 1, eq_ix2 j⟩
  refine (body_norm V c t p q).trans ?_
  show _ = normArr _ _ _ _ _ (((cfg1.win 5).blk t).view.emb (ix2 p q))
  unfold normArr
  obtain ⟨-, -, -, -, -, -, -, -, -, -, e0, e1⟩ := idx_facts t
  have h0 : (((cfg1.win 5).blk t).view.emb (ix2 p q) 0 : Fin 60000) = rowOf t p := Fin.ext (by
    show win1_5.index t (0 : Fin 2) * 4000 + 1 * p.val = 4000 * t.val + p.val; omega)
  have h1 : (((cfg1.win 5).blk t).view.emb (ix2 p q) 1 : Fin 128) = q := Fin.ext (by
    show win1_5.index t (1 : Fin 2) * 128 + 1 * q.val = q.val; omega)
  rw [h0, h1]

/-- An index of the output array is in point t's block iff its row is in rows 4000·t … 4000·t + 3999. -/
theorem mem_blk5 (t : Fin cfg1.N) (i : S60000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v43).slice (win1_5.rect t)).set ↔ _
  rw [View.set_slice_whole, Rect.mem_set_unit]
  exact Iff.rfl

theorem cover5 (i : S60000x128.Idx) : ∃ t : Fin cfg1.N, (cfg1.win 5).flush t = true ∧ i ∈ ((cfg1.win 5).blk t).view.set := by
  have hi0 : (i 0).val < 60000 := (i 0).isLt
  have hi1 : (i 1).val < 128 := (i 1).isLt
  let t : Fin cfg1.N := ⟨(i 0).val / 4000, by show (i 0).val / 4000 < 15; omega⟩
  have ht : t.val = (i 0).val / 4000 := rfl
  obtain ⟨-, -, -, -, -, -, -, -, -, -, e0, e1⟩ := idx_facts t
  refine ⟨t, flush1_5 t, ?_⟩
  rw [mem_blk5]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- The output array after the region, as `normArr`. -/
theorem final5_arr (c : Dev nD) :
    (dat1 V c).arrAt 5 cfg1.N = normArr (V c main_v24_0) (V c main_v39) (V c main_v40) (V c main_v41) (V c main_v42) :=
  (dat1 V c).arrAt_eq_of_cover 5 _ (fun t _ => flushed5 V c t) cover5

/-- THE OUTPUT ARRAY after the region: the normalised pre-activation at every index. -/
theorem final5 (c : Dev nD) :
    (dat1 V c).arrAt 5 cfg1.N = fun i : S60000x128.Idx =>
      Cert.Sage.normRelu (Ideal.ofBits .f32 0x3727C5AC#32) (row (V c main_v39)) (row (V c main_v40)) (row (V c main_v41))
        (row (V c main_v42)) (fun (p : Fin 60000) (q : Fin 128) => V c main_v24_0 (ix2 p q)) (i 0) (i 1) :=
  final5_arr V c

end Cert.KernelIdeal.Reg1

end
-- ==== Proof.KBody2.lean ====
/-
  The second dense-layer body, entry by entry: the same operations as the first on its own block
  (a·Wl + x·Wr + b, its column sums and the column sums of its squares).
-/
import proofs.«121575_j111669149883_2_alg».proof.Proof.KBody

noncomputable section

namespace Cert.KernelIdeal.Body

open Cert.KernelIdeal Cert.KernelIdeal.Gen Idealize.ShloMosaic Idealize.ShloMosaic.ValueIdx

/-- The second dense-layer body's stored block at (p, q). -/
theorem pre_apply2 (a x : Vec Ideal S4000x128 .f32) (wl wr : Vec Ideal S128x128 .f32) (b : Vec Ideal S1x128 .f32)
    (p : Fin 4000) (q : Fin 128) :
    k2_pay1 (F := Ideal) a x wl wr b (ix2 p q)
      = (∑ k : Fin 128, a (ix2 p k) * wl (ix2 k q) + ∑ k : Fin 128, x (ix2 p k) * wr (ix2 k q)) + b (ix2 0 q) := by
  unfold k2_pay1
  refine congrArg₂ (· + ·) (congrArg₂ (· + ·) ((mm128 _ _ p q).trans ?_) ((mm128 _ _ p q).trans ?_)) (row128 b p q)
  · rw [shapeCast_self]; rfl
  · rw [shapeCast_self]; rfl

/-- Its column sums, at every row of the tile. -/
theorem colsum_apply2 (a x : Vec Ideal S4000x128 .f32) (wl wr : Vec Ideal S128x128 .f32) (b : Vec Ideal S1x128 .f32)
    (u : Fin 1) (s : Fin 8) (q : Fin 128) :
    k2_pay2 (F := Ideal) a x wl wr b (ix3 u s q) = ∑ r : Fin 4000, k2_pay1 (F := Ideal) a x wl wr b (ix2 r q) :=
  tile_colsum (k2_pay1 (F := Ideal) a x wl wr b) u s q

/-- The column sums of its squares. -/
theorem colsumsq_apply2 (a x : Vec Ideal S4000x128 .f32) (wl wr : Vec Ideal S128x128 .f32) (b : Vec Ideal S1x128 .f32)
    (u : Fin 1) (s : Fin 8) (q : Fin 128) :
    k2_pay3 (F := Ideal) a x wl wr b (ix3 u s q)
      = ∑ r : Fin 4000, k2_pay1 (F := Ideal) a x wl wr b (ix2 r q) * k2_pay1 (F := Ideal) a x wl wr b (ix2 r q) :=
  tile_colsum (mulf (k2_pay1 (F := Ideal) a x wl wr b) (k2_pay1 (F := Ideal) a x wl wr b)) u s q

end Cert.KernelIdeal.Body

end
-- ==== Proof.KRegion2.lean ====
/-
  The second dense-layer region: the same body as the first, on the second layer's arrays (the aggregate of the first
  layer's output, that output, the second pair of weights and bias). What it leaves in the pre-activation array and in
  the two statistics arrays is the same three functions of the five arrays it reads.
-/
import proofs.«121575_j111669149883_2_alg».proof.Proof.Gen.KernelIdeal.Frame
import proofs.«121575_j111669149883_2_alg».proof.Proof.KBody
import proofs.«121575_j111669149883_2_alg».proof.Proof.KBody2
import proofs.«121575_j111669149883_2_alg».proof.Proof.KRegion0

set_option maxRecDepth 16384

noncomputable section

namespace Cert.KernelIdeal.Reg2

open Cert.KernelIdeal Cert.KernelIdeal.Gen Cert.KernelIdeal.Body
open Cert.KernelIdeal.Reg0 (pre preArr sumArr sumsqArr rowOf hz2 hz3)
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the row-blocked windows sit at block t, the whole ones at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 3) = t.val ∧ win2_6.index t (1 : Fin 3) = 0 ∧ win2_6.index t (2 : Fin 3) = 0
    ∧ win2_7.index t (0 : Fin 3) = t.val ∧ win2_7.index t (1 : Fin 3) = 0 ∧ win2_7.index t (2 : Fin 3) = 0 :=
  (by decide +kernel : ∀ t : Fin grid2.N, _)

theorem blk_agg (c : Dev nD) (t : Fin cfg2.N) (p : Fin 4000) (k : Fin 128) :
    iblk2 V c 0 t (ix2 p k) = V c main_v58 (ix2 (rowOf t p) k) := by
  show V c main_v58 (((cfg2.win 0).blk t).view.emb (ix2 p k)) = _
  refine congrArg _ (funext fun a => Fin.ext ?_)
  obtain ⟨e0, e1, -⟩ := idx_facts t
  match a with
  | ⟨0, _⟩ => show win2_0.index t (0 : Fin 2) * 4000 + 1 * p.val = 4000 * t.val + p.val; omega
  | ⟨1, _⟩ => show win2_0.index t (1 : Fin 2) * 128 + 1 * k.val = k.val; omega

theorem blk_x (c : Dev nD) (t : Fin cfg2.N) (p : Fin 4000) (k : Fin 128) :
    iblk2 V c 1 t (ix2 p k) = V c main_v43 (ix2 (rowOf t p) k) := by
  show V c main_v43 (((cfg2.win 1).blk t).view.emb (ix2 p k)) = _
  refine congrArg _ (funext fun a => Fin.ext ?_)
  obtain ⟨-, -, e0, e1, -⟩ := idx_facts t
  match a with
  | ⟨0, _⟩ => show win2_1.index t (0 : Fin 2) * 4000 + 1 * p.val = 4000 * t.val + p.val; omega
  | ⟨1, _⟩ => show win2_1.index t (1 : Fin 2) * 128 + 1 * k.val = k.val; omega

theorem blk_wl (c : Dev nD) (t : Fin cfg2.N) (k q : Fin 128) :
    iblk2 V c 2 t (ix2 k q) = V c main_arg7 (ix2 k q) := by
  show V c main_arg7 (((cfg2.win 2).blk t).view.emb (ix2 k q)) = _
  refine congrArg _ (funext fun a => Fin.ext ?_)
  obtain ⟨-, -, -, -, e0, e1, -⟩ := idx_facts t
  match a with
  | ⟨0, _⟩ => show win2_2.index t (0 : Fin 2) * 128 + 1 * k.val = k.val; omega
  | ⟨1, _⟩ => show win2_2.index t (1 : Fin 2) * 128 + 1 * q.val = q.val; omega

theorem blk_wr (c : Dev nD) (t : Fin cfg2.N) (k q : Fin 128) :
    iblk2 V c 3 t (ix2 k q) = V c main_arg9 (ix2 k q) := by
  show V c main_arg9 (((cfg2.win 3).blk t).view.emb (ix2 k q)) = _
  refine congrArg _ (funext fun a => Fin.ext ?_)
  obtain ⟨-, -, -, -, -, -, e0, e1, -⟩ := idx_facts t
  match a with
  | ⟨0, _⟩ => show win2_3.index t (0 : Fin 2) * 128 + 1 * k.val = k.val; omega
  | ⟨1, _⟩ => show win2_3.index t (1 : Fin 2) * 128 + 1 * q.val = q.val; omega

theorem blk_b (c : Dev nD) (t : Fin cfg2.N) (u : Fin 1) (q : Fin 128) :
    iblk2 V c 4 t (ix2 u q) = V c main_v59 (ix2 u q) := by
  show V c main_v59 (((cfg2.win 4).blk t).view.emb (ix2 u q)) = _
  refine congrArg _ (funext fun a => Fin.ext ?_)
  obtain ⟨-, -, -, -, -, -, -, -, e0, e1, -⟩ := idx_facts t
  match a with
  | ⟨0, _⟩ => show win2_4.index t (0 : Fin 2) * 1 + 1 * u.val = u.val; omega
  | ⟨1, _⟩ => show win2_4.index t (1 : Fin 2) * 128 + 1 * q.val = q.val; omega

/-- The body's stored block at a point, read at (p, q), is the pre-activation at row 4000·t + p. -/
theorem body_pre (c : Dev nD) (t : Fin cfg2.N) (p : Fin 4000) (q : Fin 128) :
    k2_pay1 (F := Ideal) (iblk2 V c 0 t) (iblk2 V c 1 t) (iblk2 V c 2 t) (iblk2 V c 3 t) (iblk2 V c 4 t) (ix2 p q)
      = pre (V c main_v58) (V c main_v43) (V c main_arg7) (V c main_arg9) (V c main_v59) (rowOf t p) q := by
  refine (pre_apply2 (iblk2 V c 0 t) (iblk2 V c 1 t) (iblk2 V c 2 t) (iblk2 V c 3 t) (iblk2 V c 4 t) p q).trans ?_
  unfold pre
  refine congrArg₂ (· + ·) (congrArg₂ (· + ·) (Finset.sum_congr rfl fun k _ => ?_) (Finset.sum_congr rfl fun k _ => ?_)) (blk_b V c t 0 q)
  · rw [blk_agg V c t p k, blk_wl V c t k q]
  · rw [blk_x V c t p k, blk_wr V c t k q]

/-- What point t writes back to the pre-activation array is block t of `preArr`. -/
theorem flushed5 (c : Dev nD) (t : Fin cfg2.N) :
    (dat2 V c).flushed 5 t = ((cfg2.win 5).blk t).view.read (Elt Ideal)
      (preArr (V c main_v58) (V c main_v43) (V c main_arg7) (V c main_arg9) (V c main_v59)) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S128x128) hz2, View.ld_unit_zero (S := S1x128) hz2]
  funext j
  obtain ⟨p, q, rfl⟩ : ∃ (p : Fin 4000) (q : Fin 128), j = ix2 p q := ⟨j 0, j 1, eq_ix2 j⟩
  refine (body_pre V c t p q).trans ?_
  show _ = preArr _ _ _ _ _ (((cfg2.win 5).blk t).view.emb (ix2 p q))
  unfold preArr
  obtain ⟨-, -, -, -, -, -, -, -, -, -, e0, e1, -⟩ := idx_facts t
  have h0 : (((cfg2.win 5).blk t).view.emb (ix2 p q) 0 : Fin 60000) = rowOf t p := Fin.ext (by
    show win2_5.index t (0 : Fin 2) * 4000 + 1 * p.val = 4000 * t.val + p.val; omega)
  have h1 : (((cfg2.win 5).blk t).view.emb (ix2 p q) 1 : Fin 128) = q := Fin.ext (by
    show win2_5.index t (1 : Fin 2) * 128 + 1 * q.val = q.val; omega)
  rw [h0, h1]

/-- An index of the pre-activation array is in point t's block iff its row is in rows 4000·t … 4000·t + 3999. -/
theorem mem_blk5 (t : Fin cfg2.N) (i : S60000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v60_0).slice (win2_5.rect t)).set ↔ _
  rw [View.set_slice_whole, Rect.mem_set_unit]
  exact Iff.rfl

theorem cover5 (i : S60000x128.Idx) : ∃ t : Fin cfg2.N, (cfg2.win 5).flush t = true ∧ i ∈ ((cfg2.win 5).blk t).view.set := by
  have hi0 : (i 0).val < 60000 := (i 0).isLt
  have hi1 : (i 1).val < 128 := (i 1).isLt
  let t : Fin cfg2.N := ⟨(i 0).val / 4000, by show (i 0).val / 4000 < 15; omega⟩
  have ht : t.val = (i 0).val / 4000 := rfl
  obtain ⟨-, -, -, -, -, -, -, -, -, -, e0, e1, -⟩ := idx_facts t
  refine ⟨t, flush2_5 t, ?_⟩
  rw [mem_blk5]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- THE PRE-ACTIVATION ARRAY after the region. -/
theorem final5 (c : Dev nD) :
    (dat2 V c).arrAt 5 cfg2.N = preArr (V c main_v58) (V c main_v43) (V c main_arg7) (V c main_arg9) (V c main_v59) :=
  (dat2 V c).arrAt_eq_of_cover 5 _ (fun t _ => flushed5 V c t) cover5

theorem flushed6 (c : Dev nD) (t : Fin cfg2.N) :
    (dat2 V c).flushed 6 t = ((cfg2.win 6).blk t).view.read (Elt Ideal)
      (sumArr (V c main_v58) (V c main_v43) (V c main_arg7) (V c main_arg9) (V c main_v59)) := by
  show (cfg2.win 6).cut (grid2.coords t) ((dat2 V c).after 6 t) = _
  rw [after2_6]
  unfold out2_6
  rw [View.canon_unit_zero hz3]
  simp only [View.ld_unit_zero (S := S4000x128) hz2, View.ld_unit_zero (S := S128x128) hz2, View.ld_unit_zero (S := S1x128) hz2]
  funext j
  obtain ⟨u, s, q, rfl⟩ : ∃ (u : Fin 1) (s : Fin 8) (q : Fin 128), j = ix3 u s q := ⟨j 0, j 1, j 2, eq_ix3 j⟩
  refine (colsum_apply2 (iblk2 V c 0 t) (iblk2 V c 1 t) (iblk2 V c 2 t) (iblk2 V c 3 t) (iblk2 V c 4 t) u s q).trans ?_
  show _ = sumArr _ _ _ _ _ (((cfg2.win 6).blk t).view.emb (ix3 u s q))
  unfold sumArr
  obtain ⟨-, -, -, -, -, -, -, -, -, -, -, -, e0, e1, e2, -⟩ := idx_facts t
  have h0 : (((cfg2.win 6).blk t).view.emb (ix3 u s q) 0 : Fin 15) = t := Fin.ext (by
    show win2_6.index t (0 : Fin 3) * 1 + 1 * u.val = t.val; have := u.isLt; omega)
  have h2 : (((cfg2.win 6).blk t).view.emb (ix3 u s q) 2 : Fin 128) = q := Fin.ext (by
    show win2_6.index t (2 : Fin 3) * 128 + 1 * q.val = q.val; omega)
  rw [h0, h2]
  refine Finset.sum_congr rfl fun r _ => ?_
  rw [body_pre V c t r q]

theorem mem_blk6 (t : Fin cfg2.N) (i : S15x8x128.Idx) :
    i ∈ ((cfg2.win 6).blk t).view.set ↔ ∀ a : Fin 3, win2_6.index t a * S1x8x128.size a ≤ (i a).val ∧ (i a).val < win2_6.index t a * S1x8x128.size a + S1x8x128.size a := by
  show i ∈ ((View.whole main_v60_1).slice (win2_6.rect t)).set ↔ _
  rw [View.set_slice_whole, Rect.mem_set_unit]
  exact Iff.rfl

theorem cover6 (i : S15x8x128.Idx) : ∃ t : Fin cfg2.N, (cfg2.win 6).flush t = true ∧ i ∈ ((cfg2.win 6).blk t).view.set := by
  have hi0 : (i 0).val < 15 := (i 0).isLt
  have hi1 : (i 1).val < 8 := (i 1).isLt
  have hi2 : (i 2).val < 128 := (i 2).isLt
  let t : Fin cfg2.N := ⟨(i 0).val, hi0⟩
  have ht : t.val = (i 0).val := rfl
  obtain ⟨-, -, -, -, -, -, -, -, -, -, -, -, e0, e1, e2, -⟩ := idx_facts t
  refine ⟨t, flush2_6 t, ?_⟩
  rw [mem_blk6]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 8 ≤ (i 1).val ∧ (i 1).val < win2_6.index t (1 : Fin 3) * 8 + 8; omega
  | ⟨2, _⟩ => show win2_6.index t (2 : Fin 3) * 128 ≤ (i 2).val ∧ (i 2).val < win2_6.index t (2 : Fin 3) * 128 + 128; omega

theorem final6 (c : Dev nD) :
    (dat2 V c).arrAt 6 cfg2.N = sumArr (V c main_v58) (V c main_v43) (V c main_arg7) (V c main_arg9) (V c main_v59) :=
  (dat2 V c).arrAt_eq_of_cover 6 _ (fun t _ => flushed6 V c t) cover6

theorem flushed7 (c : Dev nD) (t : Fin cfg2.N) :
    (dat2 V c).flushed 7 t = ((cfg2.win 7).blk t).view.read (Elt Ideal)
      (sumsqArr (V c main_v58) (V c main_v43) (V c main_arg7) (V c main_arg9) (V c main_v59)) := by
  show (cfg2.win 7).cut (grid2.coords t) ((dat2 V c).after 7 t) = _
  rw [after2_7]
  unfold out2_7
  rw [View.canon_unit_zero hz3]
  simp only [View.ld_unit_zero (S := S4000x128) hz2, View.ld_unit_zero (S := S128x128) hz2, View.ld_unit_zero (S := S1x128) hz2]
  funext j
  obtain ⟨u, s, q, rfl⟩ : ∃ (u : Fin 1) (s : Fin 8) (q : Fin 128), j = ix3 u s q := ⟨j 0, j 1, j 2, eq_ix3 j⟩
  refine (colsumsq_apply2 (iblk2 V c 0 t) (iblk2 V c 1 t) (iblk2 V c 2 t) (iblk2 V c 3 t) (iblk2 V c 4 t) u s q).trans ?_
  show _ = sumsqArr _ _ _ _ _ (((cfg2.win 7).blk t).view.emb (ix3 u s q))
  unfold sumsqArr
  obtain ⟨-, -, -, -, -, -, -, -, -, -, -, -, -, -, -, e0, e1, e2⟩ := idx_facts t
  have h0 : (((cfg2.win 7).blk t).view.emb (ix3 u s q) 0 : Fin 15) = t := Fin.ext (by
    show win2_7.index t (0 : Fin 3) * 1 + 1 * u.val = t.val; have := u.isLt; omega)
  have h2 : (((cfg2.win 7).blk t).view.emb (ix3 u s q) 2 : Fin 128) = q := Fin.ext (by
    show win2_7.index t (2 : Fin 3) * 128 + 1 * q.val = q.val; omega)
  rw [h0, h2]
  refine Finset.sum_congr rfl fun r _ => ?_
  rw [body_pre V c t r q]

theorem mem_blk7 (t : Fin cfg2.N) (i : S15x8x128.Idx) :
    i ∈ ((cfg2.win 7).blk t).view.set ↔ ∀ a : Fin 3, win2_7.index t a * S1x8x128.size a ≤ (i a).val ∧ (i a).val < win2_7.index t a * S1x8x128.size a + S1x8x128.size a := by
  show i ∈ ((View.whole main_v60_2).slice (win2_7.rect t)).set ↔ _
  rw [View.set_slice_whole, Rect.mem_set_unit]
  exact Iff.rfl

theorem cover7 (i : S15x8x128.Idx) : ∃ t : Fin cfg2.N, (cfg2.win 7).flush t = true ∧ i ∈ ((cfg2.win 7).blk t).view.set := by
  have hi0 : (i 0).val < 15 := (i 0).isLt
  have hi1 : (i 1).val < 8 := (i 1).isLt
  have hi2 : (i 2).val < 128 := (i 2).isLt
  let t : Fin cfg2.N := ⟨(i 0).val, hi0⟩
  have ht : t.val = (i 0).val := rfl
  obtain ⟨-, -, -, -, -, -, -, -, -, -, -, -, -, -, -, e0, e1, e2⟩ := idx_facts t
  refine ⟨t, flush2_7 t, ?_⟩
  rw [mem_blk7]
  intro a
  match a with
  | ⟨0, _⟩ => show win2_7.index t (0 : Fin 3) * 1 ≤ (i 0).val ∧ (i 0).val < win2_7.index t (0 : Fin 3) * 1 + 1; omega
  | ⟨1, _⟩ => show win2_7.index t (1 : Fin 3) * 8 ≤ (i 1).val ∧ (i 1).val < win2_7.index t (1 : Fin 3) * 8 + 8; omega
  | ⟨2, _⟩ => show win2_7.index t (2 : Fin 3) * 128 ≤ (i 2).val ∧ (i 2).val < win2_7.index t (2 : Fin 3) * 128 + 128; omega

theorem final7 (c : Dev nD) :
    (dat2 V c).arrAt 7 cfg2.N = sumsqArr (V c main_v58) (V c main_v43) (V c main_arg7) (V c main_arg9) (V c main_v59) :=
  (dat2 V c).arrAt_eq_of_cover 7 _ (fun t _ => flushed7 V c t) cover7

end Cert.KernelIdeal.Reg2

end
-- ==== Proof.KRegion3.lean ====
/-
  The last region, from the arrays it finds to the array it leaves.

  The grid has 15 points; point t works on rows 4000·t … 4000·t + 3999 of the second pre-activation and of the first
  layer's output h1, with the mean row, the variance row, the scale row γ, the shift row β, the 128×64 output weight
  and its bias row whole. What it writes back to the output array is block t of
      out (p, j) = Σ_k (h1 (p, k) + max (((pre (p, k) − μ k) · rsqrt (v k + ε)) · γ k + β k) 0) · Wo (k, j) + bo (0, j).
  The 15 blocks tile the 60000 rows, so the array ends holding this function everywhere.
-/
import proofs.«121575_j111669149883_2_alg».proof.Proof.Gen.KernelIdeal.Frame
import proofs.«121575_j111669149883_2_alg».proof.Proof.KBody

set_option maxRecDepth 16384

noncomputable section

namespace Cert.KernelIdeal.Reg3

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-blocked windows sit at block t, the whole ones at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- Row p of point t's block is row 4000·t + p of the array. -/
def rowOf (t : Fin 15) (p : Fin 4000) : Fin 60000 := ⟨4000 * t.val + p.val, by have := t.isLt; have := p.isLt; omega⟩

theorem blk_pre (c : Dev nD) (t : Fin cfg3.N) (p : Fin 4000) (k : Fin 128) :
    iblk3 V c 0 t (ix2 p k) = V c main_v60_0 (ix2 (rowOf t p) k) := by
  show V c main_v60_0 (((cfg3.win 0).blk t).view.emb (ix2 p k)) = _
  refine congrArg _ (funext fun a => Fin.ext ?_)
  obtain ⟨e0, e1, -⟩ := idx_facts t
  match a with
  | ⟨0, _⟩ => show win3_0.index t (0 : Fin 2) * 4000 + 1 * p.val = 4000 * t.val + p.val; omega
  | ⟨1, _⟩ => show win3_0.index t (1 : Fin 2) * 128 + 1 * k.val = k.val; omega

theorem blk_h1 (c : Dev nD) (t : Fin cfg3.N) (p : Fin 4000) (k : Fin 128) :
    iblk3 V c 1 t (ix2 p k) = V c main_v43 (ix2 (rowOf t p) k) := by
  show V c main_v43 (((cfg3.win 1).blk t).view.emb (ix2 p k)) = _
  refine congrArg _ (funext fun a => Fin.ext ?_)
  obtain ⟨-, -, e0, e1, -⟩ := idx_facts t
  match a with
  | ⟨0, _⟩ => show win3_1.index t (0 : Fin 2) * 4000 + 1 * p.val = 4000 * t.val + p.val; omega
  | ⟨1, _⟩ => show win3_1.index t (1 : Fin 2) * 128 + 1 * k.val = k.val; omega

theorem blk_mean (c : Dev nD) (t : Fin cfg3.N) (u : Fin 1) (q : Fin 128) :
    iblk3 V c 2 t (ix2 u q) = V c main_v75 (ix2 u q) := by
  show V c main_v75 (((cfg3.win 2).blk t).view.emb (ix2 u q)) = _
  refine congrArg _ (funext fun a => Fin.ext ?_)
  obtain ⟨-, -, -, -, e0, e1, -⟩ := idx_facts t
  match a with
  | ⟨0, _⟩ => show win3_2.index t (0 : Fin 2) * 1 + 1 * u.val = u.val; omega
  | ⟨1, _⟩ => show win3_2.index t (1 : Fin 2) * 128 + 1 * q.val = q.val; omega

theorem blk_var (c : Dev nD) (t : Fin cfg3.N) (u : Fin 1) (q : Fin 128) :
    iblk3 V c 3 t (ix2 u q) = V c main_v76 (ix2 u q) := by
  show V c main_v76 (((cfg3.win 3).blk t).view.emb (ix2 u q)) = _
  refine congrArg _ (funext fun a => Fin.ext ?_)
  obtain ⟨-, -, -, -, -, -, e0, e1, -⟩ := idx_facts t
  match a with
  | ⟨0, _⟩ => show win3_3.index t (0 : Fin 2) * 1 + 1 * u.val = u.val; omega
  | ⟨1, _⟩ => show win3_3.index t (1 : Fin 2) * 128 + 1 * q.val = q.val; omega

theorem blk_g (c : Dev nD) (t : Fin cfg3.N) (u : Fin 1) (q : Fin 128) :
    iblk3 V c 4 t (ix2 u q) = V c main_v77 (ix2 u q) := by
  show V c main_v77 (((cfg3.win 4).blk t).view.emb (ix2 u q)) = _
  refine congrArg _ (funext fun a => Fin.ext ?_)
  obtain ⟨-, -, -, -, -, -, -, -, e0, e1, -⟩ := idx_facts t
  match a with
  | ⟨0, _⟩ => show win3_4.index t (0 : Fin 2) * 1 + 1 * u.val = u.val; omega
  | ⟨1, _⟩ => show win3_4.index t (1 : Fin 2) * 128 + 1 * q.val = q.val; omega

theorem blk_be (c : Dev nD) (t : Fin cfg3.N) (u : Fin 1) (q : Fin 128) :
    iblk3 V c 5 t (ix2 u q) = V c main_v78 (ix2 u q) := by
  show V c main_v78 (((cfg3.win 5).blk t).view.emb (ix2 u q)) = _
  refine congrArg _ (funext fun a => Fin.ext ?_)
  obtain ⟨-, -, -, -, -, -, -, -, -, -, e0, e1, -⟩ := idx_facts t
  match a with
  | ⟨0, _⟩ => show win3_5.index t (0 : Fin 2) * 1 + 1 * u.val = u.val; omega
  | ⟨1, _⟩ => show win3_5.index t (1 : Fin 2) * 128 + 1 * q.val = q.val; omega

theorem blk_wo (c : Dev nD) (t : Fin cfg3.N) (k : Fin 128) (j : Fin 64) :
    iblk3 V c 6 t (ix2 k j) = V c main_arg12 (ix2 k j) := by
  show V c main_arg12 (((cfg3.win 6).blk t).view.emb (ix2 k j)) = _
  refine congrArg _ (funext fun a => Fin.ext ?_)
  obtain ⟨-, -, -, -, -, -, -, -, -, -, -, -, e0, e1, -⟩ := idx_facts t
  match a with
  | ⟨0, _⟩ => show win3_6.index t (0 : Fin 2) * 128 + 1 * k.val = k.val; omega
  | ⟨1, _⟩ => show win3_6.index t (1 : Fin 2) * 64 + 1 * j.val = j.val; omega

theorem blk_bo (c : Dev nD) (t : Fin cfg3.N) (u : Fin 1) (j : Fin 64) :
    iblk3 V c 7 t (ix2 u j) = V c main_v79 (ix2 u j) := by
  show V c main_v79 (((cfg3.win 7).blk t).view.emb (ix2 u j)) = _
  refine congrArg _ (funext fun a => Fin.ext ?_)
  obtain ⟨-, -, -, -, -, -, -, -, -, -, -, -, -, -, e0, e1, -⟩ := idx_facts t
  match a with
  | ⟨0, _⟩ => show win3_7.index t (0 : Fin 2) * 1 + 1 * u.val = u.val; omega
  | ⟨1, _⟩ => show win3_7.index t (1 : Fin 2) * 64 + 1 * j.val = j.val; omega

/-- The projected entry as a function of the eight arrays the region reads. -/
def fin (Pre H1 : S60000x128.Idx → EReal) (M Vr G Be : S1x128.Idx → EReal) (Wo : S128x64.Idx → EReal)
    (Bo : S1x64.Idx → EReal) (p : Fin 60000) (j : Fin 64) : EReal :=
  ∑ k : Fin 128, (H1 (ix2 p k) + Cert.Sage.normRelu (Ideal.ofBits .f32 0x3727C5AC#32) (row M) (row Vr) (row G) (row Be)
      (fun p q => Pre (ix2 p q)) p k) * Wo (ix2 k j) + Bo (ix2 0 j)

/-- The body's stored block at a point, read at (p, j), is the projected entry at row 4000·t + p. -/
theorem body_fin (c : Dev nD) (t : Fin cfg3.N) (p : Fin 4000) (j : Fin 64) :
    k3_pay1 (F := Ideal) (iblk3 V c 0 t) (iblk3 V c 3 t) (iblk3 V c 2 t) (iblk3 V c 4 t) (iblk3 V c 5 t) (iblk3 V c 1 t)
        (iblk3 V c 6 t) (iblk3 V c 7 t) (ix2 p j)
      = fin (V c main_v60_0) (V c main_v43) (V c main_v75) (V c main_v76) (V c main_v77) (V c main_v78) (V c main_arg12)
          (V c main_v79) (rowOf t p) j := by
  refine (final_apply (iblk3 V c 0 t) (iblk3 V c 3 t) (iblk3 V c 2 t) (iblk3 V c 4 t) (iblk3 V c 5 t) (iblk3 V c 1 t)
    (iblk3 V c 6 t) (iblk3 V c 7 t) p j).trans ?_
  unfold fin
  refine congrArg₂ (· + ·) (Finset.sum_congr rfl fun k _ => congrArg₂ (· * ·)
    (congrArg₂ (· + ·) (blk_h1 V c t p k) ?_) (blk_wo V c t k j)) (blk_bo V c t 0 j)
  unfold Cert.Sage.normRelu row
  exact congrArg₂ max (congrArg₂ (· + ·) (congrArg₂ (· * ·) (congrArg₂ (· * ·)
    (congrArg₂ (· - ·) (blk_pre V c t p k) (blk_mean V c t 0 k))
    (congrArg (fun v : EReal => Ideal.rsqrt (v + Ideal.ofBits .f32 0x3727C5AC#32)) (blk_var V c t 0 k)))
    (blk_g V c t 0 k)) (blk_be V c t 0 k)) rfl

/-- The output array: `fin` at every index. -/
def finArr (Pre H1 : S60000x128.Idx → EReal) (M Vr G Be : S1x128.Idx → EReal) (Wo : S128x64.Idx → EReal)
    (Bo : S1x64.Idx → EReal) : S60000x64.Idx → EReal :=
  fun i => fin Pre H1 M Vr G Be Wo Bo (i 0) (i 1)

/-- What point t writes back to the output array is block t of `finArr`. -/
theorem flushed8 (c : Dev nD) (t : Fin cfg3.N) :
    (dat3 V c).flushed 8 t = ((cfg3.win 8).blk t).view.read (Elt Ideal)
      (finArr (V c main_v60_0) (V c main_v43) (V c main_v75) (V c main_v76) (V c main_v77) (V c main_v78) (V c main_arg12)
        (V c main_v79)) := by
  show (cfg3.win 8).cut (grid3.coords t) ((dat3 V c).after 8 t) = _
  rw [after3_8]
  unfold out3_8
  rw [View.canon_unit_zero hz2]
  simp only [View.ld_unit_zero (S := S4000x128) hz2, View.ld_unit_zero (S := S1x128) hz2,
    View.ld_unit_zero (S := S128x64) hz2, View.ld_unit_zero (S := S1x64) hz2]
  funext i
  obtain ⟨p, j, rfl⟩ : ∃ (p : Fin 4000) (j : Fin 64), i = ix2 p j := ⟨i 0, i 1, eq_ix2 i⟩
  refine (body_fin V c t p j).trans ?_
  show _ = finArr _ _ _ _ _ _ _ _ (((cfg3.win 8).blk t).view.emb (ix2 p j))
  unfold finArr
  obtain ⟨-, -, -, -, -, -, -, -, -, -, -, -, -, -, -, -, e0, e1⟩ := idx_facts t
  have h0 : (((cfg3.win 8).blk t).view.emb (ix2 p j) 0 : Fin 60000) = rowOf t p := Fin.ext (by
    show win3_8.index t (0 : Fin 2) * 4000 + 1 * p.val = 4000 * t.val + p.val; omega)
  have h1 : (((cfg3.win 8).blk t).view.emb (ix2 p j) 1 : Fin 64) = j := Fin.ext (by
    show win3_8.index t (1 : Fin 2) * 64 + 1 * j.val = j.val; omega)
  rw [h0, h1]

/-- An index of the output array is in point t's block iff its row is in rows 4000·t … 4000·t + 3999. -/
theorem mem_blk8 (t : Fin cfg3.N) (i : S60000x64.Idx) :
    i ∈ ((cfg3.win 8).blk t).view.set ↔ ∀ a : Fin 2, win3_8.index t a * S4000x64.size a ≤ (i a).val ∧ (i a).val < win3_8.index t a * S4000x64.size a + S4000x64.size a := by
  show i ∈ ((View.whole main_v80).slice (win3_8.rect t)).set ↔ _
  rw [View.set_slice_whole, Rect.mem_set_unit]
  exact Iff.rfl

theorem cover8 (i : S60000x64.Idx) : ∃ t : Fin cfg3.N, (cfg3.win 8).flush t = true ∧ i ∈ ((cfg3.win 8).blk t).view.set := by
  have hi0 : (i 0).val < 60000 := (i 0).isLt
  have hi1 : (i 1).val < 64 := (i 1).isLt
  let t : Fin cfg3.N := ⟨(i 0).val / 4000, by show (i 0).val / 4000 < 15; omega⟩
  have ht : t.val = (i 0).val / 4000 := rfl
  obtain ⟨-, -, -, -, -, -, -, -, -, -, -, -, -, -, -, -, e0, e1⟩ := idx_facts t
  refine ⟨t, flush3_8 t, ?_⟩
  rw [mem_blk8]
  intro a
  match a with
  | ⟨0, _⟩ => show win3_8.index t (0 : Fin 2) * 4000 ≤ (i 0).val ∧ (i 0).val < win3_8.index t (0 : Fin 2) * 4000 + 4000; omega
  | ⟨1, _⟩ => show win3_8.index t (1 : Fin 2) * 64 ≤ (i 1).val ∧ (i 1).val < win3_8.index t (1 : Fin 2) * 64 + 64; omega

/-- The output array after the region, as `finArr`. -/
theorem final8_arr (c : Dev nD) :
    (dat3 V c).arrAt 8 cfg3.N = finArr (V c main_v60_0) (V c main_v43) (V c main_v75) (V c main_v76) (V c main_v77)
      (V c main_v78) (V c main_arg12) (V c main_v79) :=
  (dat3 V c).arrAt_eq_of_cover 8 _ (fun t _ => flushed8 V c t) cover8

/-- THE OUTPUT ARRAY after the region: the projection of the sum of the first layer's output and the normalised second
    pre-activation, at every index. -/
theorem final8 (c : Dev nD) :
    (dat3 V c).arrAt 8 cfg3.N = fun i : S60000x64.Idx =>
      ∑ k : Fin 128, ((by exact V c main_v43 (ix2 (i 0) k) : EReal) + Cert.Sage.normRelu (Ideal.ofBits .f32 0x3727C5AC#32) (row (V c main_v75))
          (row (V c main_v76)) (row (V c main_v77)) (row (V c main_v78))
          (fun (p : Fin 60000) (q : Fin 128) => V c main_v60_0 (ix2 p q)) (i 0) k) * (by exact V c main_arg12 (ix2 k (i 1)) : EReal)
        + (by exact V c main_v79 (ix2 0 (i 1)) : EReal) :=
  final8_arr V c

end Cert.KernelIdeal.Reg3

end
-- ==== Proof.KChain.lean ====
/-
  The idealized kernel's @main followed from the launch to the return: what each buffer holds at each boundary between
  the host stretches and the four regions, as a function of the fourteen argument arrays.

  The arguments are written by nothing. Before region 0 the host leaves the first aggregate and the first bias as a row;
  region 0 leaves the first pre-activation and its per-tile sums; the host turns the sums into the column means and
  variances; region 1 leaves the first layer's output; the host aggregates it with the same edge arrays; region 2
  leaves the second pre-activation and its sums; the host takes the second statistics; region 3 leaves the result.
-/
import proofs.«121575_j111669149883_2_alg».proof.Proof.KRun
import proofs.«121575_j111669149883_2_alg».proof.Proof.KHost
import proofs.«121575_j111669149883_2_alg».proof.Proof.KRegion0
import proofs.«121575_j111669149883_2_alg».proof.Proof.KRegion1
import proofs.«121575_j111669149883_2_alg».proof.Proof.KRegion2
import proofs.«121575_j111669149883_2_alg».proof.Proof.KRegion3

set_option maxRecDepth 16384

noncomputable section

namespace Cert.KernelIdeal.Chain

open Cert.KernelIdeal Cert.KernelIdeal.Gen Cert.KernelIdeal.HostOps Cert.KernelIdeal.Body
open Idealize.ShloMosaic Idealize.ShloMosaic.TcCoe Idealize.SL.Sem Idealize.ShloMosaic.StableHlo Idealize.ShloMosaic.ValueIdx

/-! ## What a host stretch does not write it leaves alone -/

section Keeps

variable (W : Valuation τ sig (Elt Ideal))

/-- No operation of the stretch writes the buffer: each operation's result buffer is another one. -/
local macro "host_keeps" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem keep0_arg0 : StableHlo.after (hostOps0 (F := Ideal)) W (Proc.devRef .tc main_arg0) = W (Proc.devRef .tc main_arg0) := by host_keeps
theorem keep0_arg2 : StableHlo.after (hostOps0 (F := Ideal)) W (Proc.devRef .tc main_arg2) = W (Proc.devRef .tc main_arg2) := by host_keeps
theorem keep0_arg4 : StableHlo.after (hostOps0 (F := Ideal)) W (Proc.devRef .tc main_arg4) = W (Proc.devRef .tc main_arg4) := by host_keeps
theorem keep0_arg5 : StableHlo.after (hostOps0 (F := Ideal)) W (Proc.devRef .tc main_arg5) = W (Proc.devRef .tc main_arg5) := by host_keeps
theorem keep0_arg6 : StableHlo.after (hostOps0 (F := Ideal)) W (Proc.devRef .tc main_arg6) = W (Proc.devRef .tc main_arg6) := by host_keeps
theorem keep0_arg7 : StableHlo.after (hostOps0 (F := Ideal)) W (Proc.devRef .tc main_arg7) = W (Proc.devRef .tc main_arg7) := by host_keeps
theorem keep0_arg8 : StableHlo.after (hostOps0 (F := Ideal)) W (Proc.devRef .tc main_arg8) = W (Proc.devRef .tc main_arg8) := by host_keeps
theorem keep0_arg9 : StableHlo.after (hostOps0 (F := Ideal)) W (Proc.devRef .tc main_arg9) = W (Proc.devRef .tc main_arg9) := by host_keeps
theorem keep0_arg10 : StableHlo.after (hostOps0 (F := Ideal)) W (Proc.devRef .tc main_arg10) = W (Proc.devRef .tc main_arg10) := by host_keeps
theorem keep0_arg11 : StableHlo.after (hostOps0 (F := Ideal)) W (Proc.devRef .tc main_arg11) = W (Proc.devRef .tc main_arg11) := by host_keeps
theorem keep0_arg12 : StableHlo.after (hostOps0 (F := Ideal)) W (Proc.devRef .tc main_arg12) = W (Proc.devRef .tc main_arg12) := by host_keeps
theorem keep0_arg13 : StableHlo.after (hostOps0 (F := Ideal)) W (Proc.devRef .tc main_arg13) = W (Proc.devRef .tc main_arg13) := by host_keeps
theorem keep1_v24_0 : StableHlo.after (hostOps1 (F := Ideal)) W (Proc.devRef .tc main_v24_0) = W (Proc.devRef .tc main_v24_0) := by host_keeps
theorem keep1_v1 : StableHlo.after (hostOps1 (F := Ideal)) W (Proc.devRef .tc main_v1) = W (Proc.devRef .tc main_v1) := by host_keeps
theorem keep1_v3 : StableHlo.after (hostOps1 (F := Ideal)) W (Proc.devRef .tc main_v3) = W (Proc.devRef .tc main_v3) := by host_keeps
theorem keep1_v7 : StableHlo.after (hostOps1 (F := Ideal)) W (Proc.devRef .tc main_v7) = W (Proc.devRef .tc main_v7) := by host_keeps
theorem keep1_arg7 : StableHlo.after (hostOps1 (F := Ideal)) W (Proc.devRef .tc main_arg7) = W (Proc.devRef .tc main_arg7) := by host_keeps
theorem keep1_arg8 : StableHlo.after (hostOps1 (F := Ideal)) W (Proc.devRef .tc main_arg8) = W (Proc.devRef .tc main_arg8) := by host_keeps
theorem keep1_arg9 : StableHlo.after (hostOps1 (F := Ideal)) W (Proc.devRef .tc main_arg9) = W (Proc.devRef .tc main_arg9) := by host_keeps
theorem keep1_arg10 : StableHlo.after (hostOps1 (F := Ideal)) W (Proc.devRef .tc main_arg10) = W (Proc.devRef .tc main_arg10) := by host_keeps
theorem keep1_arg11 : StableHlo.after (hostOps1 (F := Ideal)) W (Proc.devRef .tc main_arg11) = W (Proc.devRef .tc main_arg11) := by host_keeps
theorem keep1_arg12 : StableHlo.after (hostOps1 (F := Ideal)) W (Proc.devRef .tc main_arg12) = W (Proc.devRef .tc main_arg12) := by host_keeps
theorem keep1_arg13 : StableHlo.after (hostOps1 (F := Ideal)) W (Proc.devRef .tc main_arg13) = W (Proc.devRef .tc main_arg13) := by host_keeps
theorem keep2_arg7 : StableHlo.after (hostOps2 (F := Ideal)) W (Proc.devRef .tc main_arg7) = W (Proc.devRef .tc main_arg7) := by host_keeps
theorem keep2_arg9 : StableHlo.after (hostOps2 (F := Ideal)) W (Proc.devRef .tc main_arg9) = W (Proc.devRef .tc main_arg9) := by host_keeps
theorem keep2_v43 : StableHlo.after (hostOps2 (F := Ideal)) W (Proc.devRef .tc main_v43) = W (Proc.devRef .tc main_v43) := by host_keeps
theorem keep2_arg10 : StableHlo.after (hostOps2 (F := Ideal)) W (Proc.devRef .tc main_arg10) = W (Proc.devRef .tc main_arg10) := by host_keeps
theorem keep2_arg11 : StableHlo.after (hostOps2 (F := Ideal)) W (Proc.devRef .tc main_arg11) = W (Proc.devRef .tc main_arg11) := by host_keeps
theorem keep2_arg12 : StableHlo.after (hostOps2 (F := Ideal)) W (Proc.devRef .tc main_arg12) = W (Proc.devRef .tc main_arg12) := by host_keeps
theorem keep2_arg13 : StableHlo.after (hostOps2 (F := Ideal)) W (Proc.devRef .tc main_arg13) = W (Proc.devRef .tc main_arg13) := by host_keeps
theorem keep3_v60_0 : StableHlo.after (hostOps3 (F := Ideal)) W (Proc.devRef .tc main_v60_0) = W (Proc.devRef .tc main_v60_0) := by host_keeps
theorem keep3_v43 : StableHlo.after (hostOps3 (F := Ideal)) W (Proc.devRef .tc main_v43) = W (Proc.devRef .tc main_v43) := by host_keeps
theorem keep3_arg12 : StableHlo.after (hostOps3 (F := Ideal)) W (Proc.devRef .tc main_arg12) = W (Proc.devRef .tc main_arg12) := by host_keeps

end Keeps

/-! ## The boundaries -/

section Boundaries

variable (m : (ℓ : Loc nD τ sig) → Buf (Elt Ideal) ℓ) (ρ : Dev nD → PrngReg) (c : Dev nD)

/-- A vector of 128 as a [1, 128] row. -/
def rowc (v : (⟨S128, .f32⟩ : BufTy).Contents (Elt Ideal)) : (⟨S1x128, .f32⟩ : BufTy).Contents (Elt Ideal) :=
  shapeCast S1x128 v shapeCasts_S128_S1x128
/-- A vector of 64 as a [1, 64] row. -/
def rowc64 (v : (⟨S64, .f32⟩ : BufTy).Contents (Elt Ideal)) : (⟨S1x64, .f32⟩ : BufTy).Contents (Elt Ideal) :=
  shapeCast S1x64 v shapeCasts_S64_S1x64

/-! ### Before region 0 -/
theorem W1_arg0 : W1 m ρ c (Proc.devRef .tc main_arg0) = m ((c : Thread nD τ).loc main_arg0) := keep0_arg0 (W0 m ρ c)
theorem W1_arg2 : W1 m ρ c (Proc.devRef .tc main_arg2) = m ((c : Thread nD τ).loc main_arg2) := keep0_arg2 (W0 m ρ c)
theorem W1_arg4 : W1 m ρ c (Proc.devRef .tc main_arg4) = m ((c : Thread nD τ).loc main_arg4) := keep0_arg4 (W0 m ρ c)
theorem W1_arg5 : W1 m ρ c (Proc.devRef .tc main_arg5) = m ((c : Thread nD τ).loc main_arg5) := keep0_arg5 (W0 m ρ c)
theorem W1_arg6 : W1 m ρ c (Proc.devRef .tc main_arg6) = m ((c : Thread nD τ).loc main_arg6) := keep0_arg6 (W0 m ρ c)
theorem W1_arg7 : W1 m ρ c (Proc.devRef .tc main_arg7) = m ((c : Thread nD τ).loc main_arg7) := keep0_arg7 (W0 m ρ c)
theorem W1_arg8 : W1 m ρ c (Proc.devRef .tc main_arg8) = m ((c : Thread nD τ).loc main_arg8) := keep0_arg8 (W0 m ρ c)
theorem W1_arg9 : W1 m ρ c (Proc.devRef .tc main_arg9) = m ((c : Thread nD τ).loc main_arg9) := keep0_arg9 (W0 m ρ c)
theorem W1_arg10 : W1 m ρ c (Proc.devRef .tc main_arg10) = m ((c : Thread nD τ).loc main_arg10) := keep0_arg10 (W0 m ρ c)
theorem W1_arg11 : W1 m ρ c (Proc.devRef .tc main_arg11) = m ((c : Thread nD τ).loc main_arg11) := keep0_arg11 (W0 m ρ c)
theorem W1_arg12 : W1 m ρ c (Proc.devRef .tc main_arg12) = m ((c : Thread nD τ).loc main_arg12) := keep0_arg12 (W0 m ρ c)
theorem W1_arg13 : W1 m ρ c (Proc.devRef .tc main_arg13) = m ((c : Thread nD τ).loc main_arg13) := keep0_arg13 (W0 m ρ c)
theorem W1_v22 : W1 m ρ c (Proc.devRef .tc main_v22) = Cert.Sage.agg (m ((c : Thread nD τ).loc main_arg0)) (m ((c : Thread nD τ).loc main_arg1)) :=
  (host0_agg (W0 m ρ c)).trans (aggOf_eq _ _)
theorem W1_v23 : W1 m ρ c (Proc.devRef .tc main_v23) = rowc (m ((c : Thread nD τ).loc main_arg3)) := host0_bias (W0 m ρ c)
theorem W1_v1 : W1 m ρ c (Proc.devRef .tc main_v1) = srcOf (m ((c : Thread nD τ).loc main_arg1)) := host0_src (W0 m ρ c)
theorem W1_v3 : W1 m ρ c (Proc.devRef .tc main_v3) = dstOf (m ((c : Thread nD τ).loc main_arg1)) := host0_dst (W0 m ρ c)
theorem W1_v7 : W1 m ρ c (Proc.devRef .tc main_v7) = cntOf (m ((c : Thread nD τ).loc main_arg1)) := host0_cnt (W0 m ρ c)

/-! ### After region 0 -/

/-- The first layer's pre-activation, per-tile sums and per-tile sums of squares, of the arguments. -/
def P1 : S60000x128.Idx → EReal :=
  Reg0.preArr (Cert.Sage.agg (m ((c : Thread nD τ).loc main_arg0)) (m ((c : Thread nD τ).loc main_arg1))) (m ((c : Thread nD τ).loc main_arg0)) (m ((c : Thread nD τ).loc main_arg2)) (m ((c : Thread nD τ).loc main_arg4)) (rowc (m ((c : Thread nD τ).loc main_arg3)))
def S1 : S15x8x128.Idx → EReal :=
  Reg0.sumArr (Cert.Sage.agg (m ((c : Thread nD τ).loc main_arg0)) (m ((c : Thread nD τ).loc main_arg1))) (m ((c : Thread nD τ).loc main_arg0)) (m ((c : Thread nD τ).loc main_arg2)) (m ((c : Thread nD τ).loc main_arg4)) (rowc (m ((c : Thread nD τ).loc main_arg3)))
def Q1 : S15x8x128.Idx → EReal :=
  Reg0.sumsqArr (Cert.Sage.agg (m ((c : Thread nD τ).loc main_arg0)) (m ((c : Thread nD τ).loc main_arg1))) (m ((c : Thread nD τ).loc main_arg0)) (m ((c : Thread nD τ).loc main_arg2)) (m ((c : Thread nD τ).loc main_arg4)) (rowc (m ((c : Thread nD τ).loc main_arg3)))

theorem V1_reads : V1 m ρ c main_v22 = Cert.Sage.agg (m ((c : Thread nD τ).loc main_arg0)) (m ((c : Thread nD τ).loc main_arg1)) ∧ V1 m ρ c main_arg0 = m ((c : Thread nD τ).loc main_arg0)
    ∧ V1 m ρ c main_arg2 = m ((c : Thread nD τ).loc main_arg2) ∧ V1 m ρ c main_arg4 = m ((c : Thread nD τ).loc main_arg4) ∧ V1 m ρ c main_v23 = rowc (m ((c : Thread nD τ).loc main_arg3)) :=
  ⟨W1_v22 m ρ c, W1_arg0 m ρ c, W1_arg2 m ρ c, W1_arg4 m ρ c, W1_v23 m ρ c⟩

theorem W2_v24_0 : W2 m ρ c (Proc.devRef .tc main_v24_0) = P1 m c := by
  obtain ⟨e0, e1, e2, e3, e4⟩ := V1_reads m ρ c
  refine (W2_arr m ρ c 5).trans ((Reg0.final5 (V1 m ρ) c).trans ?_)
  rw [e0, e1, e2, e3, e4]; rfl
theorem W2_v24_1 : W2 m ρ c (Proc.devRef .tc main_v24_1) = S1 m c := by
  obtain ⟨e0, e1, e2, e3, e4⟩ := V1_reads m ρ c
  refine (W2_arr m ρ c 6).trans ((Reg0.final6 (V1 m ρ) c).trans ?_)
  rw [e0, e1, e2, e3, e4]; rfl
theorem W2_v24_2 : W2 m ρ c (Proc.devRef .tc main_v24_2) = Q1 m c := by
  obtain ⟨e0, e1, e2, e3, e4⟩ := V1_reads m ρ c
  refine (W2_arr m ρ c 7).trans ((Reg0.final7 (V1 m ρ) c).trans ?_)
  rw [e0, e1, e2, e3, e4]; rfl
theorem W2_arg5 : W2 m ρ c (Proc.devRef .tc main_arg5) = m ((c : Thread nD τ).loc main_arg5) := (W2_of_ne m ρ c main_arg5 (by decide)).trans (W1_arg5 m ρ c)
theorem W2_arg6 : W2 m ρ c (Proc.devRef .tc main_arg6) = m ((c : Thread nD τ).loc main_arg6) := (W2_of_ne m ρ c main_arg6 (by decide)).trans (W1_arg6 m ρ c)
theorem W2_arg7 : W2 m ρ c (Proc.devRef .tc main_arg7) = m ((c : Thread nD τ).loc main_arg7) := (W2_of_ne m ρ c main_arg7 (by decide)).trans (W1_arg7 m ρ c)
theorem W2_arg8 : W2 m ρ c (Proc.devRef .tc main_arg8) = m ((c : Thread nD τ).loc main_arg8) := (W2_of_ne m ρ c main_arg8 (by decide)).trans (W1_arg8 m ρ c)
theorem W2_arg9 : W2 m ρ c (Proc.devRef .tc main_arg9) = m ((c : Thread nD τ).loc main_arg9) := (W2_of_ne m ρ c main_arg9 (by decide)).trans (W1_arg9 m ρ c)
theorem W2_arg10 : W2 m ρ c (Proc.devRef .tc main_arg10) = m ((c : Thread nD τ).loc main_arg10) := (W2_of_ne m ρ c main_arg10 (by decide)).trans (W1_arg10 m ρ c)
theorem W2_arg11 : W2 m ρ c (Proc.devRef .tc main_arg11) = m ((c : Thread nD τ).loc main_arg11) := (W2_of_ne m ρ c main_arg11 (by decide)).trans (W1_arg11 m ρ c)
theorem W2_arg12 : W2 m ρ c (Proc.devRef .tc main_arg12) = m ((c : Thread nD τ).loc main_arg12) := (W2_of_ne m ρ c main_arg12 (by decide)).trans (W1_arg12 m ρ c)
theorem W2_arg13 : W2 m ρ c (Proc.devRef .tc main_arg13) = m ((c : Thread nD τ).loc main_arg13) := (W2_of_ne m ρ c main_arg13 (by decide)).trans (W1_arg13 m ρ c)
theorem W2_v1 : W2 m ρ c (Proc.devRef .tc main_v1) = srcOf (m ((c : Thread nD τ).loc main_arg1)) := (W2_of_ne m ρ c main_v1 (by decide)).trans (W1_v1 m ρ c)
theorem W2_v3 : W2 m ρ c (Proc.devRef .tc main_v3) = dstOf (m ((c : Thread nD τ).loc main_arg1)) := (W2_of_ne m ρ c main_v3 (by decide)).trans (W1_v3 m ρ c)
theorem W2_v7 : W2 m ρ c (Proc.devRef .tc main_v7) = cntOf (m ((c : Thread nD τ).loc main_arg1)) := (W2_of_ne m ρ c main_v7 (by decide)).trans (W1_v7 m ρ c)

/-! ### Before region 1 -/

theorem W3_v39 : W3 m ρ c (Proc.devRef .tc main_v39) = rowc (meanOf (S1 m c)) := (host1_mean (W2 m ρ c)).trans (by rw [W2_v24_1]; rfl)
theorem W3_v40 : W3 m ρ c (Proc.devRef .tc main_v40) = rowc (varOf (S1 m c) (Q1 m c)) := (host1_var (W2 m ρ c)).trans (by rw [W2_v24_1, W2_v24_2]; rfl)
theorem W3_v41 : W3 m ρ c (Proc.devRef .tc main_v41) = rowc (m ((c : Thread nD τ).loc main_arg5)) := (host1_gamma (W2 m ρ c)).trans (by rw [W2_arg5]; rfl)
theorem W3_v42 : W3 m ρ c (Proc.devRef .tc main_v42) = rowc (m ((c : Thread nD τ).loc main_arg6)) := (host1_beta (W2 m ρ c)).trans (by rw [W2_arg6]; rfl)
theorem W3_v24_0 : W3 m ρ c (Proc.devRef .tc main_v24_0) = P1 m c := (keep1_v24_0 (W2 m ρ c)).trans (W2_v24_0 m ρ c)
theorem W3_arg7 : W3 m ρ c (Proc.devRef .tc main_arg7) = m ((c : Thread nD τ).loc main_arg7) := (keep1_arg7 (W2 m ρ c)).trans (W2_arg7 m ρ c)
theorem W3_arg8 : W3 m ρ c (Proc.devRef .tc main_arg8) = m ((c : Thread nD τ).loc main_arg8) := (keep1_arg8 (W2 m ρ c)).trans (W2_arg8 m ρ c)
theorem W3_arg9 : W3 m ρ c (Proc.devRef .tc main_arg9) = m ((c : Thread nD τ).loc main_arg9) := (keep1_arg9 (W2 m ρ c)).trans (W2_arg9 m ρ c)
theorem W3_arg10 : W3 m ρ c (Proc.devRef .tc main_arg10) = m ((c : Thread nD τ).loc main_arg10) := (keep1_arg10 (W2 m ρ c)).trans (W2_arg10 m ρ c)
theorem W3_arg11 : W3 m ρ c (Proc.devRef .tc main_arg11) = m ((c : Thread nD τ).loc main_arg11) := (keep1_arg11 (W2 m ρ c)).trans (W2_arg11 m ρ c)
theorem W3_arg12 : W3 m ρ c (Proc.devRef .tc main_arg12) = m ((c : Thread nD τ).loc main_arg12) := (keep1_arg12 (W2 m ρ c)).trans (W2_arg12 m ρ c)
theorem W3_arg13 : W3 m ρ c (Proc.devRef .tc main_arg13) = m ((c : Thread nD τ).loc main_arg13) := (keep1_arg13 (W2 m ρ c)).trans (W2_arg13 m ρ c)
theorem W3_v1 : W3 m ρ c (Proc.devRef .tc main_v1) = srcOf (m ((c : Thread nD τ).loc main_arg1)) := (keep1_v1 (W2 m ρ c)).trans (W2_v1 m ρ c)
theorem W3_v3 : W3 m ρ c (Proc.devRef .tc main_v3) = dstOf (m ((c : Thread nD τ).loc main_arg1)) := (keep1_v3 (W2 m ρ c)).trans (W2_v3 m ρ c)
theorem W3_v7 : W3 m ρ c (Proc.devRef .tc main_v7) = cntOf (m ((c : Thread nD τ).loc main_arg1)) := (keep1_v7 (W2 m ρ c)).trans (W2_v7 m ρ c)

/-! ### After region 1 -/

/-- A layer's output from its pre-activation, its per-tile sums and its scale and shift: normalise with the column
    means and variances the sums give, scale, shift, clamp. -/
def layerOut (P : S60000x128.Idx → EReal) (S Q : S15x8x128.Idx → EReal) (g be : (⟨S128, .f32⟩ : BufTy).Contents (Elt Ideal)) :
    S60000x128.Idx → EReal :=
  fun i : S60000x128.Idx => Cert.Sage.normRelu (Ideal.ofBits .f32 0x3727C5AC#32) (row (rowc (meanOf S))) (row (rowc (varOf S Q)))
    (row (rowc g)) (row (rowc be)) (fun (p : Fin 60000) (q : Fin 128) => P (ix2 p q)) (i 0) (i 1)

/-- The first layer's output. -/
def H1 : S60000x128.Idx → EReal := layerOut (P1 m c) (S1 m c) (Q1 m c) (m ((c : Thread nD τ).loc main_arg5)) (m ((c : Thread nD τ).loc main_arg6))

theorem W4_v43 : W4 m ρ c (Proc.devRef .tc main_v43) = H1 m c := by
  refine (W4_arr m ρ c 5).trans ((Reg1.final5 (V3 m ρ) c).trans ?_)
  rw [show V3 m ρ c main_v39 = _ from W3_v39 m ρ c, show V3 m ρ c main_v40 = _ from W3_v40 m ρ c,
    show V3 m ρ c main_v41 = _ from W3_v41 m ρ c, show V3 m ρ c main_v42 = _ from W3_v42 m ρ c,
    show V3 m ρ c main_v24_0 = _ from W3_v24_0 m ρ c]
  rfl
theorem W4_arg7 : W4 m ρ c (Proc.devRef .tc main_arg7) = m ((c : Thread nD τ).loc main_arg7) := (W4_of_ne m ρ c main_arg7 (by decide)).trans (W3_arg7 m ρ c)
theorem W4_arg8 : W4 m ρ c (Proc.devRef .tc main_arg8) = m ((c : Thread nD τ).loc main_arg8) := (W4_of_ne m ρ c main_arg8 (by decide)).trans (W3_arg8 m ρ c)
theorem W4_arg9 : W4 m ρ c (Proc.devRef .tc main_arg9) = m ((c : Thread nD τ).loc main_arg9) := (W4_of_ne m ρ c main_arg9 (by decide)).trans (W3_arg9 m ρ c)
theorem W4_arg10 : W4 m ρ c (Proc.devRef .tc main_arg10) = m ((c : Thread nD τ).loc main_arg10) := (W4_of_ne m ρ c main_arg10 (by decide)).trans (W3_arg10 m ρ c)
theorem W4_arg11 : W4 m ρ c (Proc.devRef .tc main_arg11) = m ((c : Thread nD τ).loc main_arg11) := (W4_of_ne m ρ c main_arg11 (by decide)).trans (W3_arg11 m ρ c)
theorem W4_arg12 : W4 m ρ c (Proc.devRef .tc main_arg12) = m ((c : Thread nD τ).loc main_arg12) := (W4_of_ne m ρ c main_arg12 (by decide)).trans (W3_arg12 m ρ c)
theorem W4_arg13 : W4 m ρ c (Proc.devRef .tc main_arg13) = m ((c : Thread nD τ).loc main_arg13) := (W4_of_ne m ρ c main_arg13 (by decide)).trans (W3_arg13 m ρ c)
theorem W4_v1 : W4 m ρ c (Proc.devRef .tc main_v1) = srcOf (m ((c : Thread nD τ).loc main_arg1)) := (W4_of_ne m ρ c main_v1 (by decide)).trans (W3_v1 m ρ c)
theorem W4_v3 : W4 m ρ c (Proc.devRef .tc main_v3) = dstOf (m ((c : Thread nD τ).loc main_arg1)) := (W4_of_ne m ρ c main_v3 (by decide)).trans (W3_v3 m ρ c)
theorem W4_v7 : W4 m ρ c (Proc.devRef .tc main_v7) = cntOf (m ((c : Thread nD τ).loc main_arg1)) := (W4_of_ne m ρ c main_v7 (by decide)).trans (W3_v7 m ρ c)

/-! ### Before region 2 -/

theorem W5_v58 : W5 m ρ c (Proc.devRef .tc main_v58) = Cert.Sage.agg (H1 m c) (m ((c : Thread nD τ).loc main_arg1)) :=
  (host2_agg (W4 m ρ c)).trans (by rw [W4_v43, W4_v1, W4_v3, W4_v7]; exact aggOf_eq _ _)
theorem W5_v59 : W5 m ρ c (Proc.devRef .tc main_v59) = rowc (m ((c : Thread nD τ).loc main_arg8)) := (host2_bias (W4 m ρ c)).trans (by rw [W4_arg8]; rfl)
theorem W5_v43 : W5 m ρ c (Proc.devRef .tc main_v43) = H1 m c := (keep2_v43 (W4 m ρ c)).trans (W4_v43 m ρ c)
theorem W5_arg7 : W5 m ρ c (Proc.devRef .tc main_arg7) = m ((c : Thread nD τ).loc main_arg7) := (keep2_arg7 (W4 m ρ c)).trans (W4_arg7 m ρ c)
theorem W5_arg9 : W5 m ρ c (Proc.devRef .tc main_arg9) = m ((c : Thread nD τ).loc main_arg9) := (keep2_arg9 (W4 m ρ c)).trans (W4_arg9 m ρ c)
theorem W5_arg10 : W5 m ρ c (Proc.devRef .tc main_arg10) = m ((c : Thread nD τ).loc main_arg10) := (keep2_arg10 (W4 m ρ c)).trans (W4_arg10 m ρ c)
theorem W5_arg11 : W5 m ρ c (Proc.devRef .tc main_arg11) = m ((c : Thread nD τ).loc main_arg11) := (keep2_arg11 (W4 m ρ c)).trans (W4_arg11 m ρ c)
theorem W5_arg12 : W5 m ρ c (Proc.devRef .tc main_arg12) = m ((c : Thread nD τ).loc main_arg12) := (keep2_arg12 (W4 m ρ c)).trans (W4_arg12 m ρ c)
theorem W5_arg13 : W5 m ρ c (Proc.devRef .tc main_arg13) = m ((c : Thread nD τ).loc main_arg13) := (keep2_arg13 (W4 m ρ c)).trans (W4_arg13 m ρ c)

/-! ### After region 2 -/

def P2 : S60000x128.Idx → EReal :=
  Reg0.preArr (Cert.Sage.agg (H1 m c) (m ((c : Thread nD τ).loc main_arg1))) (H1 m c) (m ((c : Thread nD τ).loc main_arg7)) (m ((c : Thread nD τ).loc main_arg9)) (rowc (m ((c : Thread nD τ).loc main_arg8)))
def S2 : S15x8x128.Idx → EReal :=
  Reg0.sumArr (Cert.Sage.agg (H1 m c) (m ((c : Thread nD τ).loc main_arg1))) (H1 m c) (m ((c : Thread nD τ).loc main_arg7)) (m ((c : Thread nD τ).loc main_arg9)) (rowc (m ((c : Thread nD τ).loc main_arg8)))
def Q2 : S15x8x128.Idx → EReal :=
  Reg0.sumsqArr (Cert.Sage.agg (H1 m c) (m ((c : Thread nD τ).loc main_arg1))) (H1 m c) (m ((c : Thread nD τ).loc main_arg7)) (m ((c : Thread nD τ).loc main_arg9)) (rowc (m ((c : Thread nD τ).loc main_arg8)))

theorem V5_reads : V5 m ρ c main_v58 = Cert.Sage.agg (H1 m c) (m ((c : Thread nD τ).loc main_arg1)) ∧ V5 m ρ c main_v43 = H1 m c
    ∧ V5 m ρ c main_arg7 = m ((c : Thread nD τ).loc main_arg7) ∧ V5 m ρ c main_arg9 = m ((c : Thread nD τ).loc main_arg9) ∧ V5 m ρ c main_v59 = rowc (m ((c : Thread nD τ).loc main_arg8)) :=
  ⟨W5_v58 m ρ c, W5_v43 m ρ c, W5_arg7 m ρ c, W5_arg9 m ρ c, W5_v59 m ρ c⟩

theorem W6_v60_0 : W6 m ρ c (Proc.devRef .tc main_v60_0) = P2 m c := by
  obtain ⟨e0, e1, e2, e3, e4⟩ := V5_reads m ρ c
  refine (W6_arr m ρ c 5).trans ((Reg2.final5 (V5 m ρ) c).trans ?_)
  rw [e0, e1, e2, e3, e4]; rfl
theorem W6_v60_1 : W6 m ρ c (Proc.devRef .tc main_v60_1) = S2 m c := by
  obtain ⟨e0, e1, e2, e3, e4⟩ := V5_reads m ρ c
  refine (W6_arr m ρ c 6).trans ((Reg2.final6 (V5 m ρ) c).trans ?_)
  rw [e0, e1, e2, e3, e4]; rfl
theorem W6_v60_2 : W6 m ρ c (Proc.devRef .tc main_v60_2) = Q2 m c := by
  obtain ⟨e0, e1, e2, e3, e4⟩ := V5_reads m ρ c
  refine (W6_arr m ρ c 7).trans ((Reg2.final7 (V5 m ρ) c).trans ?_)
  rw [e0, e1, e2, e3, e4]; rfl
/-- The first layer's output is an operand of region 2, which writes no operand. -/
theorem W6_v43 : W6 m ρ c (Proc.devRef .tc main_v43) = H1 m c :=
  (W6_arr m ρ c 1).trans (((dat2 (V5 m ρ) c).arrAt_in 1 rfl _).trans ((A_eq2 (V5 m ρ) c 1).trans (W5_v43 m ρ c)))
theorem W6_arg10 : W6 m ρ c (Proc.devRef .tc main_arg10) = m ((c : Thread nD τ).loc main_arg10) := (W6_of_ne m ρ c main_arg10 (by decide)).trans (W5_arg10 m ρ c)
theorem W6_arg11 : W6 m ρ c (Proc.devRef .tc main_arg11) = m ((c : Thread nD τ).loc main_arg11) := (W6_of_ne m ρ c main_arg11 (by decide)).trans (W5_arg11 m ρ c)
theorem W6_arg12 : W6 m ρ c (Proc.devRef .tc main_arg12) = m ((c : Thread nD τ).loc main_arg12) := (W6_of_ne m ρ c main_arg12 (by decide)).trans (W5_arg12 m ρ c)
theorem W6_arg13 : W6 m ρ c (Proc.devRef .tc main_arg13) = m ((c : Thread nD τ).loc main_arg13) := (W6_of_ne m ρ c main_arg13 (by decide)).trans (W5_arg13 m ρ c)

/-! ### Before region 3 -/

theorem W7_v75 : W7 m ρ c (Proc.devRef .tc main_v75) = rowc (meanOf (S2 m c)) := (host3_mean (W6 m ρ c)).trans (by rw [W6_v60_1]; rfl)
theorem W7_v76 : W7 m ρ c (Proc.devRef .tc main_v76) = rowc (varOf (S2 m c) (Q2 m c)) := (host3_var (W6 m ρ c)).trans (by rw [W6_v60_1, W6_v60_2]; rfl)
theorem W7_v77 : W7 m ρ c (Proc.devRef .tc main_v77) = rowc (m ((c : Thread nD τ).loc main_arg10)) := (host3_gamma (W6 m ρ c)).trans (by rw [W6_arg10]; rfl)
theorem W7_v78 : W7 m ρ c (Proc.devRef .tc main_v78) = rowc (m ((c : Thread nD τ).loc main_arg11)) := (host3_beta (W6 m ρ c)).trans (by rw [W6_arg11]; rfl)
theorem W7_v79 : W7 m ρ c (Proc.devRef .tc main_v79) = rowc64 (m ((c : Thread nD τ).loc main_arg13)) := (host3_bias (W6 m ρ c)).trans (by rw [W6_arg13]; rfl)
theorem W7_v60_0 : W7 m ρ c (Proc.devRef .tc main_v60_0) = P2 m c := (keep3_v60_0 (W6 m ρ c)).trans (W6_v60_0 m ρ c)
theorem W7_v43 : W7 m ρ c (Proc.devRef .tc main_v43) = H1 m c := (keep3_v43 (W6 m ρ c)).trans (W6_v43 m ρ c)
theorem W7_arg12 : W7 m ρ c (Proc.devRef .tc main_arg12) = m ((c : Thread nD τ).loc main_arg12) := (keep3_arg12 (W6 m ρ c)).trans (W6_arg12 m ρ c)

/-! ### After region 3: the result -/

/-- The second layer's output. -/
def H2 : S60000x128.Idx → EReal := layerOut (P2 m c) (S2 m c) (Q2 m c) (m ((c : Thread nD τ).loc main_arg10)) (m ((c : Thread nD τ).loc main_arg11))

/-- The result array: the projection of the sum of the two layers' outputs. -/
def Out : S60000x64.Idx → EReal :=
  fun i : S60000x64.Idx => ∑ k : Fin 128, (H1 m c (ix2 (i 0) k) + H2 m c (ix2 (i 0) k)) * (m ((c : Thread nD τ).loc main_arg12) : S128x64.Idx → EReal) (ix2 k (i 1))
    + rowc64 (m ((c : Thread nD τ).loc main_arg13)) (ix2 0 (i 1))

theorem W8_v80 : W8 m ρ c (Proc.devRef .tc main_v80) = Out m c := by
  refine (W8_arr m ρ c 8).trans ((Reg3.final8 (V7 m ρ) c).trans ?_)
  rw [show V7 m ρ c main_v43 = _ from W7_v43 m ρ c, show V7 m ρ c main_v75 = _ from W7_v75 m ρ c,
    show V7 m ρ c main_v76 = _ from W7_v76 m ρ c, show V7 m ρ c main_v77 = _ from W7_v77 m ρ c,
    show V7 m ρ c main_v78 = _ from W7_v78 m ρ c, show V7 m ρ c main_v60_0 = _ from W7_v60_0 m ρ c,
    show V7 m ρ c main_arg12 = _ from W7_arg12 m ρ c, show V7 m ρ c main_v79 = _ from W7_v79 m ρ c]
  rfl

end Boundaries

end Cert.KernelIdeal.Chain

end
-- ==== Proof.BatchStats.lean ====
/-
  Batch statistics over real entries. Independent of any program.

  For a matrix whose entries are real numbers and a row count c = n > 0, the column mean and the biased column
  variance are real, the variance is nonnegative, and the variance computed as the mean of the squares minus the squared
  mean agrees with the mean of the squared deviations:
      (Σ z²)/n − ((Σ z)/n)² = (Σ (z − μ)²)/n ≥ 0,
  so clamping it below at zero changes nothing. With a positive ε added the reciprocal square root is real, so every
  entry of a normalised layer is real. The float literals the network spells are identified at the end, and a sum over
  60000 rows is split into 15 tiles of 4000 rows.
-/
import proofs.«121575_j111669149883_2_alg».proof.Proof.LayerMath
import Mathlib.Logic.Equiv.Fin.Basic
import Mathlib.Algebra.BigOperators.Group.Finset.Basic
import Mathlib.Algebra.Order.BigOperators.Group.Finset
import Mathlib.Tactic.FieldSimp
import Mathlib.Tactic.Linarith
import Mathlib.Tactic.Positivity
import Mathlib.Tactic.NormNum
import Mathlib.Tactic.Ring

noncomputable section

namespace Cert.Sage

open Idealize.ShloMosaic Finset Cert.Gcn

variable {n k d : ℕ}

/-! ### Closure of the real entries under the remaining operations -/

theorem _root_.Cert.Gcn.IsReal.neg {u : EReal} (hu : IsReal u) : IsReal (-u) := by
  obtain ⟨a, rfl⟩ := hu
  exact ⟨-a, (EReal.coe_neg a).symm⟩

theorem _root_.Cert.Gcn.IsReal.sub {u v : EReal} (hu : IsReal u) (hv : IsReal v) : IsReal (u - v) := by
  obtain ⟨a, rfl⟩ := hu; obtain ⟨b, rfl⟩ := hv
  exact ⟨a - b, (EReal.coe_sub a b).symm⟩

/-- A real divided by a nonzero real is real. -/
theorem isReal_div {x c : EReal} {r : ℝ} (hx : IsReal x) (hc : c = (r : EReal)) (hr : r ≠ 0) :
    IsReal (Ideal.div x c) := by
  obtain ⟨a, rfl⟩ := hx
  subst hc
  rw [Ideal.div_coe hr, ← EReal.coe_mul]
  exact isReal_coe _

/-- The reciprocal square root of a positive real is real. -/
theorem isReal_rsqrt {v : EReal} (hv : IsReal v) (hpos : 0 < v) : IsReal (Ideal.rsqrt v) := by
  obtain ⟨a, rfl⟩ := hv
  have ha : 0 < a := by exact_mod_cast hpos
  rw [Ideal.rsqrt_coe, if_neg (not_lt.mpr ha.le), if_neg ha.ne']
  exact isReal_coe _

/-! ### The two variances over the reals -/

/-- The mean of the squares minus the squared mean is the mean of the squared deviations. -/
theorem var_real (hn : 0 < n) (g : Fin n → ℝ) :
    (∑ r, g r * g r) * (1 / (n : ℝ)) - ((∑ r, g r) * (1 / (n : ℝ))) * ((∑ r, g r) * (1 / (n : ℝ)))
      = (∑ r, (g r - (∑ r, g r) * (1 / (n : ℝ))) * (g r - (∑ r, g r) * (1 / (n : ℝ)))) * (1 / (n : ℝ)) := by
  have hn' : (n : ℝ) ≠ 0 := by exact_mod_cast hn.ne'
  generalize hμ : (∑ r, g r) * (1 / (n : ℝ)) = μ
  have hS : ∑ r, g r = n * μ := by rw [← hμ]; field_simp
  have h1 : ∑ r, (g r - μ) * (g r - μ) = (∑ r, g r * g r) - 2 * μ * (∑ r, g r) + n * (μ * μ) := by
    have : ∀ r, (g r - μ) * (g r - μ) = g r * g r - 2 * μ * g r + μ * μ := fun r => by ring
    simp only [this, Finset.sum_add_distrib, Finset.sum_sub_distrib, ← Finset.mul_sum, Finset.sum_const,
      Finset.card_univ, Fintype.card_fin, nsmul_eq_mul]
    ring
  rw [h1, hS]
  field_simp
  ring

/-- The mean of the squared deviations is nonnegative. -/
theorem var_real_nonneg (g : Fin n → ℝ) (μ : ℝ) : 0 ≤ (∑ r, (g r - μ) * (g r - μ)) * (1 / (n : ℝ)) :=
  mul_nonneg (Finset.sum_nonneg fun r _ => mul_self_nonneg _) (by positivity)

/-! ### Mean and variance of a matrix of coerced reals -/

theorem colMean_coe (hn : 0 < n) (f : Fin n → Fin d → ℝ) (q : Fin d) :
    colMean ((n : ℝ) : EReal) (fun r q => ((f r q : ℝ) : EReal)) q
      = (((∑ r, f r q) * (1 / (n : ℝ)) : ℝ) : EReal) := by
  have hn' : (n : ℝ) ≠ 0 := by exact_mod_cast hn.ne'
  simp only [colMean]
  rw [Ideal.div_coe hn', ← coe_sum, ← EReal.coe_mul]

theorem colVar_coe (hn : 0 < n) (f : Fin n → Fin d → ℝ) (q : Fin d) :
    colVar ((n : ℝ) : EReal) (fun r q => ((f r q : ℝ) : EReal)) q
      = (((∑ r, (f r q - (∑ r, f r q) * (1 / (n : ℝ))) * (f r q - (∑ r, f r q) * (1 / (n : ℝ)))) * (1 / (n : ℝ)) : ℝ) : EReal) := by
  have hn' : (n : ℝ) ≠ 0 := by exact_mod_cast hn.ne'
  simp only [colVar, colMean_coe hn]
  simp only [← EReal.coe_sub, ← EReal.coe_mul, ← coe_sum]
  rw [Ideal.div_coe hn', ← EReal.coe_mul]

theorem colVarK_coe (hn : 0 < n) (f : Fin n → Fin d → ℝ) (q : Fin d) :
    colVarK ((n : ℝ) : EReal) (fun r q => ((f r q : ℝ) : EReal)) q
      = max (((∑ r, f r q * f r q) * (1 / (n : ℝ))
          - ((∑ r, f r q) * (1 / (n : ℝ))) * ((∑ r, f r q) * (1 / (n : ℝ))) : ℝ) : EReal) 0 := by
  have hn' : (n : ℝ) ≠ 0 := by exact_mod_cast hn.ne'
  simp only [colVarK, colMean_coe hn]
  simp only [← EReal.coe_mul, ← coe_sum]
  rw [Ideal.div_coe hn', ← EReal.coe_mul, ← EReal.coe_sub]

/-- A matrix of real entries is the coercion of a real matrix. -/
theorem exists_real_matrix (z : Fin n → Fin d → EReal) (hz : ∀ r q, IsReal (z r q)) :
    ∃ f : Fin n → Fin d → ℝ, z = fun r q => ((f r q : ℝ) : EReal) := by
  choose f hf using hz
  exact ⟨f, funext fun r => funext fun q => hf r q⟩

/-- For real entries the clamped second-moment variance is the variance. -/
theorem colVarK_eq (hn : 0 < n) {c : EReal} (hc : c = ((n : ℝ) : EReal)) (z : Fin n → Fin d → EReal)
    (hz : ∀ r q, IsReal (z r q)) (q : Fin d) : colVarK c z q = colVar c z q := by
  obtain ⟨f, rfl⟩ := exists_real_matrix z hz
  subst hc
  rw [colVarK_coe hn, colVar_coe hn, var_real hn (fun r => f r q)]
  exact max_eq_left (by exact_mod_cast var_real_nonneg (fun r => f r q) _)

theorem isReal_colMean (hn : 0 < n) {c : EReal} (hc : c = ((n : ℝ) : EReal)) (z : Fin n → Fin d → EReal)
    (hz : ∀ r q, IsReal (z r q)) (q : Fin d) : IsReal (colMean c z q) :=
  isReal_div (IsReal.sum _ _ fun r _ => hz r q) hc (by exact_mod_cast hn.ne')

theorem isReal_colVar (hn : 0 < n) {c : EReal} (hc : c = ((n : ℝ) : EReal)) (z : Fin n → Fin d → EReal)
    (hz : ∀ r q, IsReal (z r q)) (q : Fin d) : IsReal (colVar c z q) :=
  isReal_div (IsReal.sum _ _ fun r _ =>
    ((hz r q).sub (isReal_colMean hn hc z hz q)).mul ((hz r q).sub (isReal_colMean hn hc z hz q))) hc
    (by exact_mod_cast hn.ne')

theorem colVar_nonneg (hn : 0 < n) {c : EReal} (hc : c = ((n : ℝ) : EReal)) (z : Fin n → Fin d → EReal)
    (hz : ∀ r q, IsReal (z r q)) (q : Fin d) : 0 ≤ colVar c z q := by
  obtain ⟨f, rfl⟩ := exists_real_matrix z hz
  subst hc
  rw [colVar_coe hn]
  exact_mod_cast var_real_nonneg (fun r => f r q) _

/-! ### Every entry of a layer is real -/

theorem isReal_lin (agg x : Fin n → Fin k → EReal) (Wl Wr : Fin k → Fin d → EReal) (bl : Fin d → EReal)
    (hagg : ∀ p j, IsReal (agg p j)) (hx : ∀ p j, IsReal (x p j)) (hWl : ∀ j q, IsReal (Wl j q))
    (hWr : ∀ j q, IsReal (Wr j q)) (hbl : ∀ q, IsReal (bl q)) (p : Fin n) (q : Fin d) :
    IsReal (lin agg x Wl Wr bl p q) :=
  ((IsReal.sum _ _ fun j _ => (hagg p j).mul (hWl j q)).add (hbl q)).add
    (IsReal.sum _ _ fun j _ => (hx p j).mul (hWr j q))

/-- With a positive ε the normalised, scaled, shifted and clamped entries are real. -/
theorem isReal_bnRelu (hn : 0 < n) {c : EReal} (hc : c = ((n : ℝ) : EReal)) {ε : EReal}
    (hε : ∃ e : ℝ, 0 < e ∧ ε = (e : EReal)) (γ β : Fin d → EReal) (hγ : ∀ q, IsReal (γ q)) (hβ : ∀ q, IsReal (β q))
    (z : Fin n → Fin d → EReal) (hz : ∀ r q, IsReal (z r q)) (p : Fin n) (q : Fin d) :
    IsReal (bnRelu c ε γ β z p q) := by
  obtain ⟨e, he, rfl⟩ := hε
  have hv := isReal_colVar hn hc z hz q
  have hv0 := colVar_nonneg hn hc z hz q
  have hpos : 0 < colVar c z q + (e : EReal) := by
    obtain ⟨a, ha⟩ := hv
    rw [ha] at hv0 ⊢
    have ha0 : 0 ≤ a := by exact_mod_cast hv0
    rw [← EReal.coe_add]
    exact_mod_cast add_pos_of_nonneg_of_pos ha0 he
  simp only [bnRelu, normRelu]
  exact ((((hz p q).sub (isReal_colMean hn hc z hz q)).mul (isReal_rsqrt (hv.add (isReal_coe e)) hpos)).mul
    (hγ q) |>.add (hβ q)).max isReal_zero

/-- For real entries the layer with the second-moment variance is the layer. -/
theorem bnReluK_eq (hn : 0 < n) {c : EReal} (hc : c = ((n : ℝ) : EReal)) (ε : EReal) (γ β : Fin d → EReal)
    (z : Fin n → Fin d → EReal) (hz : ∀ r q, IsReal (z r q)) : bnReluK c ε γ β z = bnRelu c ε γ β z := by
  funext p q
  simp only [bnReluK, bnRelu, normRelu, colVarK_eq hn hc z hz]

theorem isReal_outLin (h1 h2 : Fin n → Fin k → EReal) (Wo : Fin k → Fin d → EReal) (bo : Fin d → EReal)
    (hh1 : ∀ p j, IsReal (h1 p j)) (hh2 : ∀ p j, IsReal (h2 p j)) (hWo : ∀ j q, IsReal (Wo j q))
    (hbo : ∀ q, IsReal (bo q)) (p : Fin n) (q : Fin d) : IsReal (outLin h1 h2 Wo bo p q) :=
  (IsReal.sum _ _ fun j _ => ((hh1 p j).add (hh2 p j)).mul (hWo j q)).add (hbo q)

/-! ### The float literals -/

section Literals

/-- The row count 60000 as a single-precision pattern. -/
theorem cN_eq : Ideal.ofBits .f32 0x476A6000#32 = ((60000 : ℝ) : EReal) := by
  simp [Ideal.ofBits, Ideal.ieee, -EReal.coe_mul]; norm_num

/-- The batch-normalisation ε is a positive real. -/
theorem eps_pos : ∃ e : ℝ, 0 < e ∧ Ideal.ofBits .f32 0x3727C5AC#32 = (e : EReal) := by
  refine ⟨((2 ^ 23 + 0x27C5AC : ℕ) : ℝ) * (2 : ℝ) ^ ((110 : ℤ) - 127 - 23), by positivity, ?_⟩
  simp [Ideal.ofBits, Ideal.ieee, -EReal.coe_mul]

theorem one_eq : Ideal.ofBits .f32 0x3F800000#32 = ((1 : ℝ) : EReal) := by
  simp [Ideal.ofBits, Ideal.ieee, -EReal.coe_mul]; norm_num

end Literals

/-! ### A sum over the rows, tile by tile -/

theorem sum_tiles_gen {M : Type} [AddCommMonoid M] (a b : ℕ) (f : Fin (a * b) → M) :
    ∑ t : Fin a, ∑ r : Fin b, f (finProdFinEquiv (t, r)) = ∑ i, f i := by
  rw [← Equiv.sum_comp finProdFinEquiv f, Fintype.sum_prod_type]

theorem sum_tiles {M : Type} [AddCommMonoid M] (f : Fin 60000 → M) :
    ∑ t : Fin 15, ∑ r : Fin 4000, f ⟨4000 * t.val + r.val, by omega⟩ = ∑ r : Fin 60000, f r := by
  rw [← sum_tiles_gen 15 4000 f]
  refine Finset.sum_congr rfl fun t _ => Finset.sum_congr rfl fun r _ => congrArg f (Fin.ext ?_)
  simp only [finProdFinEquiv, Equiv.coe_fn_mk]
  omega

end Cert.Sage

end
-- ==== Proof.AggReal.lean ====
/-
  The neighbourhood aggregate of a real feature matrix is real.

  The aggregate gathers the source rows of the edges, adds them up at the destination nodes (zero plus a finite sum of
  gathered entries) and divides by max(in-degree, 1), where the in-degree is zero plus a finite sum of ones. A gather of
  real entries is real, a finite sum of reals is real, and the divisor is a real that is at least one, so the quotient is
  real.
-/
import proofs.«121575_j111669149883_2_alg».proof.Proof.Model
import proofs.«121575_j111669149883_2_alg».proof.Proof.BatchStats
import Idealize.ShloMosaic.PureOps.Ideal.Laws

noncomputable section

namespace Cert.Sage

open Idealize.ShloMosaic Cert.Gcn Cert.ReferenceIdeal.Read

/-- A gather reads its operand somewhere: of a real array it is real at every index. -/
theorem isReal_gather {s si t : Shape} {w : Nat} (g : GatherDims s si t) (x : s.Idx → EReal) (idx : IVec si w)
    (hx : ∀ i, IsReal (x i)) (j : t.Idx) : IsReal (Host.gather g x idx j) :=
  hx _

/-- An accumulating scatter is the operand plus a finite sum of updates: of real updates into a real operand it is
    real at every index. -/
theorem isReal_scatterAdd {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (IsReal.sum _ _ fun j _ => hu j)

/-- A real divided by the larger of a real and one is real: the divisor is at least one. -/
theorem isReal_div_max_one {a b : EReal} (ha : IsReal a) (hb : IsReal b) :
    IsReal (Ideal.div a (max b ((1 : ℝ) : EReal))) := by
  obtain ⟨m, hm⟩ := hb.max (isReal_coe 1)
  have h1 : ((1 : ℝ) : EReal) ≤ (m : EReal) := hm ▸ le_max_right b _
  have h1' : (1 : ℝ) ≤ m := by exact_mod_cast h1
  exact isReal_div ha hm (by linarith)

/-- The mean aggregate of a real feature matrix is real at every index. -/
theorem isReal_agg (feat : Mat 60000 128) (ei : Edges) (hfeat : ∀ i, IsReal (feat i)) (i : (⟨2, ![60000, 128]⟩ : Shape).Idx) :
    IsReal (agg feat ei i) := by
  unfold agg
  rw [val_main_v22_apply, val_main_v21_apply, val_main_v20_apply, val_main_v19_apply]
  generalize idx_main_v20 (idx_main_v21 i) = k
  have h18 : val_main_v18 (F := Ideal) k = ((1 : ℝ) : EReal) := by
    rw [val_main_v18_apply, val_main_cst_3_apply, Ideal.ofBits_def]; exact one_eq
  have h17 : IsReal (val_main_v17 (F := Ideal) ei k) := by
    unfold val_main_v17
    refine isReal_scatterAdd _ _ _ _ (fun i => ?_) (fun j => ?_) k
    · rw [val_main_v15_apply, val_main_cst_2_apply, Ideal.ofBits_def, Ideal.ofBits_zero_f32]; exact isReal_zero
    · rw [val_main_v14_apply, val_main_cst_1_apply, Ideal.ofBits_def, one_eq]; exact isReal_coe 1
  have h13 : IsReal (val_main_v13 (F := Ideal) feat ei i) := by
    unfold val_main_v13
    refine isReal_scatterAdd _ _ _ _ (fun i => ?_) (fun j => ?_) i
    · rw [val_main_v11_apply, val_main_cst_apply, Ideal.ofBits_def, Ideal.ofBits_zero_f32]; exact isReal_zero
    · unfold val_main_v10
      exact isReal_gather _ _ _ hfeat j
  rw [Ideal.hostDivf_def, Ideal.maximumf_def, h18]
  exact isReal_div_max_one h13 h17

end Cert.Sage

end
-- ==== Proof.LayerReal.lean ====
/-
  A layer on real arguments.

  With real features and real weights the pre-activation of a layer is real: the neighbourhood aggregate of a real
  matrix is real, and sums of products of reals are real. The row count 60000 is a positive real and ε is a positive
  real, so on a real pre-activation the variance computed as the mean of the squares minus the squared mean agrees with
  the mean of the squared deviations, and, with real scale and shift rows, every entry of the layer's output is real.
-/
import proofs.«121575_j111669149883_2_alg».proof.Proof.Model
import proofs.«121575_j111669149883_2_alg».proof.Proof.BatchStats
import proofs.«121575_j111669149883_2_alg».proof.Proof.AggReal

noncomputable section

namespace Cert.Sage

open Idealize.ShloMosaic Idealize.ShloMosaic.ValueIdx Cert.Gcn

/-- The row count is the real 60000. -/
theorem cN_nat : cN = (((60000 : ℕ) : ℝ) : EReal) := by
  unfold cN
  rw [cN_eq]
  exact congrArg _ (by norm_num)

/-- The variance offset is a positive real. -/
theorem eps_pos' : ∃ e : ℝ, 0 < e ∧ eps = (e : EReal) := eps_pos

/-- The pre-activation of a layer on real features and weights is real. -/
theorem isReal_pre (feat : Mat 60000 128) (ei : Edges) (Wl Wr : Mat 128 128) (bl : Vct 128)
    (hfeat : ∀ i, IsReal (feat i)) (hWl : ∀ i, IsReal (Wl i)) (hWr : ∀ i, IsReal (Wr i)) (hbl : ∀ i, IsReal (bl i))
    (p : Fin 60000) (q : Fin 128) :
    IsReal (lin (toC (agg feat ei)) (toC feat) (toC Wl) (toC Wr) (toV bl) p q) :=
  isReal_lin _ _ _ _ _ (fun p j => isReal_agg feat ei hfeat (ix2 p j)) (fun p j => hfeat (ix2 p j))
    (fun j q => hWl (ix2 j q)) (fun j q => hWr (ix2 j q)) (fun q => hbl (ix1 q)) p q

/-- On real arguments the layer with the second-moment variance is the layer. -/
theorem layerK_eq (feat : Mat 60000 128) (ei : Edges) (Wl Wr : Mat 128 128) (bl g be : Vct 128)
    (hfeat : ∀ i, IsReal (feat i)) (hWl : ∀ i, IsReal (Wl i)) (hWr : ∀ i, IsReal (Wr i)) (hbl : ∀ i, IsReal (bl i)) :
    ofC (bnReluK cN eps (toV g) (toV be) (lin (toC (agg feat ei)) (toC feat) (toC Wl) (toC Wr) (toV bl)))
      = layer feat ei Wl Wr bl g be := by
  unfold layer
  rw [bnReluK_eq (by norm_num) cN_nat eps (toV g) (toV be) _ (isReal_pre feat ei Wl Wr bl hfeat hWl hWr hbl)]

/-- On real arguments every entry of a layer's output is real. -/
theorem isReal_layer (feat : Mat 60000 128) (ei : Edges) (Wl Wr : Mat 128 128) (bl g be : Vct 128)
    (hfeat : ∀ i, IsReal (feat i)) (hWl : ∀ i, IsReal (Wl i)) (hWr : ∀ i, IsReal (Wr i)) (hbl : ∀ i, IsReal (bl i))
    (hg : ∀ i, IsReal (g i)) (hbe : ∀ i, IsReal (be i)) : ∀ i, IsReal (layer feat ei Wl Wr bl g be i) := by
  intro i
  unfold layer
  show IsReal (bnRelu cN eps (toV g) (toV be) (lin (toC (agg feat ei)) (toC feat) (toC Wl) (toC Wr) (toV bl)) (i 0) (i 1))
  exact isReal_bnRelu (by norm_num) cN_nat eps_pos' (toV g) (toV be) (fun q => hg (ix1 q)) (fun q => hbe (ix1 q)) _
    (isReal_pre feat ei Wl Wr bl hfeat hWl hWr hbl) (i 0) (i 1)

end Cert.Sage

end
-- ==== Proof.KMath.lean ====
/-
  The kernel's stage functions are the network's.

  Written entry by entry, the first dense-layer region's pre-activation is the layer's linear part (the two sums and
  the bias in another order — addition of extended reals is commutative and associative); the column means the host takes
  from the per-tile sums are the means over all 60000 rows (a sum over the rows taken 15 tiles of 4000 at a time); its
  variances are the mean of the squares minus the squared mean, clamped at zero. For REAL pre-activations that is the
  mean squared deviation the reference takes, and a layer of real inputs has real outputs, so both layers and the
  output projection are the reference's whenever every float argument is real.
-/
import proofs.«121575_j111669149883_2_alg».proof.Proof.KChain
import proofs.«121575_j111669149883_2_alg».proof.Proof.BatchStats
import proofs.«121575_j111669149883_2_alg».proof.Proof.AggReal
import proofs.«121575_j111669149883_2_alg».proof.Proof.LayerReal

noncomputable section

namespace Cert.KernelIdeal.Math

open Cert.KernelIdeal Cert.KernelIdeal.Gen Cert.KernelIdeal.HostOps Cert.KernelIdeal.Body Cert.KernelIdeal.Chain
open Idealize.ShloMosaic Idealize.ShloMosaic.TcCoe Idealize.SL.Sem Idealize.ShloMosaic.ValueIdx
open Cert.Sage Cert.Gcn

variable (A X : S60000x128.Idx → EReal) (Wl Wr : S128x128.Idx → EReal) (bl g be : (⟨S128, .f32⟩ : BufTy).Contents (Elt Ideal))

/-- A vector stood up as a row, read back along the row. -/
theorem row_rowc (v : (⟨S128, .f32⟩ : BufTy).Contents (Elt Ideal)) : row (rowc v) = toV v :=
  funext fun q => Cert.Lib.vecToRow_apply v shapeCasts_S128_S1x128 q

/-- The region's pre-activation is the layer's linear part. -/
theorem toC_preArr : toC (Reg0.preArr A X Wl Wr (rowc bl)) = lin (toC A) (toC X) (toC Wl) (toC Wr) (toV bl) := by
  funext p q
  show (∑ k : Fin 128, A (ix2 p k) * Wl (ix2 k q) + ∑ k : Fin 128, X (ix2 p k) * Wr (ix2 k q)) + rowc bl (ix2 0 q) = _
  rw [show rowc bl (ix2 0 q) = toV bl q from Cert.Lib.vecToRow_apply bl shapeCasts_S128_S1x128 q]
  unfold lin toC
  exact add_right_comm _ _ _

/-- The column totals of the per-tile sums are the sums over all rows. -/
theorem total_sum (q : Fin 128) :
    tileTotal (Reg0.sumArr A X Wl Wr (rowc bl)) (ix1 q) = ∑ r : Fin 60000, toC (Reg0.preArr A X Wl Wr (rowc bl)) r q := by
  rw [tileTotal_apply, Ideal.ofBits_zero_f32, zero_add]
  exact sum_tiles (fun r : Fin 60000 => Reg0.pre A X Wl Wr (rowc bl) r q)

theorem total_sumsq (q : Fin 128) :
    tileTotal (Reg0.sumsqArr A X Wl Wr (rowc bl)) (ix1 q)
      = ∑ r : Fin 60000, toC (Reg0.preArr A X Wl Wr (rowc bl)) r q * toC (Reg0.preArr A X Wl Wr (rowc bl)) r q := by
  rw [tileTotal_apply, Ideal.ofBits_zero_f32, zero_add]
  exact sum_tiles (fun r : Fin 60000 => Reg0.pre A X Wl Wr (rowc bl) r q * Reg0.pre A X Wl Wr (rowc bl) r q)

/-- The host's column means are the means over all rows. -/
theorem mean_eq (q : Fin 128) :
    meanOf (Reg0.sumArr A X Wl Wr (rowc bl)) (ix1 q) = colMean cN (toC (Reg0.preArr A X Wl Wr (rowc bl))) q := by
  show Ideal.div (tileTotal (Reg0.sumArr A X Wl Wr (rowc bl)) (ix1 q)) (Ideal.ofBits .f32 0x476A6000#32) = _
  rw [total_sum]; rfl

/-- The host's column variances are the mean of the squares minus the squared mean, clamped at zero. -/
theorem var_eq (q : Fin 128) :
    varOf (Reg0.sumArr A X Wl Wr (rowc bl)) (Reg0.sumsqArr A X Wl Wr (rowc bl)) (ix1 q)
      = colVarK cN (toC (Reg0.preArr A X Wl Wr (rowc bl))) q := by
  show max (Ideal.div (tileTotal (Reg0.sumsqArr A X Wl Wr (rowc bl)) (ix1 q)) (Ideal.ofBits .f32 0x476A6000#32)
      - meanOf (Reg0.sumArr A X Wl Wr (rowc bl)) (ix1 q) * meanOf (Reg0.sumArr A X Wl Wr (rowc bl)) (ix1 q))
      (Ideal.ofBits .f32 0x00000000#32) = _
  rw [total_sumsq, mean_eq, Ideal.ofBits_zero_f32]; rfl

/-- A layer's output as the kernel computes it: batch normalisation with the second form of the variance. -/
theorem layerOut_eq :
    layerOut (Reg0.preArr A X Wl Wr (rowc bl)) (Reg0.sumArr A X Wl Wr (rowc bl)) (Reg0.sumsqArr A X Wl Wr (rowc bl)) g be
      = ofC (bnReluK cN eps (toV g) (toV be) (lin (toC A) (toC X) (toC Wl) (toC Wr) (toV bl))) := by
  have hm : row (rowc (meanOf (Reg0.sumArr A X Wl Wr (rowc bl)))) = colMean cN (toC (Reg0.preArr A X Wl Wr (rowc bl))) := by
    rw [row_rowc]; exact funext fun q => mean_eq A X Wl Wr bl q
  have hv : row (rowc (varOf (Reg0.sumArr A X Wl Wr (rowc bl)) (Reg0.sumsqArr A X Wl Wr (rowc bl))))
      = colVarK cN (toC (Reg0.preArr A X Wl Wr (rowc bl))) := by
    rw [row_rowc]; exact funext fun q => var_eq A X Wl Wr bl q
  unfold layerOut
  rw [hm, hv, row_rowc, row_rowc, ← toC_preArr]
  rfl

/-! ## The whole network -/

section Whole

variable (m : (ℓ : Loc nD τ sig) → Buf (Elt Ideal) ℓ) (c : Dev nD)

/-- Every entry of the thirteen float arguments is a real. -/
structure ArgsReal : Prop where
  x : ∀ i, IsReal ((m ((c : Thread nD τ).loc main_arg0) : Mat 60000 128) i)
  wl1 : ∀ i, IsReal ((m ((c : Thread nD τ).loc main_arg2) : Mat 128 128) i)
  bl1 : ∀ i, IsReal ((m ((c : Thread nD τ).loc main_arg3) : Vct 128) i)
  wr1 : ∀ i, IsReal ((m ((c : Thread nD τ).loc main_arg4) : Mat 128 128) i)
  g1 : ∀ i, IsReal ((m ((c : Thread nD τ).loc main_arg5) : Vct 128) i)
  b1 : ∀ i, IsReal ((m ((c : Thread nD τ).loc main_arg6) : Vct 128) i)
  wl2 : ∀ i, IsReal ((m ((c : Thread nD τ).loc main_arg7) : Mat 128 128) i)
  bl2 : ∀ i, IsReal ((m ((c : Thread nD τ).loc main_arg8) : Vct 128) i)
  wr2 : ∀ i, IsReal ((m ((c : Thread nD τ).loc main_arg9) : Mat 128 128) i)
  g2 : ∀ i, IsReal ((m ((c : Thread nD τ).loc main_arg10) : Vct 128) i)
  b2 : ∀ i, IsReal ((m ((c : Thread nD τ).loc main_arg11) : Vct 128) i)

/-- The first layer's output, as the kernel leaves it, is the network's first layer. -/
theorem H1_eq (h : ArgsReal m c) :
    H1 m c = layer (m ((c : Thread nD τ).loc main_arg0)) (m ((c : Thread nD τ).loc main_arg1)) (m ((c : Thread nD τ).loc main_arg2)) (m ((c : Thread nD τ).loc main_arg4)) (m ((c : Thread nD τ).loc main_arg3))
      (m ((c : Thread nD τ).loc main_arg5)) (m ((c : Thread nD τ).loc main_arg6)) := by
  unfold H1 P1 S1 Q1
  rw [layerOut_eq]
  exact layerK_eq _ _ _ _ _ _ _ h.x h.wl1 h.wr1 h.bl1

theorem H1_real (h : ArgsReal m c) : ∀ i, IsReal ((H1 m c : Mat 60000 128) i) := by
  rw [H1_eq m c h]
  exact isReal_layer _ _ _ _ _ _ _ h.x h.wl1 h.wr1 h.bl1 h.g1 h.b1

/-- The second layer's output is the network's second layer of the first layer's output. -/
theorem H2_eq (h : ArgsReal m c) :
    H2 m c = layer (H1 m c) (m ((c : Thread nD τ).loc main_arg1)) (m ((c : Thread nD τ).loc main_arg7)) (m ((c : Thread nD τ).loc main_arg9)) (m ((c : Thread nD τ).loc main_arg8))
      (m ((c : Thread nD τ).loc main_arg10)) (m ((c : Thread nD τ).loc main_arg11)) := by
  unfold H2 P2 S2 Q2
  rw [layerOut_eq]
  exact layerK_eq _ _ _ _ _ _ _ (H1_real m c h) h.wl2 h.wr2 h.bl2

/-- THE KERNEL'S RESULT IS THE NETWORK of the arguments, when the float arguments are real. -/
theorem out_eq (h : ArgsReal m c) :
    Out m c = model (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12)) (m ((c : Thread nD τ).loc main_arg13)) := by
  unfold model
  rw [← H1_eq m c h, ← H2_eq m c h]
  funext i
  show _ = outLin (toC (H1 m c)) (toC (H2 m c)) (toC (m ((c : Thread nD τ).loc main_arg12))) (toV (m ((c : Thread nD τ).loc main_arg13))) (i 0) (i 1)
  unfold Out outLin
  refine congrArg₂ (· + ·) rfl ?_
  exact Cert.Lib.vecToRow_apply (m ((c : Thread nD τ).loc main_arg13)) shapeCasts_S64_S1x64 (i 1)

end Whole

end Cert.KernelIdeal.Math

end
-- ==== Proof.RefLayer1.lean ====
/-
  The reference program's first layer, read entry by entry.

  The reference computes the first layer's pre-activation as two dense products and a broadcast bias; read at row p and
  column q it is `lin` of the aggregate, the features, the two weights and the bias. The batch normalisation that
  follows — column sums divided by the row count for the mean and for the mean squared deviation, the reciprocal square
  root of the variance plus the offset, scale, shift, clamp at zero — read at (p, q) is `bnRelu` of the pre-activation.
-/
import proofs.«121575_j111669149883_2_alg».proof.Proof.Model

noncomputable section

namespace Cert.Sage.Ref

open Idealize.ShloMosaic Idealize.ShloMosaic.ValueIdx Cert.ReferenceIdeal Cert.ReferenceIdeal.Gen Cert.ReferenceIdeal.Read Finset

/-! ## The first layer's pre-activation -/

theorem lidx23 (p : Fin 60000) (q k : Fin 128) : lidx_main_v23 (ix2 p q) k = ix2 p k := by
  funext a; match a with | ⟨0, _⟩ => rfl | ⟨1, _⟩ => rfl
theorem ridx23 (p : Fin 60000) (q k : Fin 128) : ridx_main_v23 (ix2 p q) k = ix2 k q := by
  funext a; match a with | ⟨0, _⟩ => rfl | ⟨1, _⟩ => rfl
theorem lidx27 (p : Fin 60000) (q k : Fin 128) : lidx_main_v27 (ix2 p q) k = ix2 p k := by
  funext a; match a with | ⟨0, _⟩ => rfl | ⟨1, _⟩ => rfl
theorem ridx27 (p : Fin 60000) (q k : Fin 128) : ridx_main_v27 (ix2 p q) k = ix2 k q := by
  funext a; match a with | ⟨0, _⟩ => rfl | ⟨1, _⟩ => rfl
theorem idx2425 (p : Fin 60000) (q : Fin 128) : idx_main_v24 (idx_main_v25 (ix2 p q)) = ix1 q := by
  funext a; match a with | ⟨0, _⟩ => rfl

/-- The first layer's pre-activation at row `p`, column `q`: the aggregate through the first weight, plus the bias, plus
    the features through the second weight. -/
theorem pre1_pt (x0 : Mat 60000 128) (x1 : Edges) (x2 : Mat 128 128) (x3 : Vct 128) (x4 : Mat 128 128) (p : Fin 60000) (q : Fin 128) :
    val_main_v28 (F := Ideal) x0 x1 x2 x3 x4 (ix2 p q) = ofC (lin (toC (agg x0 x1)) (toC x0) (toC x2) (toC x4) (toV x3)) (ix2 p q) := by
  rw [ofC_ix2, lin, agg, val_main_v28_apply, val_main_v26_apply, val_main_v23_apply, val_main_v25_apply, val_main_v24_apply,
    val_main_v27_apply, idx2425]
  generalize val_main_v22 (F := Ideal) x0 x1 = a
  as_aux_lemma =>
    simp only [toC, toV, Ideal.addf_def, lidx23, ridx23, lidx27, ridx27]

/-- The first layer's pre-activation. -/
theorem pre1 (x0 : Mat 60000 128) (x1 : Edges) (x2 : Mat 128 128) (x3 : Vct 128) (x4 : Mat 128 128) :
    val_main_v28 (F := Ideal) x0 x1 x2 x3 x4 = ofC (lin (toC (agg x0 x1)) (toC x0) (toC x2) (toC x4) (toV x3)) := by
  funext i
  rw [eq_ix2 i]
  exact pre1_pt x0 x1 x2 x3 x4 (i 0) (i 1)

/-! ## Batch normalisation and clamp of layer 1, read entry by entry from the layer's pre-activation -/

theorem idx29_1 (q : Fin 128) (k : Fin 60000) : idx_main_v29 (ix1 q) k = ix2 k q := by
  funext a; match a with | ⟨0, _⟩ => rfl | ⟨1, _⟩ => rfl
theorem idx36_1 (q : Fin 128) (k : Fin 60000) : idx_main_v36 (ix1 q) k = ix2 k q := by
  funext a; match a with | ⟨0, _⟩ => rfl | ⟨1, _⟩ => rfl
theorem idx3233_1 (p : Fin 60000) (q : Fin 128) : idx_main_v32 (idx_main_v33 (ix2 p q)) = ix1 q := by
  funext a; match a with | ⟨0, _⟩ => rfl
theorem idx3940_1 (p : Fin 60000) (q : Fin 128) : idx_main_v39 (idx_main_v40 (ix2 p q)) = ix1 q := by
  funext a; match a with | ⟨0, _⟩ => rfl
theorem idx4546_1 (p : Fin 60000) (q : Fin 128) : idx_main_v45 (idx_main_v46 (ix2 p q)) = ix1 q := by
  funext a; match a with | ⟨0, _⟩ => rfl
theorem idx4849_1 (p : Fin 60000) (q : Fin 128) : idx_main_v48 (idx_main_v49 (ix2 p q)) = ix1 q := by
  funext a; match a with | ⟨0, _⟩ => rfl
theorem idx5152_1 (p : Fin 60000) (q : Fin 128) : idx_main_v51 (idx_main_v52 (ix2 p q)) = ix1 q := by
  funext a; match a with | ⟨0, _⟩ => rfl

/-- The column mean of layer 1's pre-activation. -/
theorem mean_1 (x0 : Mat 60000 128) (x1 : Edges) (x2 : Mat 128 128) (x3 : Vct 128) (x4 : Mat 128 128) (q : Fin 128) :
    val_main_v31 (F := Ideal) x0 x1 x2 x3 x4 (ix1 q) = colMean cN (toC (val_main_v28 (F := Ideal) x0 x1 x2 x3 x4)) q := by
  rw [colMean, val_main_v31_apply, val_main_v29_apply, val_main_v30_apply, val_main_cst_4_apply, val_main_cst_5_apply]
  generalize val_main_v28 (F := Ideal) x0 x1 x2 x3 x4 = z
  as_aux_lemma =>
    simp only [toC, cN, Ideal.hostDivf_def, Ideal.ofBits_def, Ideal.ofBits_zero_f32, zero_add, idx29_1]

/-- One squared deviation from the column mean. -/
theorem dev_1 (x0 : Mat 60000 128) (x1 : Edges) (x2 : Mat 128 128) (x3 : Vct 128) (x4 : Mat 128 128) (q : Fin 128) (k : Fin 60000) :
    val_main_v35 (F := Ideal) x0 x1 x2 x3 x4 (idx_main_v36 (ix1 q) k)
      = (toC (val_main_v28 (F := Ideal) x0 x1 x2 x3 x4) k q - colMean cN (toC (val_main_v28 (F := Ideal) x0 x1 x2 x3 x4)) q) * (toC (val_main_v28 (F := Ideal) x0 x1 x2 x3 x4) k q - colMean cN (toC (val_main_v28 (F := Ideal) x0 x1 x2 x3 x4)) q) := by
  rw [val_main_v35_apply, val_main_v34_apply, val_main_v33_apply, val_main_v32_apply, idx36_1, idx3233_1, mean_1]
  generalize colMean cN (toC (val_main_v28 (F := Ideal) x0 x1 x2 x3 x4)) q = m
  generalize val_main_v28 (F := Ideal) x0 x1 x2 x3 x4 = z
  as_aux_lemma =>
    simp only [toC, Ideal.mulf_def, Ideal.subf_def]

/-- The column variance of layer 1's pre-activation. -/
theorem var_1 (x0 : Mat 60000 128) (x1 : Edges) (x2 : Mat 128 128) (x3 : Vct 128) (x4 : Mat 128 128) (q : Fin 128) :
    val_main_v38 (F := Ideal) x0 x1 x2 x3 x4 (ix1 q) = colVar cN (toC (val_main_v28 (F := Ideal) x0 x1 x2 x3 x4)) q := by
  rw [colVar, val_main_v38_apply, val_main_v36_apply, val_main_v37_apply, val_main_cst_6_apply, val_main_cst_7_apply]
  simp only [dev_1]
  generalize colMean cN (toC (val_main_v28 (F := Ideal) x0 x1 x2 x3 x4)) q = m
  generalize val_main_v28 (F := Ideal) x0 x1 x2 x3 x4 = z
  as_aux_lemma =>
    simp only [cN, Ideal.hostDivf_def, Ideal.ofBits_def, Ideal.ofBits_zero_f32, zero_add]

/-- The reciprocal standard deviation of layer 1's pre-activation. -/
theorem rstd_1 (x0 : Mat 60000 128) (x1 : Edges) (x2 : Mat 128 128) (x3 : Vct 128) (x4 : Mat 128 128) (q : Fin 128) :
    val_main_v44 (F := Ideal) x0 x1 x2 x3 x4 (ix1 q) = Ideal.rsqrt (colVar cN (toC (val_main_v28 (F := Ideal) x0 x1 x2 x3 x4)) q + eps) := by
  rw [val_main_v44_apply, val_main_v43_apply, val_main_v42_apply, val_main_cst_8_apply, var_1]
  generalize colVar cN (toC (val_main_v28 (F := Ideal) x0 x1 x2 x3 x4)) q = w
  as_aux_lemma =>
    simp only [eps, Ideal.hostUnary_rsqrt_def, Ideal.addf_def, Ideal.ofBits_def]

/-- Layer 1's output at row `p`, column `q`. -/
theorem bn_pt_1 (x0 : Mat 60000 128) (x1 : Edges) (x2 : Mat 128 128) (x3 : Vct 128) (x4 : Mat 128 128) (g b : Vct 128) (p : Fin 60000) (q : Fin 128) :
    val_main_v54 (F := Ideal) x0 x1 x2 x3 x4 g b (ix2 p q) = ofC (bnRelu cN eps (toV g) (toV b) (toC (val_main_v28 (F := Ideal) x0 x1 x2 x3 x4))) (ix2 p q) := by
  rw [ofC_ix2, bnRelu, normRelu, val_main_v54_apply, val_main_v53_apply, val_main_v50_apply, val_main_v47_apply, val_main_v41_apply, val_main_v40_apply, val_main_v39_apply, val_main_v46_apply, val_main_v45_apply,
    val_main_v49_apply, val_main_v48_apply, val_main_v52_apply, val_main_v51_apply, val_main_call0_v0_apply, val_main_call0_cst_apply,
    idx3940_1, idx4546_1, idx4849_1, idx5152_1, mean_1, rstd_1]
  generalize Ideal.rsqrt (colVar cN (toC (val_main_v28 (F := Ideal) x0 x1 x2 x3 x4)) q + eps) = r
  generalize colMean cN (toC (val_main_v28 (F := Ideal) x0 x1 x2 x3 x4)) q = m
  generalize val_main_v28 (F := Ideal) x0 x1 x2 x3 x4 = z
  as_aux_lemma =>
    simp only [toC, toV, Ideal.maximumf_def, Ideal.addf_def, Ideal.mulf_def, Ideal.subf_def, Ideal.ofBits_def, Ideal.ofBits_zero_f32]

/-- Layer 1's output is the batch normalisation and clamp of its pre-activation. -/
theorem bn_1 (x0 : Mat 60000 128) (x1 : Edges) (x2 : Mat 128 128) (x3 : Vct 128) (x4 : Mat 128 128) (g b : Vct 128) :
    val_main_v54 (F := Ideal) x0 x1 x2 x3 x4 g b = ofC (bnRelu cN eps (toV g) (toV b) (toC (val_main_v28 (F := Ideal) x0 x1 x2 x3 x4))) := by
  funext i
  rw [eq_ix2 i]
  exact bn_pt_1 x0 x1 x2 x3 x4 g b (i 0) (i 1)

end Cert.Sage.Ref

end
-- ==== Proof.RefLayer2.lean ====
/-
  The reference program's second layer, read entry by entry.

  The second layer's aggregate is the same host operations as the first layer's, applied to the first layer's output
  and the same edge list: unfolding both sides' definitions gives one term. The pre-activation and the batch
  normalisation are read as in the first layer.
-/
import proofs.«121575_j111669149883_2_alg».proof.Proof.Model

noncomputable section

namespace Cert.Sage.Ref

open Idealize.ShloMosaic Idealize.ShloMosaic.ValueIdx Cert.ReferenceIdeal Cert.ReferenceIdeal.Gen Cert.ReferenceIdeal.Read Finset

/-! ## The second layer's aggregate -/

/-- The second layer's aggregate is the aggregation applied to the first layer's output: the same host operations on the
    same edge list, read off the definitions. -/
theorem agg_h1 (x0 : Mat 60000 128) (x1 : Edges) (x2 : Mat 128 128) (x3 : Vct 128) (x4 : Mat 128 128) (x5 x6 : Vct 128) :
    val_main_v73 (F := Ideal) x0 x1 x2 x3 x4 x5 x6 = agg (val_main_v54 (F := Ideal) x0 x1 x2 x3 x4 x5 x6) x1 := by
  simp only [agg, val_main_v73, val_main_v22, val_main_v64, val_main_v13, val_main_v61, val_main_v10, val_main_v62, val_main_v11,
    val_main_cst_11, val_main_cst, val_main_v63, val_main_v12, val_main_v60, val_main_v9, val_main_v59, val_main_v8, val_main_v56,
    val_main_v5, val_main_v55, val_main_v4, val_main_c_9, val_main_c, val_main_v58, val_main_v7, val_main_v57, val_main_v6,
    val_main_c_10, val_main_c_0, val_main_v72, val_main_v21, val_main_v71, val_main_v20, val_main_v70, val_main_v19, val_main_v68,
    val_main_v17, val_main_v66, val_main_v15, val_main_cst_13, val_main_cst_2, val_main_v67, val_main_v16, val_main_v65, val_main_v14,
    val_main_cst_12, val_main_cst_1, val_main_v69, val_main_v18, val_main_cst_14, val_main_cst_3]

/-! ## The second layer's pre-activation -/

theorem lidx74 (p : Fin 60000) (q k : Fin 128) : lidx_main_v74 (ix2 p q) k = ix2 p k := by
  funext a; match a with | ⟨0, _⟩ => rfl | ⟨1, _⟩ => rfl
theorem ridx74 (p : Fin 60000) (q k : Fin 128) : ridx_main_v74 (ix2 p q) k = ix2 k q := by
  funext a; match a with | ⟨0, _⟩ => rfl | ⟨1, _⟩ => rfl
theorem lidx78 (p : Fin 60000) (q k : Fin 128) : lidx_main_v78 (ix2 p q) k = ix2 p k := by
  funext a; match a with | ⟨0, _⟩ => rfl | ⟨1, _⟩ => rfl
theorem ridx78 (p : Fin 60000) (q k : Fin 128) : ridx_main_v78 (ix2 p q) k = ix2 k q := by
  funext a; match a with | ⟨0, _⟩ => rfl | ⟨1, _⟩ => rfl
theorem idx7576 (p : Fin 60000) (q : Fin 128) : idx_main_v75 (idx_main_v76 (ix2 p q)) = ix1 q := by
  funext a; match a with | ⟨0, _⟩ => rfl

/-- The second layer's pre-activation at row `p`, column `q`, from the first layer's output. -/
theorem pre2_pt (x0 : Mat 60000 128) (x1 : Edges) (x2 : Mat 128 128) (x3 : Vct 128) (x4 : Mat 128 128) (x5 x6 : Vct 128) (x7 : Mat 128 128) (x8 : Vct 128) (x9 : Mat 128 128) (p : Fin 60000) (q : Fin 128) :
    val_main_v79 (F := Ideal) x0 x1 x2 x3 x4 x5 x6 x7 x8 x9 (ix2 p q)
      = ofC (lin (toC (agg (val_main_v54 (F := Ideal) x0 x1 x2 x3 x4 x5 x6) x1)) (toC (val_main_v54 (F := Ideal) x0 x1 x2 x3 x4 x5 x6)) (toC x7) (toC x9) (toV x8)) (ix2 p q) := by
  rw [ofC_ix2, lin, val_main_v79_apply, val_main_v77_apply, val_main_v74_apply, val_main_v76_apply, val_main_v75_apply,
    val_main_v78_apply, agg_h1, idx7576]
  generalize agg (val_main_v54 (F := Ideal) x0 x1 x2 x3 x4 x5 x6) x1 = a
  generalize val_main_v54 (F := Ideal) x0 x1 x2 x3 x4 x5 x6 = h
  as_aux_lemma =>
    simp only [toC, toV, Ideal.addf_def, lidx74, ridx74, lidx78, ridx78]

/-- The second layer's pre-activation. -/
theorem pre2 (x0 : Mat 60000 128) (x1 : Edges) (x2 : Mat 128 128) (x3 : Vct 128) (x4 : Mat 128 128) (x5 x6 : Vct 128) (x7 : Mat 128 128) (x8 : Vct 128) (x9 : Mat 128 128) :
    val_main_v79 (F := Ideal) x0 x1 x2 x3 x4 x5 x6 x7 x8 x9
      = ofC (lin (toC (agg (val_main_v54 (F := Ideal) x0 x1 x2 x3 x4 x5 x6) x1)) (toC (val_main_v54 (F := Ideal) x0 x1 x2 x3 x4 x5 x6)) (toC x7) (toC x9) (toV x8)) := by
  funext i
  rw [eq_ix2 i]
  exact pre2_pt x0 x1 x2 x3 x4 x5 x6 x7 x8 x9 (i 0) (i 1)

/-! ## Batch normalisation and clamp of layer 2, read entry by entry from the layer's pre-activation -/

theorem idx29_2 (q : Fin 128) (k : Fin 60000) : idx_main_v80 (ix1 q) k = ix2 k q := by
  funext a; match a with | ⟨0, _⟩ => rfl | ⟨1, _⟩ => rfl
theorem idx36_2 (q : Fin 128) (k : Fin 60000) : idx_main_v87 (ix1 q) k = ix2 k q := by
  funext a; match a with | ⟨0, _⟩ => rfl | ⟨1, _⟩ => rfl
theorem idx3233_2 (p : Fin 60000) (q : Fin 128) : idx_main_v83 (idx_main_v84 (ix2 p q)) = ix1 q := by
  funext a; match a with | ⟨0, _⟩ => rfl
theorem idx3940_2 (p : Fin 60000) (q : Fin 128) : idx_main_v90 (idx_main_v91 (ix2 p q)) = ix1 q := by
  funext a; match a with | ⟨0, _⟩ => rfl
theorem idx4546_2 (p : Fin 60000) (q : Fin 128) : idx_main_v96 (idx_main_v97 (ix2 p q)) = ix1 q := by
  funext a; match a with | ⟨0, _⟩ => rfl
theorem idx4849_2 (p : Fin 60000) (q : Fin 128) : idx_main_v99 (idx_main_v100 (ix2 p q)) = ix1 q := by
  funext a; match a with | ⟨0, _⟩ => rfl
theorem idx5152_2 (p : Fin 60000) (q : Fin 128) : idx_main_v102 (idx_main_v103 (ix2 p q)) = ix1 q := by
  funext a; match a with | ⟨0, _⟩ => rfl

/-- The column mean of layer 2's pre-activation. -/
theorem mean_2 (x0 : Mat 60000 128) (x1 : Edges) (x2 : Mat 128 128) (x3 : Vct 128) (x4 : Mat 128 128) (x5 x6 : Vct 128) (x7 : Mat 128 128) (x8 : Vct 128) (x9 : Mat 128 128) (q : Fin 128) :
    val_main_v82 (F := Ideal) x0 x1 x2 x3 x4 x5 x6 x7 x8 x9 (ix1 q) = colMean cN (toC (val_main_v79 (F := Ideal) x0 x1 x2 x3 x4 x5 x6 x7 x8 x9)) q := by
  rw [colMean, val_main_v82_apply, val_main_v80_apply, val_main_v81_apply, val_main_cst_15_apply, val_main_cst_16_apply]
  generalize val_main_v79 (F := Ideal) x0 x1 x2 x3 x4 x5 x6 x7 x8 x9 = z
  as_aux_lemma =>
    simp only [toC, cN, Ideal.hostDivf_def, Ideal.ofBits_def, Ideal.ofBits_zero_f32, zero_add, idx29_2]

/-- One squared deviation from the column mean. -/
theorem dev_2 (x0 : Mat 60000 128) (x1 : Edges) (x2 : Mat 128 128) (x3 : Vct 128) (x4 : Mat 128 128) (x5 x6 : Vct 128) (x7 : Mat 128 128) (x8 : Vct 128) (x9 : Mat 128 128) (q : Fin 128) (k : Fin 60000) :
    val_main_v86 (F := Ideal) x0 x1 x2 x3 x4 x5 x6 x7 x8 x9 (idx_main_v87 (ix1 q) k)
      = (toC (val_main_v79 (F := Ideal) x0 x1 x2 x3 x4 x5 x6 x7 x8 x9) k q - colMean cN (toC (val_main_v79 (F := Ideal) x0 x1 x2 x3 x4 x5 x6 x7 x8 x9)) q) * (toC (val_main_v79 (F := Ideal) x0 x1 x2 x3 x4 x5 x6 x7 x8 x9) k q - colMean cN (toC (val_main_v79 (F := Ideal) x0 x1 x2 x3 x4 x5 x6 x7 x8 x9)) q) := by
  rw [val_main_v86_apply, val_main_v85_apply, val_main_v84_apply, val_main_v83_apply, idx36_2, idx3233_2, mean_2]
  generalize colMean cN (toC (val_main_v79 (F := Ideal) x0 x1 x2 x3 x4 x5 x6 x7 x8 x9)) q = m
  generalize val_main_v79 (F := Ideal) x0 x1 x2 x3 x4 x5 x6 x7 x8 x9 = z
  as_aux_lemma =>
    simp only [toC, Ideal.mulf_def, Ideal.subf_def]

/-- The column variance of layer 2's pre-activation. -/
theorem var_2 (x0 : Mat 60000 128) (x1 : Edges) (x2 : Mat 128 128) (x3 : Vct 128) (x4 : Mat 128 128) (x5 x6 : Vct 128) (x7 : Mat 128 128) (x8 : Vct 128) (x9 : Mat 128 128) (q : Fin 128) :
    val_main_v89 (F := Ideal) x0 x1 x2 x3 x4 x5 x6 x7 x8 x9 (ix1 q) = colVar cN (toC (val_main_v79 (F := Ideal) x0 x1 x2 x3 x4 x5 x6 x7 x8 x9)) q := by
  rw [colVar, val_main_v89_apply, val_main_v87_apply, val_main_v88_apply, val_main_cst_17_apply, val_main_cst_18_apply]
  simp only [dev_2]
  generalize colMean cN (toC (val_main_v79 (F := Ideal) x0 x1 x2 x3 x4 x5 x6 x7 x8 x9)) q = m
  generalize val_main_v79 (F := Ideal) x0 x1 x2 x3 x4 x5 x6 x7 x8 x9 = z
  as_aux_lemma =>
    simp only [cN, Ideal.hostDivf_def, Ideal.ofBits_def, Ideal.ofBits_zero_f32, zero_add]

/-- The reciprocal standard deviation of layer 2's pre-activation. -/
theorem rstd_2 (x0 : Mat 60000 128) (x1 : Edges) (x2 : Mat 128 128) (x3 : Vct 128) (x4 : Mat 128 128) (x5 x6 : Vct 128) (x7 : Mat 128 128) (x8 : Vct 128) (x9 : Mat 128 128) (q : Fin 128) :
    val_main_v95 (F := Ideal) x0 x1 x2 x3 x4 x5 x6 x7 x8 x9 (ix1 q) = Ideal.rsqrt (colVar cN (toC (val_main_v79 (F := Ideal) x0 x1 x2 x3 x4 x5 x6 x7 x8 x9)) q + eps) := by
  rw [val_main_v95_apply, val_main_v94_apply, val_main_v93_apply, val_main_cst_19_apply, var_2]
  generalize colVar cN (toC (val_main_v79 (F := Ideal) x0 x1 x2 x3 x4 x5 x6 x7 x8 x9)) q = w
  as_aux_lemma =>
    simp only [eps, Ideal.hostUnary_rsqrt_def, Ideal.addf_def, Ideal.ofBits_def]

/-- Layer 2's output at row `p`, column `q`. -/
theorem bn_pt_2 (x0 : Mat 60000 128) (x1 : Edges) (x2 : Mat 128 128) (x3 : Vct 128) (x4 : Mat 128 128) (x5 x6 : Vct 128) (x7 : Mat 128 128) (x8 : Vct 128) (x9 : Mat 128 128) (g b : Vct 128) (p : Fin 60000) (q : Fin 128) :
    val_main_v105 (F := Ideal) x0 x1 x2 x3 x4 x5 x6 x7 x8 x9 g b (ix2 p q) = ofC (bnRelu cN eps (toV g) (toV b) (toC (val_main_v79 (F := Ideal) x0 x1 x2 x3 x4 x5 x6 x7 x8 x9))) (ix2 p q) := by
  rw [ofC_ix2, bnRelu, normRelu, val_main_v105_apply, val_main_v104_apply, val_main_v101_apply, val_main_v98_apply, val_main_v92_apply, val_main_v91_apply, val_main_v90_apply, val_main_v97_apply, val_main_v96_apply,
    val_main_v100_apply, val_main_v99_apply, val_main_v103_apply, val_main_v102_apply, val_main_call1_v0_apply, val_main_call1_cst_apply,
    idx3940_2, idx4546_2, idx4849_2, idx5152_2, mean_2, rstd_2]
  generalize Ideal.rsqrt (colVar cN (toC (val_main_v79 (F := Ideal) x0 x1 x2 x3 x4 x5 x6 x7 x8 x9)) q + eps) = r
  generalize colMean cN (toC (val_main_v79 (F := Ideal) x0 x1 x2 x3 x4 x5 x6 x7 x8 x9)) q = m
  generalize val_main_v79 (F := Ideal) x0 x1 x2 x3 x4 x5 x6 x7 x8 x9 = z
  as_aux_lemma =>
    simp only [toC, toV, Ideal.maximumf_def, Ideal.addf_def, Ideal.mulf_def, Ideal.subf_def, Ideal.ofBits_def, Ideal.ofBits_zero_f32]

/-- Layer 2's output is the batch normalisation and clamp of its pre-activation. -/
theorem bn_2 (x0 : Mat 60000 128) (x1 : Edges) (x2 : Mat 128 128) (x3 : Vct 128) (x4 : Mat 128 128) (x5 x6 : Vct 128) (x7 : Mat 128 128) (x8 : Vct 128) (x9 : Mat 128 128) (g b : Vct 128) :
    val_main_v105 (F := Ideal) x0 x1 x2 x3 x4 x5 x6 x7 x8 x9 g b = ofC (bnRelu cN eps (toV g) (toV b) (toC (val_main_v79 (F := Ideal) x0 x1 x2 x3 x4 x5 x6 x7 x8 x9))) := by
  funext i
  rw [eq_ix2 i]
  exact bn_pt_2 x0 x1 x2 x3 x4 x5 x6 x7 x8 x9 g b (i 0) (i 1)

end Cert.Sage.Ref

end
-- ==== Proof.RefModel.lean ====
/-
  The reference program computes the network `Cert.Sage.model`.

  The output stage is a dense product of the sum of the two layers' outputs with the output weight, plus a broadcast
  bias: read at row p and column q it is `outLin`. With the two layers' outputs identified with `layer` of their inputs
  (RefLayer1, RefLayer2) the reference's result is the model of the fourteen argument arrays.
-/
import proofs.«121575_j111669149883_2_alg».proof.Proof.RefLayer1
import proofs.«121575_j111669149883_2_alg».proof.Proof.RefLayer2

noncomputable section

namespace Cert.Sage.Ref

open Idealize.ShloMosaic Idealize.ShloMosaic.ValueIdx Cert.ReferenceIdeal Cert.ReferenceIdeal.Gen Cert.ReferenceIdeal.Read Finset

/-! ## The output projection and the whole network -/

theorem lidx107 (p : Fin 60000) (q : Fin 64) (k : Fin 128) : lidx_main_v107 (ix2 p q) k = ix2 p k := by
  funext a; match a with | ⟨0, _⟩ => rfl | ⟨1, _⟩ => rfl
theorem ridx107 (p : Fin 60000) (q : Fin 64) (k : Fin 128) : ridx_main_v107 (ix2 p q) k = ix2 k q := by
  funext a; match a with | ⟨0, _⟩ => rfl | ⟨1, _⟩ => rfl
theorem idx108109 (p : Fin 60000) (q : Fin 64) : idx_main_v108 (idx_main_v109 (ix2 p q)) = ix1 q := by
  funext a; match a with | ⟨0, _⟩ => rfl

/-- The result at row `p`, column `q`. -/
theorem out_pt (x0 : Mat 60000 128) (x1 : Edges) (x2 : Mat 128 128) (x3 : Vct 128) (x4 : Mat 128 128) (x5 x6 : Vct 128) (x7 : Mat 128 128) (x8 : Vct 128) (x9 : Mat 128 128) (x10 x11 : Vct 128) (x12 : Mat 128 64) (x13 : Vct 64) (p : Fin 60000) (q : Fin 64) :
    val_main_v110 (F := Ideal) x0 x1 x2 x3 x4 x5 x6 x7 x8 x9 x10 x11 x12 x13 (ix2 p q)
      = ofC (outLin (toC (val_main_v54 (F := Ideal) x0 x1 x2 x3 x4 x5 x6)) (toC (val_main_v105 (F := Ideal) x0 x1 x2 x3 x4 x5 x6 x7 x8 x9 x10 x11)) (toC x12) (toV x13)) (ix2 p q) := by
  rw [ofC_ix2, outLin, val_main_v110_apply, val_main_v107_apply, val_main_v109_apply, val_main_v108_apply, idx108109]
  simp (config := {implicitDefEqProofs := false}) only [val_main_v106_apply, lidx107, ridx107]
  generalize val_main_v105 (F := Ideal) x0 x1 x2 x3 x4 x5 x6 x7 x8 x9 x10 x11 = h2
  generalize val_main_v54 (F := Ideal) x0 x1 x2 x3 x4 x5 x6 = h1
  as_aux_lemma =>
    simp only [toC, toV, Ideal.addf_def]

/-- The result is the dense projection of the sum of the two layers' outputs, plus the bias. -/
theorem out_eq (x0 : Mat 60000 128) (x1 : Edges) (x2 : Mat 128 128) (x3 : Vct 128) (x4 : Mat 128 128) (x5 x6 : Vct 128) (x7 : Mat 128 128) (x8 : Vct 128) (x9 : Mat 128 128) (x10 x11 : Vct 128) (x12 : Mat 128 64) (x13 : Vct 64) :
    val_main_v110 (F := Ideal) x0 x1 x2 x3 x4 x5 x6 x7 x8 x9 x10 x11 x12 x13
      = ofC (outLin (toC (val_main_v54 (F := Ideal) x0 x1 x2 x3 x4 x5 x6)) (toC (val_main_v105 (F := Ideal) x0 x1 x2 x3 x4 x5 x6 x7 x8 x9 x10 x11)) (toC x12) (toV x13)) := by
  funext i
  rw [eq_ix2 i]
  exact out_pt x0 x1 x2 x3 x4 x5 x6 x7 x8 x9 x10 x11 x12 x13 (i 0) (i 1)

/-- The first layer's output. -/
theorem h1_eq (x0 : Mat 60000 128) (x1 : Edges) (x2 : Mat 128 128) (x3 : Vct 128) (x4 : Mat 128 128) (x5 x6 : Vct 128) :
    val_main_v54 (F := Ideal) x0 x1 x2 x3 x4 x5 x6 = layer x0 x1 x2 x4 x3 x5 x6 := by
  rw [bn_1, pre1, toC_ofC]; rfl

/-- The second layer's output. -/
theorem h2_eq (x0 : Mat 60000 128) (x1 : Edges) (x2 : Mat 128 128) (x3 : Vct 128) (x4 : Mat 128 128) (x5 x6 : Vct 128) (x7 : Mat 128 128) (x8 : Vct 128) (x9 : Mat 128 128) (x10 x11 : Vct 128) :
    val_main_v105 (F := Ideal) x0 x1 x2 x3 x4 x5 x6 x7 x8 x9 x10 x11 = layer (layer x0 x1 x2 x4 x3 x5 x6) x1 x7 x9 x8 x10 x11 := by
  rw [bn_2, pre2, toC_ofC, h1_eq]; rfl

/-- The reference program computes the network. -/
theorem ref_eq_model (x0 : Mat 60000 128) (x1 : Edges) (x2 : Mat 128 128) (x3 : Vct 128) (x4 : Mat 128 128) (x5 x6 : Vct 128) (x7 : Mat 128 128) (x8 : Vct 128) (x9 : Mat 128 128) (x10 x11 : Vct 128) (x12 : Mat 128 64) (x13 : Vct 64) :
    val_main_v110 (F := Ideal) x0 x1 x2 x3 x4 x5 x6 x7 x8 x9 x10 x11 x12 x13
      = model x0 x1 x2 x3 x4 x5 x6 x7 x8 x9 x10 x11 x12 x13 := by
  rw [out_eq, h2_eq, h1_eq]; rfl

end Cert.Sage.Ref

end
-- ==== Proof.FiniteArgs.lean ====
/-
  From the precondition to real entries.

  The precondition says, of each of the thirteen float arguments, that every entry's absolute value is below +∞, all
  thirteen statements and-ed into one bit. An extended real whose absolute value max(v, −v) is below ⊤ is neither ⊤ nor
  ⊥, so it is a real number. Hence, under the precondition, every entry of every float argument is real.
-/
import proofs.«121575_j111669149883_2_alg».proof.Proof.Gen.Pre_finite_inputs
import proofs.«121575_j111669149883_2_alg».proof.Proof.LibRealCollapse
import Idealize.ShloMosaic.Lib.ReduceAll
import Idealize.ShloMosaic.Lib.IdealHost

noncomputable section

namespace Cert.Sage

open Idealize.ShloMosaic Cert.Gcn Cert.Pre_finite_inputs

/-- The rank-0 shape has one index. -/
instance subsingleton_scalarIdx : Subsingleton S_.Idx := ⟨fun a b => funext fun d => d.elim0⟩

/-- The single-precision pattern of +∞ is ⊤. -/
theorem inf_eq_top : Ideal.ofBits .f32 0x7F800000#32 = (⊤ : EReal) := by
  simp [Ideal.ofBits, Ideal.ieee]

/-- An extended real whose absolute value is below ⊤ is a real number. -/
theorem isReal_of_abs_lt_top {v : EReal} (h : max v (-v) < ⊤) : IsReal v := by
  have hne_top : v ≠ ⊤ := fun e => by rw [e] at h; simp at h
  have hne_bot : v ≠ ⊥ := fun e => by rw [e] at h; simp at h
  exact ⟨v.toReal, (EReal.coe_toReal hne_top hne_bot).symm⟩

/-- If "every entry's absolute value is below +∞" holds of an array, over any shape, every entry is real. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf (F := Ideal) .olt (Host.absf x)
        (broadcastInDim s ![] hb (constant (F := Ideal) S_ .f32 0x7F800000#32))) (constantI S_ 1 1#1) hr hu ValueIdx.ix0 = 1#1)
    (i : s.Idx) : IsReal (x i) := by
  have h1 := Host.reduce_andi_all _ _ hr hu ValueIdx.ix0 e i
  have hb' : broadcastInDim s ![] hb (constant (F := Ideal) S_ .f32 0x7F800000#32) i = (⊤ : EReal) := by
    rw [ValueIdx.broadcastInDim_scalar_apply]
    exact inf_eq_top
  have h2 : Ideal.cmp .olt (max (x i) (-(x i))) (⊤ : EReal) = 1#1 := by
    rw [← hb']; exact h1
  refine isReal_of_abs_lt_top ?_
  by_contra hlt
  have : Ideal.cmp .olt (max (x i) (-(x i))) (⊤ : EReal) = 0#1 := by
    show BitVec.ofBool (decide (max (x i) (-(x i)) < ⊤)) = 0#1
    rw [decide_eq_false hlt]; rfl
  rw [this] at h2
  exact absurd h2 (by decide)

/-- Under the precondition every entry of every float argument is a real number. -/
theorem real_of_pre [Cert.Pre_finite_inputs.Facts]
    (x0 : FVec Ideal S60000x128 .f32) (x1 : IVec S2x600000 32) (x2 : FVec Ideal S128x128 .f32) (x3 : FVec Ideal S128 .f32)
    (x4 : FVec Ideal S128x128 .f32) (x5 : FVec Ideal S128 .f32) (x6 : FVec Ideal S128 .f32) (x7 : FVec Ideal S128x128 .f32)
    (x8 : FVec Ideal S128 .f32) (x9 : FVec Ideal S128x128 .f32) (x10 : FVec Ideal S128 .f32) (x11 : FVec Ideal S128 .f32)
    (x12 : FVec Ideal S128x64 .f32) (x13 : FVec Ideal S64 .f32)
    (h : Cert.Pre_finite_inputs.fn (F := Ideal) x0 x1 x2 x3 x4 x5 x6 x7 x8 x9 x10 x11 x12 x13 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i)) ∧ (∀ i, IsReal (x10 i))
      ∧ (∀ i, IsReal (x11 i)) ∧ (∀ i, IsReal (x12 i)) ∧ (∀ i, IsReal (x13 i)) := by
  have h0 := congrFun h ValueIdx.ix0
  dsimp only [fn, fn_part1, fn_part2, fn_part3, andi] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨isReal_of_all x0 _ _ _ e0, isReal_of_all x2 _ _ _ e2, isReal_of_all x3 _ _ _ e3, isReal_of_all x4 _ _ _ e4,
    isReal_of_all x5 _ _ _ e5, isReal_of_all x6 _ _ _ e6, isReal_of_all x7 _ _ _ e7, isReal_of_all x8 _ _ _ e8,
    isReal_of_all x9 _ _ _ e9, isReal_of_all x10 _ _ _ e10, isReal_of_all x11 _ _ _ e11, isReal_of_all x12 _ _ _ e12,
    isReal_of_all x13 _ _ _ e13⟩

end Cert.Sage

end
-- ==== Proof.lean ====
/-
  A two-layer graph-convolution network (mean aggregation over in-neighbours, two dense weights and a bias per layer,
  batch normalisation over the 60000 nodes, clamp at zero; then a dense projection of the sum of the two layers'
  outputs): the kernel against its reference, over the extended reals.

  The kernel computes the aggregates on the host by the reference's own operations, and the dense stages in four
  regions of 15 row-tiles each. Two things differ from the reference. The batch statistics are taken tile by tile and
  added up — a regrouping of a sum. And the variance is taken as the mean of the squares minus the squared mean, clamped
  at zero, where the reference takes the mean squared deviation: for REAL entries these agree, and every entry is real
  because the precondition makes every float argument finite and each stage keeps real entries real (the divisors
  max(in-degree, 1) and 60000 are nonzero reals, and rsqrt is applied to variance + ε > 0). So both programs end with
  `Cert.Sage.model` of the arguments (Model.lean): the kernel by KChain / KMath, the reference by RefModel.
  The frames of the two kernel programs are the generated ones; the reference's frame is its generated run with the
  result dropped; the idealization rewrote nothing.
-/
import proofs.«121575_j111669149883_2_alg».proof.Defs
import proofs.«121575_j111669149883_2_alg».proof.Proof.Gen.Kernel
import proofs.«121575_j111669149883_2_alg».proof.Proof.Gen.Kernel.Skeleton
import proofs.«121575_j111669149883_2_alg».proof.Proof.Gen.Kernel.Launch
import proofs.«121575_j111669149883_2_alg».proof.Proof.Gen.Kernel.Points
import proofs.«121575_j111669149883_2_alg».proof.Proof.Gen.Kernel.Frame
import proofs.«121575_j111669149883_2_alg».proof.Proof.Gen.KernelIdeal
import proofs.«121575_j111669149883_2_alg».proof.Proof.Gen.KernelIdeal.Skeleton
import proofs.«121575_j111669149883_2_alg».proof.Proof.Gen.KernelIdeal.Launch
import proofs.«121575_j111669149883_2_alg».proof.Proof.Gen.KernelIdeal.Points
import proofs.«121575_j111669149883_2_alg».proof.Proof.Gen.KernelIdeal.Frame
import proofs.«121575_j111669149883_2_alg».proof.Proof.Gen.ReferenceIdeal
import proofs.«121575_j111669149883_2_alg».proof.Proof.Gen.ReferenceIdeal.Run
import proofs.«121575_j111669149883_2_alg».proof.Proof.Gen.ReferenceIdeal.Read
import proofs.«121575_j111669149883_2_alg».proof.Proof.Gen.Pre_finite_inputs
import proofs.«121575_j111669149883_2_alg».proof.Proof.KRun
import proofs.«121575_j111669149883_2_alg».proof.Proof.KMath
import proofs.«121575_j111669149883_2_alg».proof.Proof.RefModel
import proofs.«121575_j111669149883_2_alg».proof.Proof.FiniteArgs
import Idealize.ShloMosaic.Adequacy
import Idealize.ShloMosaic.Init

noncomputable section

namespace Cert.Proof

open Idealize.ShloMosaic Idealize.SL.Sem

/-- Under the precondition every entry of the kernel's float arguments is a real. -/
theorem args_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.KernelIdeal.Math.ArgsReal m c := by
  obtain ⟨h0, h2, h3, h4, h5, h6, h7, h8, h9, h10, h11, -, -⟩ :=
    @Cert.Sage.real_of_pre Cert.Pre_finite_inputs.Gen.facts (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (hpre c)
  exact ⟨h0, h2, h3, h4, h5, h6, h7, h8, h9, h10, h11⟩

/-- Both idealized programs end with the network of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Sage.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ⟨(h c).1.trans ?_, (h c).2⟩)
      (Cert.KernelIdeal.RunValue.run_result (F := Ideal) m ρ)
    exact (Cert.KernelIdeal.Chain.W8_v80 m ρ c).trans (Cert.KernelIdeal.Math.out_eq m c (args_real m hpre c))
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v110_eq, Cert.Sage.Ref.ref_eq_model, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
